-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v213) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x500000 : Shape := ⟨2, ![2, 500000]⟩
abbrev S2x3x128x64 : Shape := ⟨4, ![2, 3, 128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2x3x128x64 : S_.BroadcastsInDim S2x3x128x64 (![] : Fin 0 → Fin S2x3x128x64.rank)
  reducesTo_S2x3x128x64_S_d0_1_2_3 : S2x3x128x64.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S2x3x128x64 .f32) (main_arg6 : FVec F S64 .f32) (main_arg7 : FVec F S2x3x128x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x3x128x64 .f32 := Host.absf main_arg5
  let main_cst_6 : FVec F S_ .f32 := constant S_ .f32 0x7F800000#32
  let main_v20 : FVec F S2x3x128x64 .f32 := broadcastInDim S2x3x128x64 ![] bcast_S_S2x3x128x64 main_cst_6
  let main_v21 : IVec S2x3x128x64 1 := cmpf .olt main_v19 main_v20
  let main_c_7 : IVec S_ 1 := constantI S_ 1 1#1
  let main_v22 : IVec S_ 1 := (fun x v => Host.reduce IntOp.andi x v reducesTo_S2x3x128x64_S_d0_1_2_3 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x3x128x64 .f32 := Host.absf main_arg7
  let main_cst_10 : FVec F S_ .f32 := constant S_ .f32 0x7F800000#32
  let main_v30 : FVec F S2x3x128x64 .f32 := broadcastInDim S2x3x128x64 ![] bcast_S_S2x3x128x64 main_cst_10
  let main_v31 : IVec S2x3x128x64 1 := cmpf .olt main_v29 main_v30
  let main_c_11 : IVec S_ 1 := constantI S_ 1 1#1
  let main_v32 : IVec S_ 1 := (fun x v => Host.reduce IntOp.andi x v reducesTo_S2x3x128x64_S_d0_1_2_3 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x500000 32) (main_arg2 : FVec F S50000x64 .f32) (main_arg3 : FVec F S2x3x128x64 .f32) (main_arg4 : FVec F S64 .f32) (main_arg5 : FVec F S2x3x128x64 .f32) (main_arg6 : FVec F S64 .f32) (main_arg7 : FVec F S2x3x128x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2x3x128x64 .f32 := Host.absf main_arg3
  let main_cst_2 : FVec F S_ .f32 := constant S_ .f32 0x7F800000#32
  let main_v10 : FVec F S2x3x128x64 .f32 := broadcastInDim S2x3x128x64 ![] bcast_S_S2x3x128x64 main_cst_2
  let main_v11 : IVec S2x3x128x64 1 := cmpf .olt main_v9 main_v10
  let main_c_3 : IVec S_ 1 := constantI S_ 1 1#1
  let main_v12 : IVec S_ 1 := (fun x v => Host.reduce IntOp.andi x v reducesTo_S2x3x128x64_S_d0_1_2_3 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x500000 : Shape := ⟨2, ![2, 500000]⟩
abbrev S2x3x128x64 : Shape := ⟨4, ![2, 3, 128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x128 : Shape := ⟨2, ![50000, 128]⟩
abbrev S500000x128 : Shape := ⟨2, ![500000, 128]⟩
abbrev S50000x640 : Shape := ⟨2, ![50000, 640]⟩
abbrev S1x1x128x64 : Shape := ⟨4, ![1, 1, 128, 64]⟩
abbrev S128x64 : Shape := ⟨2, ![128, 64]⟩
abbrev S640x64 : Shape := ⟨2, ![640, 64]⟩
abbrev S640x128 : Shape := ⟨2, ![640, 128]⟩
abbrev S128 : Shape := ⟨1, ![128]⟩
abbrev S1x128 : Shape := ⟨2, ![1, 128]⟩
abbrev S2000x640 : Shape := ⟨2, ![2000, 640]⟩
abbrev S2000x128 : Shape := ⟨2, ![2000, 128]⟩
abbrev S1x64 : Shape := ⟨2, ![1, 64]⟩
abbrev S2000x64 : Shape := ⟨2, ![2000, 64]⟩

abbrev nBuf : Space → Nat
  | .hbm => 278
  | .vmem => 16
  | .smem => 0
  | _ => 0

abbrev hbmTy0_0 (i : Nat) : BufTy := match i % 128 with
  | 0 => ⟨S50000x64, .f32⟩
  | 1 => ⟨S2x500000, .i32⟩
  | 2 => ⟨S50000x64, .f32⟩
  | 3 => ⟨S2x3x128x64, .f32⟩
  | 4 => ⟨S64, .f32⟩
  | 5 => ⟨S2x3x128x64, .f32⟩
  | 6 => ⟨S64, .f32⟩
  | 7 => ⟨S2x3x128x64, .f32⟩
  | 8 => ⟨S64, .f32⟩
  | 9 => ⟨S1x500000, .i32⟩
  | 10 => ⟨S500000, .i32⟩
  | 11 => ⟨S1x500000, .i32⟩
  | 12 => ⟨S500000, .i32⟩
  | 13 => ⟨S_, .f32⟩
  | 14 => ⟨S50000, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S_, .f32⟩
  | 24 => ⟨S500000, .f32⟩
  | 25 => ⟨S50000, .f32⟩
  | 26 => ⟨S_, .f32⟩
  | 27 => ⟨S50000, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S_, .f32⟩
  | 37 => ⟨S500000, .f32⟩
  | 38 => ⟨S50000, .f32⟩
  | 39 => ⟨S_, .f32⟩
  | 40 => ⟨S50000, .f32⟩
  | 41 => ⟨S50000, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000, .f32⟩
  | 51 => ⟨S_, .f32⟩
  | 52 => ⟨S50000, .f32⟩
  | 53 => ⟨S50000, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000, .f32⟩
  | 63 => ⟨S50000x128, .f32⟩
  | 64 => ⟨S500000x1, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x128, .f32⟩
  | 74 => ⟨S500000x128, .f32⟩
  | 75 => ⟨S500000x128, .f32⟩
  | 76 => ⟨S_, .f32⟩
  | 77 => ⟨S50000x128, .f32⟩
  | 78 => ⟨S500000x1, .i32⟩
  | 79 => ⟨S50000x128, .f32⟩
  | 80 => ⟨S500000x1, .f32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000x128, .f32⟩
  | 90 => ⟨S500000x128, .f32⟩
  | 91 => ⟨S500000x128, .f32⟩
  | 92 => ⟨S_, .f32⟩
  | 93 => ⟨S50000x128, .f32⟩
  | 94 => ⟨S500000x1, .i32⟩
  | 95 => ⟨S50000x128, .f32⟩
  | 96 => ⟨S500000x1, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x128, .f32⟩
  | 106 => ⟨S500000x128, .f32⟩
  | 107 => ⟨S500000x128, .f32⟩
  | 108 => ⟨S_, .f32⟩
  | 109 => ⟨S50000x128, .f32⟩
  | 110 => ⟨S500000x1, .i32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S500000x1, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S500000x128, .f32⟩
  | 127 => ⟨S500000x128, .f32⟩
  | _ => ⟨S50000x64, .f32⟩

abbrev hbmTy0_1 (i : Nat) : BufTy := match i % 128 with
  | 0 => ⟨S_, .f32⟩
  | 1 => ⟨S50000x128, .f32⟩
  | 2 => ⟨S500000x1, .i32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000x640, .f32⟩
  | 9 => ⟨S1x1x128x64, .f32⟩
  | 10 => ⟨S128x64, .f32⟩
  | 11 => ⟨S1x1x128x64, .f32⟩
  | 12 => ⟨S128x64, .f32⟩
  | 13 => ⟨S128x64, .f32⟩
  | 14 => ⟨S1x1x128x64, .f32⟩
  | 15 => ⟨S128x64, .f32⟩
  | 16 => ⟨S1x1x128x64, .f32⟩
  | 17 => ⟨S128x64, .f32⟩
  | 18 => ⟨S1x1x128x64, .f32⟩
  | 19 => ⟨S128x64, .f32⟩
  | 20 => ⟨S1x1x128x64, .f32⟩
  | 21 => ⟨S128x64, .f32⟩
  | 22 => ⟨S640x64, .f32⟩
  | 23 => ⟨S1x1x128x64, .f32⟩
  | 24 => ⟨S128x64, .f32⟩
  | 25 => ⟨S1x1x128x64, .f32⟩
  | 26 => ⟨S128x64, .f32⟩
  | 27 => ⟨S128x64, .f32⟩
  | 28 => ⟨S1x1x128x64, .f32⟩
  | 29 => ⟨S128x64, .f32⟩
  | 30 => ⟨S1x1x128x64, .f32⟩
  | 31 => ⟨S128x64, .f32⟩
  | 32 => ⟨S1x1x128x64, .f32⟩
  | 33 => ⟨S128x64, .f32⟩
  | 34 => ⟨S1x1x128x64, .f32⟩
  | 35 => ⟨S128x64, .f32⟩
  | 36 => ⟨S640x64, .f32⟩
  | 37 => ⟨S640x128, .f32⟩
  | 38 => ⟨S128, .f32⟩
  | 39 => ⟨S1x128, .f32⟩
  | 40 => ⟨S50000x128, .f32⟩
  | 41 => ⟨S50000x64, .f32⟩
  | 42 => ⟨S50000x64, .f32⟩
  | 43 => ⟨S50000x64, .f32⟩
  | 44 => ⟨S50000x128, .f32⟩
  | 45 => ⟨S500000x1, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S500000x128, .f32⟩
  | 56 => ⟨S500000x128, .f32⟩
  | 57 => ⟨S_, .f32⟩
  | 58 => ⟨S50000x128, .f32⟩
  | 59 => ⟨S500000x1, .i32⟩
  | 60 => ⟨S50000x128, .f32⟩
  | 61 => ⟨S500000x1, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S500000x128, .f32⟩
  | 72 => ⟨S500000x128, .f32⟩
  | 73 => ⟨S_, .f32⟩
  | 74 => ⟨S50000x128, .f32⟩
  | 75 => ⟨S500000x1, .i32⟩
  | 76 => ⟨S50000x128, .f32⟩
  | 77 => ⟨S500000x1, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x128, .f32⟩
  | 87 => ⟨S500000x128, .f32⟩
  | 88 => ⟨S500000x128, .f32⟩
  | 89 => ⟨S_, .f32⟩
  | 90 => ⟨S50000x128, .f32⟩
  | 91 => ⟨S500000x1, .i32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S500000x1, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S500000x128, .f32⟩
  | 108 => ⟨S500000x128, .f32⟩
  | 109 => ⟨S_, .f32⟩
  | 110 => ⟨S50000x128, .f32⟩
  | 111 => ⟨S500000x1, .i32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S50000x640, .f32⟩
  | 118 => ⟨S1x1x128x64, .f32⟩
  | 119 => ⟨S128x64, .f32⟩
  | 120 => ⟨S1x1x128x64, .f32⟩
  | 121 => ⟨S128x64, .f32⟩
  | 122 => ⟨S128x64, .f32⟩
  | 123 => ⟨S1x1x128x64, .f32⟩
  | 124 => ⟨S128x64, .f32⟩
  | 125 => ⟨S1x1x128x64, .f32⟩
  | 126 => ⟨S128x64, .f32⟩
  | 127 => ⟨S1x1x128x64, .f32⟩
  | _ => ⟨S50000x64, .f32⟩

abbrev hbmTy0_2 (i : Nat) : BufTy := match i % 128 with
  | 0 => ⟨S128x64, .f32⟩
  | 1 => ⟨S1x1x128x64, .f32⟩
  | 2 => ⟨S128x64, .f32⟩
  | 3 => ⟨S640x64, .f32⟩
  | 4 => ⟨S1x64, .f32⟩
  | 5 => ⟨S50000x64, .f32⟩
  | 6 => ⟨S50000x64, .i1⟩
  | 7 => ⟨S50000x64, .i1⟩
  | 8 => ⟨S50000x64, .i1⟩
  | 9 => ⟨S50000x64, .i32⟩
  | 10 => ⟨S50000x64, .f32⟩
  | 11 => ⟨S_, .f32⟩
  | 12 => ⟨S_, .f32⟩
  | 13 => ⟨S50000x64, .i1⟩
  | 14 => ⟨S_, .f32⟩
  | 15 => ⟨S50000x64, .f32⟩
  | 16 => ⟨S50000x64, .f32⟩
  | 17 => ⟨S_, .f32⟩
  | 18 => ⟨S_, .f32⟩
  | 19 => ⟨S_, .f32⟩
  | 20 => ⟨S50000x64, .f32⟩
  | 21 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S2000x640, .f32⟩
  | .local _ .vmem, ⟨1, _⟩ => ⟨S2000x640, .f32⟩
  | .local _ .vmem, ⟨2, _⟩ => ⟨S640x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x640, .f32⟩
  | .local _ .vmem, ⟨7, _⟩ => ⟨S2000x640, .f32⟩
  | .local _ .vmem, ⟨8, _⟩ => ⟨S640x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_c_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_15 : Ref sig .tc := ⟨.hbm, 81, rfl⟩
abbrev main_v55 : Ref sig .tc := ⟨.hbm, 82, rfl⟩
abbrev main_v56 : Ref sig .tc := ⟨.hbm, 83, rfl⟩
abbrev main_c_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_18 : Ref sig .tc := ⟨.hbm, 97, rfl⟩
abbrev main_v68 : Ref sig .tc := ⟨.hbm, 98, rfl⟩
abbrev main_v69 : Ref sig .tc := ⟨.hbm, 99, rfl⟩
abbrev main_c_19 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_c_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_25 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_c_26 : Ref sig .tc := ⟨.hbm, 174, rfl⟩
abbrev main_v137 : Ref sig .tc := ⟨.hbm, 175, rfl⟩
abbrev main_v138 : Ref sig .tc := ⟨.hbm, 176, rfl⟩
abbrev main_c_27 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_28 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_c_29 : Ref sig .tc := ⟨.hbm, 190, rfl⟩
abbrev main_v150 : Ref sig .tc := ⟨.hbm, 191, rfl⟩
abbrev main_v151 : Ref sig .tc := ⟨.hbm, 192, rfl⟩
abbrev main_c_30 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_31 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_c_32 : Ref sig .tc := ⟨.hbm, 206, rfl⟩
abbrev main_v163 : Ref sig .tc := ⟨.hbm, 207, rfl⟩
abbrev main_v164 : Ref sig .tc := ⟨.hbm, 208, rfl⟩
abbrev main_c_33 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_34 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_35 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_c_36 : Ref sig .tc := ⟨.hbm, 226, rfl⟩
abbrev main_v179 : Ref sig .tc := ⟨.hbm, 227, rfl⟩
abbrev main_v180 : Ref sig .tc := ⟨.hbm, 228, rfl⟩
abbrev main_c_37 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_cst_38 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_39 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_call0_v0 : Ref sig .tc := ⟨.hbm, 263, rfl⟩
abbrev main_call0_v1 : Ref sig .tc := ⟨.hbm, 264, rfl⟩
abbrev main_call0_v2 : Ref sig .tc := ⟨.hbm, 265, rfl⟩
abbrev main_call0_v3 : Ref sig .tc := ⟨.hbm, 266, rfl⟩
abbrev main_call0_cst : Ref sig .tc := ⟨.hbm, 267, rfl⟩
abbrev main_call0_v4 : Ref sig .tc := ⟨.hbm, 268, rfl⟩
abbrev main_call0_call0_v0 : Ref sig .tc := ⟨.hbm, 269, rfl⟩
abbrev main_call0_call0_cst : Ref sig .tc := ⟨.hbm, 270, rfl⟩
abbrev main_call0_call0_call0_v0 : Ref sig .tc := ⟨.hbm, 271, rfl⟩
abbrev main_call0_call0_v1 : Ref sig .tc := ⟨.hbm, 272, rfl⟩
abbrev main_call0_call0_cst_0 : Ref sig .tc := ⟨.hbm, 273, rfl⟩
abbrev main_call0_v5 : Ref sig .tc := ⟨.hbm, 274, rfl⟩
abbrev main_v212 : Ref sig .tc := ⟨.hbm, 275, rfl⟩
abbrev main_call1_v0 : Ref sig .tc := ⟨.hbm, 276, rfl⟩
abbrev main_v213 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S_S500000 : S_.BroadcastsInDim S500000 (![] : Fin 0 → Fin S500000.rank)
  bcast_S500000_S500000x1_0 : S500000.BroadcastsInDim S500000x1 (![0] : Fin 1 → Fin S500000x1.rank)
  concatenates_S50000x64_S50000x64_S50000x128_d1 : Shape.Concatenates [S50000x64, S50000x64] S50000x128 1
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  concatenates_S50000x128_S50000x128_S50000x128_S50000x128_S50000x128_S50000x640_d1 : Shape.Concatenates [S50000x128, S50000x128, S50000x128, S50000x128, S50000x128] S50000x640 1
  slices_S2x3x128x64_S1x1x128x64_0_0_0_0 : S2x3x128x64.Slices ![0, 0, 0, 0] S1x1x128x64
  shapeCasts_S1x1x128x64_S128x64 : S1x1x128x64.ShapeCasts S128x64
  slices_S2x3x128x64_S1x1x128x64_1_0_0_0 : S2x3x128x64.Slices ![1, 0, 0, 0] S1x1x128x64
  slices_S2x3x128x64_S1x1x128x64_0_1_0_0 : S2x3x128x64.Slices ![0, 1, 0, 0] S1x1x128x64
  slices_S2x3x128x64_S1x1x128x64_1_1_0_0 : S2x3x128x64.Slices ![1, 1, 0, 0] S1x1x128x64
  slices_S2x3x128x64_S1x1x128x64_0_2_0_0 : S2x3x128x64.Slices ![0, 2, 0, 0] S1x1x128x64
  slices_S2x3x128x64_S1x1x128x64_1_2_0_0 : S2x3x128x64.Slices ![1, 2, 0, 0] S1x1x128x64
  concatenates_S128x64_S128x64_S128x64_S128x64_S128x64_S640x64_d0 : Shape.Concatenates [S128x64, S128x64, S128x64, S128x64, S128x64] S640x64 0
  concatenates_S640x64_S640x64_S640x128_d1 : Shape.Concatenates [S640x64, S640x64] S640x128 1
  concatenates_S64_S64_S128_d0 : Shape.Concatenates [S64, S64] S128 0
  shapeCasts_S128_S1x128 : S128.ShapeCasts S1x128
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  bitsLt_bf16_f32 : FTy.bits .bf16 < FTy.bits .f32
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S50000x128_S50000x64_0_0 : S50000x128.Slices ![0, 0] S50000x64
  slices_S50000x128_S50000x64_0_64 : S50000x128.Slices ![0, 64] S50000x64
  shapeCasts_S64_S1x64 : S64.ShapeCasts S1x64
  inb_S640x64_S640x64_0_0 : ∀ a, (![0, 0] : Fin 2 → Nat) a + S640x64.size a ≤ S640x64.size a
  h_S640x64 : 0 < S640x64.numel
  shapeCasts_S640x64_S640x64 : S640x64.ShapeCasts S640x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  natLt_1_32 : 1 < 32
  reducesTo_S50000x64_S_d0_1 : S50000x64.ReducesTo [0, 1] S_
  h_S_ : 0 < S_.numel
  bcast_S_S50000x64 : S_.BroadcastsInDim S50000x64 (![] : Fin 0 → Fin S50000x64.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x640_S640x128_S2000x128_1_0_0_1_n_n_wf : DotDims.WF S2000x640 S640x128 S2000x128 [1] [0] [0] [1] [] []
  dot_S2000x640_S640x64_S2000x64_1_0_0_1_n_n_wf : DotDims.WF S2000x640 S640x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x640.size a ≤ S50000x640.size a
  hwx0_0 : ∀ i : grid0.Coords, EltTy.bits .f32 = 32 ∨ (Rect.block (s := S50000x640) S2000x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x128.size a ≤ S640x128.size a
  hwx0_1 : ∀ i : grid0.Coords, EltTy.bits .f32 = 32 ∨ (Rect.block (s := S640x128) S640x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x640.size a ≤ S50000x640.size a
  hwx1_0 : ∀ i : grid1.Coords, EltTy.bits .f32 = 32 ∨ (Rect.block (s := S50000x640) S2000x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x64.size a ≤ S640x64.size a
  hwx1_1 : ∀ i : grid1.Coords, EltTy.bits .f32 = 32 ∨ (Rect.block (s := S640x64) S640x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x640_S640x128_S2000x128_1_0_0_1_n_n : DotDims S2000x640 S640x128 S2000x128 where
  lhsContracting := [1]
  rhsContracting := [0]
  lhsNonContracting := [0]
  rhsNonContracting := [1]
  lhsBatch := []
  rhsBatch := []
  wf := dot_S2000x640_S640x128_S2000x128_1_0_0_1_n_n_wf
def dot_S2000x640_S640x64_S2000x64_1_0_0_1_n_n : DotDims S2000x640 S640x64 S2000x64 where
  lhsContracting := [1]
  rhsContracting := [0]
  lhsNonContracting := [0]
  rhsNonContracting := [1]
  lhsBatch := []
  rhsBatch := []
  wf := dot_S2000x640_S640x64_S2000x64_1_0_0_1_n_n_wf

abbrev win0_0 : Pipeline.Window sig grid0 :=
  Pipeline.Window.ofSpec (Memref.whole main_v99) S2000x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v128) S640x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v130) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v131) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v194) S2000x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v208) S640x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v209) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v132) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v210) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x500000 : Shape := ⟨2, ![2, 500000]⟩
abbrev S2x3x128x64 : Shape := ⟨4, ![2, 3, 128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x128 : Shape := ⟨2, ![50000, 128]⟩
abbrev S1x1x128x64 : Shape := ⟨4, ![1, 1, 128, 64]⟩
abbrev S128x64 : Shape := ⟨2, ![128, 64]⟩
abbrev S500000x128 : Shape := ⟨2, ![500000, 128]⟩
abbrev S1x64 : Shape := ⟨2, ![1, 64]⟩

abbrev nBuf : Space → Nat
  | .hbm => 396
  | .vmem => 0
  | .smem => 0
  | _ => 0

abbrev hbmTy0_0 (i : Nat) : BufTy := match i % 128 with
  | 0 => ⟨S50000x64, .f32⟩
  | 1 => ⟨S2x500000, .i32⟩
  | 2 => ⟨S50000x64, .f32⟩
  | 3 => ⟨S2x3x128x64, .f32⟩
  | 4 => ⟨S64, .f32⟩
  | 5 => ⟨S2x3x128x64, .f32⟩
  | 6 => ⟨S64, .f32⟩
  | 7 => ⟨S2x3x128x64, .f32⟩
  | 8 => ⟨S64, .f32⟩
  | 9 => ⟨S1x500000, .i32⟩
  | 10 => ⟨S500000, .i32⟩
  | 11 => ⟨S1x500000, .i32⟩
  | 12 => ⟨S500000, .i32⟩
  | 13 => ⟨S_, .f32⟩
  | 14 => ⟨S50000, .f32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S_, .f32⟩
  | 24 => ⟨S500000, .f32⟩
  | 25 => ⟨S50000, .f32⟩
  | 26 => ⟨S_, .f32⟩
  | 27 => ⟨S50000, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S_, .f32⟩
  | 37 => ⟨S500000, .f32⟩
  | 38 => ⟨S50000, .f32⟩
  | 39 => ⟨S_, .f32⟩
  | 40 => ⟨S50000, .f32⟩
  | 41 => ⟨S50000, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000, .f32⟩
  | 51 => ⟨S_, .f32⟩
  | 52 => ⟨S50000, .f32⟩
  | 53 => ⟨S50000, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000, .f32⟩
  | 63 => ⟨S50000x128, .f32⟩
  | 64 => ⟨S1x1x128x64, .f32⟩
  | 65 => ⟨S128x64, .f32⟩
  | 66 => ⟨S1x1x128x64, .f32⟩
  | 67 => ⟨S128x64, .f32⟩
  | 68 => ⟨S128x64, .f32⟩
  | 69 => ⟨S50000x64, .f32⟩
  | 70 => ⟨S500000x1, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S500000x128, .f32⟩
  | 81 => ⟨S500000x128, .f32⟩
  | 82 => ⟨S_, .f32⟩
  | 83 => ⟨S50000x128, .f32⟩
  | 84 => ⟨S500000x1, .i32⟩
  | 85 => ⟨S50000x128, .f32⟩
  | 86 => ⟨S500000x1, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S500000x128, .f32⟩
  | 97 => ⟨S500000x128, .f32⟩
  | 98 => ⟨S_, .f32⟩
  | 99 => ⟨S50000x128, .f32⟩
  | 100 => ⟨S500000x1, .i32⟩
  | 101 => ⟨S50000x128, .f32⟩
  | 102 => ⟨S1x1x128x64, .f32⟩
  | 103 => ⟨S128x64, .f32⟩
  | 104 => ⟨S50000x64, .f32⟩
  | 105 => ⟨S50000x64, .f32⟩
  | 106 => ⟨S1x1x128x64, .f32⟩
  | 107 => ⟨S128x64, .f32⟩
  | 108 => ⟨S50000x64, .f32⟩
  | 109 => ⟨S50000x64, .f32⟩
  | 110 => ⟨S500000x1, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x128, .f32⟩
  | 120 => ⟨S500000x128, .f32⟩
  | 121 => ⟨S500000x128, .f32⟩
  | 122 => ⟨S_, .f32⟩
  | 123 => ⟨S50000x128, .f32⟩
  | 124 => ⟨S500000x1, .i32⟩
  | 125 => ⟨S50000x128, .f32⟩
  | 126 => ⟨S_, .f32⟩
  | 127 => ⟨S50000x128, .f32⟩
  | _ => ⟨S50000x64, .f32⟩

abbrev hbmTy0_1 (i : Nat) : BufTy := match i % 128 with
  | 0 => ⟨S50000x128, .f32⟩
  | 1 => ⟨S50000x128, .f32⟩
  | 2 => ⟨S500000x1, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x128, .f32⟩
  | 12 => ⟨S500000x128, .f32⟩
  | 13 => ⟨S500000x128, .f32⟩
  | 14 => ⟨S_, .f32⟩
  | 15 => ⟨S50000x128, .f32⟩
  | 16 => ⟨S500000x1, .i32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S1x1x128x64, .f32⟩
  | 23 => ⟨S128x64, .f32⟩
  | 24 => ⟨S50000x64, .f32⟩
  | 25 => ⟨S50000x64, .f32⟩
  | 26 => ⟨S1x1x128x64, .f32⟩
  | 27 => ⟨S128x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S1x1x128x64, .f32⟩
  | 42 => ⟨S128x64, .f32⟩
  | 43 => ⟨S1x1x128x64, .f32⟩
  | 44 => ⟨S128x64, .f32⟩
  | 45 => ⟨S128x64, .f32⟩
  | 46 => ⟨S50000x64, .f32⟩
  | 47 => ⟨S500000x1, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S500000x128, .f32⟩
  | 58 => ⟨S500000x128, .f32⟩
  | 59 => ⟨S_, .f32⟩
  | 60 => ⟨S50000x128, .f32⟩
  | 61 => ⟨S500000x1, .i32⟩
  | 62 => ⟨S50000x128, .f32⟩
  | 63 => ⟨S500000x1, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S500000x128, .f32⟩
  | 74 => ⟨S500000x128, .f32⟩
  | 75 => ⟨S_, .f32⟩
  | 76 => ⟨S50000x128, .f32⟩
  | 77 => ⟨S500000x1, .i32⟩
  | 78 => ⟨S50000x128, .f32⟩
  | 79 => ⟨S1x1x128x64, .f32⟩
  | 80 => ⟨S128x64, .f32⟩
  | 81 => ⟨S50000x64, .f32⟩
  | 82 => ⟨S50000x64, .f32⟩
  | 83 => ⟨S1x1x128x64, .f32⟩
  | 84 => ⟨S128x64, .f32⟩
  | 85 => ⟨S50000x64, .f32⟩
  | 86 => ⟨S50000x64, .f32⟩
  | 87 => ⟨S500000x1, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S500000x128, .f32⟩
  | 98 => ⟨S500000x128, .f32⟩
  | 99 => ⟨S_, .f32⟩
  | 100 => ⟨S50000x128, .f32⟩
  | 101 => ⟨S500000x1, .i32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S500000x1, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x128, .f32⟩
  | 117 => ⟨S500000x128, .f32⟩
  | 118 => ⟨S500000x128, .f32⟩
  | 119 => ⟨S_, .f32⟩
  | 120 => ⟨S50000x128, .f32⟩
  | 121 => ⟨S500000x1, .i32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x1x128x64, .f32⟩
  | _ => ⟨S50000x64, .f32⟩

abbrev hbmTy0_2 (i : Nat) : BufTy := match i % 128 with
  | 0 => ⟨S128x64, .f32⟩
  | 1 => ⟨S50000x64, .f32⟩
  | 2 => ⟨S50000x64, .f32⟩
  | 3 => ⟨S1x1x128x64, .f32⟩
  | 4 => ⟨S128x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S50000x128, .f32⟩
  | 20 => ⟨S1x1x128x64, .f32⟩
  | 21 => ⟨S128x64, .f32⟩
  | 22 => ⟨S1x1x128x64, .f32⟩
  | 23 => ⟨S128x64, .f32⟩
  | 24 => ⟨S128x64, .f32⟩
  | 25 => ⟨S50000x64, .f32⟩
  | 26 => ⟨S500000x1, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S500000x128, .f32⟩
  | 37 => ⟨S500000x128, .f32⟩
  | 38 => ⟨S_, .f32⟩
  | 39 => ⟨S50000x128, .f32⟩
  | 40 => ⟨S500000x1, .i32⟩
  | 41 => ⟨S50000x128, .f32⟩
  | 42 => ⟨S500000x1, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S500000x128, .f32⟩
  | 53 => ⟨S500000x128, .f32⟩
  | 54 => ⟨S_, .f32⟩
  | 55 => ⟨S50000x128, .f32⟩
  | 56 => ⟨S500000x1, .i32⟩
  | 57 => ⟨S50000x128, .f32⟩
  | 58 => ⟨S1x1x128x64, .f32⟩
  | 59 => ⟨S128x64, .f32⟩
  | 60 => ⟨S50000x64, .f32⟩
  | 61 => ⟨S50000x64, .f32⟩
  | 62 => ⟨S1x1x128x64, .f32⟩
  | 63 => ⟨S128x64, .f32⟩
  | 64 => ⟨S50000x64, .f32⟩
  | 65 => ⟨S50000x64, .f32⟩
  | 66 => ⟨S500000x1, .f32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .f32⟩
  | 76 => ⟨S500000x128, .f32⟩
  | 77 => ⟨S500000x128, .f32⟩
  | 78 => ⟨S_, .f32⟩
  | 79 => ⟨S50000x128, .f32⟩
  | 80 => ⟨S500000x1, .i32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S500000x1, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S500000x128, .f32⟩
  | 97 => ⟨S500000x128, .f32⟩
  | 98 => ⟨S_, .f32⟩
  | 99 => ⟨S50000x128, .f32⟩
  | 100 => ⟨S500000x1, .i32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1x1x128x64, .f32⟩
  | 107 => ⟨S128x64, .f32⟩
  | 108 => ⟨S50000x64, .f32⟩
  | 109 => ⟨S50000x64, .f32⟩
  | 110 => ⟨S1x1x128x64, .f32⟩
  | 111 => ⟨S128x64, .f32⟩
  | 112 => ⟨S50000x64, .f32⟩
  | 113 => ⟨S50000x64, .f32⟩
  | 114 => ⟨S1x64, .f32⟩
  | 115 => ⟨S50000x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S50000x64, .f32⟩
  | 124 => ⟨S50000x64, .i1⟩
  | 125 => ⟨S50000x64, .i1⟩
  | 126 => ⟨S50000x64, .i1⟩
  | 127 => ⟨S50000x64, .i32⟩
  | _ => ⟨S50000x64, .f32⟩

abbrev hbmTy0_3 (i : Nat) : BufTy := match i % 128 with
  | 0 => ⟨S50000x64, .f32⟩
  | 1 => ⟨S_, .f32⟩
  | 2 => ⟨S_, .f32⟩
  | 3 => ⟨S50000x64, .i1⟩
  | 4 => ⟨S_, .f32⟩
  | 5 => ⟨S50000x64, .f32⟩
  | 6 => ⟨S50000x64, .f32⟩
  | 7 => ⟨S_, .f32⟩
  | 8 => ⟨S_, .f32⟩
  | 9 => ⟨S_, .f32⟩
  | 10 => ⟨S50000x64, .f32⟩
  | 11 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_c_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_15 : Ref sig .tc := ⟨.hbm, 87, rfl⟩
abbrev main_v61 : Ref sig .tc := ⟨.hbm, 88, rfl⟩
abbrev main_v62 : Ref sig .tc := ⟨.hbm, 89, rfl⟩
abbrev main_c_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_18 : Ref sig .tc := ⟨.hbm, 111, rfl⟩
abbrev main_v82 : Ref sig .tc := ⟨.hbm, 112, rfl⟩
abbrev main_v83 : Ref sig .tc := ⟨.hbm, 113, rfl⟩
abbrev main_c_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_20 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_22 : Ref sig .tc := ⟨.hbm, 131, rfl⟩
abbrev main_v98 : Ref sig .tc := ⟨.hbm, 132, rfl⟩
abbrev main_v99 : Ref sig .tc := ⟨.hbm, 133, rfl⟩
abbrev main_c_23 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_24 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_25 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_26 : Ref sig .tc := ⟨.hbm, 163, rfl⟩
abbrev main_v126 : Ref sig .tc := ⟨.hbm, 164, rfl⟩
abbrev main_v127 : Ref sig .tc := ⟨.hbm, 165, rfl⟩
abbrev main_cst_27 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_c_28 : Ref sig .tc := ⟨.hbm, 176, rfl⟩
abbrev main_v137 : Ref sig .tc := ⟨.hbm, 177, rfl⟩
abbrev main_v138 : Ref sig .tc := ⟨.hbm, 178, rfl⟩
abbrev main_c_29 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_30 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_c_31 : Ref sig .tc := ⟨.hbm, 192, rfl⟩
abbrev main_v150 : Ref sig .tc := ⟨.hbm, 193, rfl⟩
abbrev main_v151 : Ref sig .tc := ⟨.hbm, 194, rfl⟩
abbrev main_c_32 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_33 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_c_34 : Ref sig .tc := ⟨.hbm, 216, rfl⟩
abbrev main_v171 : Ref sig .tc := ⟨.hbm, 217, rfl⟩
abbrev main_v172 : Ref sig .tc := ⟨.hbm, 218, rfl⟩
abbrev main_c_35 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_36 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_37 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_c_38 : Ref sig .tc := ⟨.hbm, 236, rfl⟩
abbrev main_v187 : Ref sig .tc := ⟨.hbm, 237, rfl⟩
abbrev main_v188 : Ref sig .tc := ⟨.hbm, 238, rfl⟩
abbrev main_c_39 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_cst_40 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_41 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_42 : Ref sig .tc := ⟨.hbm, 268, rfl⟩
abbrev main_v215 : Ref sig .tc := ⟨.hbm, 269, rfl⟩
abbrev main_v216 : Ref sig .tc := ⟨.hbm, 270, rfl⟩
abbrev main_cst_43 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_c_44 : Ref sig .tc := ⟨.hbm, 283, rfl⟩
abbrev main_v228 : Ref sig .tc := ⟨.hbm, 284, rfl⟩
abbrev main_v229 : Ref sig .tc := ⟨.hbm, 285, rfl⟩
abbrev main_c_45 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_cst_46 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_c_47 : Ref sig .tc := ⟨.hbm, 299, rfl⟩
abbrev main_v241 : Ref sig .tc := ⟨.hbm, 300, rfl⟩
abbrev main_v242 : Ref sig .tc := ⟨.hbm, 301, rfl⟩
abbrev main_c_48 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_49 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_c_50 : Ref sig .tc := ⟨.hbm, 323, rfl⟩
abbrev main_v262 : Ref sig .tc := ⟨.hbm, 324, rfl⟩
abbrev main_v263 : Ref sig .tc := ⟨.hbm, 325, rfl⟩
abbrev main_c_51 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_cst_52 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_cst_53 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_c_54 : Ref sig .tc := ⟨.hbm, 343, rfl⟩
abbrev main_v278 : Ref sig .tc := ⟨.hbm, 344, rfl⟩
abbrev main_v279 : Ref sig .tc := ⟨.hbm, 345, rfl⟩
abbrev main_c_55 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_cst_56 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_cst_57 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_cst_58 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_call0_v0 : Ref sig .tc := ⟨.hbm, 381, rfl⟩
abbrev main_call0_v1 : Ref sig .tc := ⟨.hbm, 382, rfl⟩
abbrev main_call0_v2 : Ref sig .tc := ⟨.hbm, 383, rfl⟩
abbrev main_call0_v3 : Ref sig .tc := ⟨.hbm, 384, rfl⟩
abbrev main_call0_cst : Ref sig .tc := ⟨.hbm, 385, rfl⟩
abbrev main_call0_v4 : Ref sig .tc := ⟨.hbm, 386, rfl⟩
abbrev main_call0_call0_v0 : Ref sig .tc := ⟨.hbm, 387, rfl⟩
abbrev main_call0_call0_cst : Ref sig .tc := ⟨.hbm, 388, rfl⟩
abbrev main_call0_call0_call0_v0 : Ref sig .tc := ⟨.hbm, 389, rfl⟩
abbrev main_call0_call0_v1 : Ref sig .tc := ⟨.hbm, 390, rfl⟩
abbrev main_call0_call0_cst_0 : Ref sig .tc := ⟨.hbm, 391, rfl⟩
abbrev main_call0_v5 : Ref sig .tc := ⟨.hbm, 392, rfl⟩
abbrev main_v311 : Ref sig .tc := ⟨.hbm, 393, rfl⟩
abbrev main_call1_v0 : Ref sig .tc := ⟨.hbm, 394, rfl⟩
abbrev main_v312 : Ref sig .tc := ⟨.hbm, 395, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S_S500000 : S_.BroadcastsInDim S500000 (![] : Fin 0 → Fin S500000.rank)
  bcast_S500000_S500000x1_0 : S500000.BroadcastsInDim S500000x1 (![0] : Fin 1 → Fin S500000x1.rank)
  concatenates_S50000x64_S50000x64_S50000x128_d1 : Shape.Concatenates [S50000x64, S50000x64] S50000x128 1
  slices_S2x3x128x64_S1x1x128x64_0_0_0_0 : S2x3x128x64.Slices ![0, 0, 0, 0] S1x1x128x64
  shapeCasts_S1x1x128x64_S128x64 : S1x1x128x64.ShapeCasts S128x64
  slices_S2x3x128x64_S1x1x128x64_1_0_0_0 : S2x3x128x64.Slices ![1, 0, 0, 0] S1x1x128x64
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  slices_S2x3x128x64_S1x1x128x64_0_1_0_0 : S2x3x128x64.Slices ![0, 1, 0, 0] S1x1x128x64
  slices_S2x3x128x64_S1x1x128x64_1_1_0_0 : S2x3x128x64.Slices ![1, 1, 0, 0] S1x1x128x64
  slices_S2x3x128x64_S1x1x128x64_0_2_0_0 : S2x3x128x64.Slices ![0, 2, 0, 0] S1x1x128x64
  slices_S2x3x128x64_S1x1x128x64_1_2_0_0 : S2x3x128x64.Slices ![1, 2, 0, 0] S1x1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  natLt_1_32 : 1 < 32
  reducesTo_S50000x64_S_d0_1 : S50000x64.ReducesTo [0, 1] S_
  h_S_ : 0 < S_.numel
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S50000x128_S128x64_S50000x64_1_0_0_1_n_n_wf : DotDims.WF S50000x128 S128x64 S50000x64 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.BitsRegions.lean ====
/-
  The two pipelined regions of the program, each read at the buffer contents it is entered with.
  A region walks a grid of 25 points; at point t the body sees rows [2000 t, 2000 t + 2000) of its row-blocked
  operands and the whole of its resident operands (the stacked weights and the bias row), and leaves in the output
  block one pure function of what it loaded: for the gate region the logistic of (block x weights + bias row),
  for the update region z * h + (1 - z) * tanh (block x weights + bias row).
-/
import proofs.«157260_j76725295776119_1_alg».proof.Proof.Gen.Kernel.Launch
import proofs.«157260_j76725295776119_1_alg».proof.Proof.Gen.Kernel.Skeleton
import proofs.«157260_j76725295776119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered with
variable (V : (c : Dev nD) → (b : Ref sig .tc) → Buf (Elt F) ((c : Thread nD τ).loc b))

/-! # The gate region -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2000x640 := Rect.unit (s := S2000x640) ![0, 0] S2000x640.size inb_S2000x640_S2000x640_0_0
abbrev rW0 : Rect S640x128 := Rect.unit (s := S640x128) ![0, 0] S640x128.size inb_S640x128_S640x128_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- The output block after the body, from the three input blocks: one store of the whole block. -/
def out0_3 (x0 : Vec F S2000x640 .f32) (x1 : Vec F S640x128 .f32) (x2 : Vec F S1x128 .f32) : Vec F S2000x128 .f32 :=
  View.canon [⟨rO0, k0_pay1 (View.ld x0 rX) (View.ld x1 rW0) (View.ld x2 rB0)⟩]

theorem cover0_3 (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

set_option maxHeartbeats 1000000 in
/-- The body on whole staging buffers: the inputs stay, the output ends at out0_3 of the inputs. -/
theorem sound_kernel0 (c : Dev nD) (E : Set ℕ) (i : grid0.Coords) (arg0 : Memref sig .tc .vmem S2000x640 .f32) (harg0 : arg0.IsWhole) (arg1 : Memref sig .tc .vmem S640x128 .f32) (harg1 : arg1.IsWhole)
    (arg2 : Memref sig .tc .vmem S1x128 .f32) (harg2 : arg2.IsWhole) (arg3 : Memref sig .tc .vmem S2000x128 .f32) (harg3 : arg3.IsWhole)
    (x0 : Vec F S2000x640 .f32) (x1 : Vec F S640x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__gate_kernel i arg0 harg0 arg1 harg1 arg2 harg2 arg3 harg3) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the gate pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # The update region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rW1 : Rect S640x64 := Rect.unit (s := S640x64) ![0, 0] S640x64.size inb_S640x64_S640x64_0_0
abbrev rB1 : Rect S1x64 := Rect.unit (s := S1x64) ![0, 0] S1x64.size inb_S1x64_S1x64_0_0
abbrev rO1 : Rect S2000x64 := Rect.unit (s := S2000x64) ![0, 0] S2000x64.size inb_S2000x64_S2000x64_0_0

/-- The output block after the body, from the five input blocks: one store of the whole block. -/
def out1_5 (x0 : Vec F S2000x640 .f32) (x1 : Vec F S640x64 .f32) (x2 : Vec F S1x64 .f32) (x3 : Vec F S2000x64 .f32) (x4 : Vec F S2000x64 .f32) : Vec F S2000x64 .f32 :=
  View.canon [⟨rO1, k1_pay1 (View.ld x0 rX) (View.ld x1 rW1) (View.ld x2 rB1) (View.ld x3 rO1) (View.ld x4 rO1)⟩]

theorem cover1_5 (p0 : Vec F S2000x64 .f32) (y : S2000x64.Idx) :
    ∃ pc ∈ ([⟨rO1, p0⟩] : List (View.Piece (Elt F) S2000x64 .f32)), y ∈ pc.1.set :=
  View.cover_of_tiled [⟨rO1, p0⟩] S2000x64.size (by rfl) y

set_option maxHeartbeats 1000000 in
theorem sound_kernel1 (c : Dev nD) (E : Set ℕ) (i : grid1.Coords) (arg0 : Memref sig .tc .vmem S2000x640 .f32) (harg0 : arg0.IsWhole) (arg1 : Memref sig .tc .vmem S640x64 .f32) (harg1 : arg1.IsWhole)
    (arg2 : Memref sig .tc .vmem S1x64 .f32) (harg2 : arg2.IsWhole) (arg3 : Memref sig .tc .vmem S2000x64 .f32) (harg3 : arg3.IsWhole)
    (arg4 : Memref sig .tc .vmem S2000x64 .f32) (harg4 : arg4.IsWhole) (arg5 : Memref sig .tc .vmem S2000x64 .f32) (harg5 : arg5.IsWhole)
    (x0 : Vec F S2000x640 .f32) (x1 : Vec F S640x64 .f32) (x2 : Vec F S1x64 .f32) (x3 : Vec F S2000x64 .f32) (x4 : Vec F S2000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__update_kernel i arg0 harg0 arg1 harg1 arg2 harg2 arg3 harg3 arg4 harg4 arg5 harg5) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole run of the program: host lines, the gate region, host lines, the update region, and the closing host
  lines, composed from the launch memory. Between two pieces every unscoped buffer is held at a named valuation
  (a fold from the launch contents: a host line applies its operations, a region replaces its output array by what
  its 25 write-backs leave); no piece writes an argument array, so each argument ends as launched.
-/
import proofs.«157260_j76725295776119_1_alg».proof.Proof.BitsRegions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the pieces -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ## No piece writes an argument -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg2) := (W4_arr m ρ c 4).trans (((dat1 (V3 m ρ) c).arrAt_in 4 rfl _).trans (A_eq1 (V3 m ρ) c 4))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]
theorem main_run (c : Dev nD) : main (F := F) c = Pipeline.Seg.run (segs m ρ) := (main_chain c).trans (by chain_rfl)

set_option backward.isDefEq.respectTransparency.types false in
/-- Every weakly fair execution from m ends, nothing faulting, with every unscoped buffer at the last valuation. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_all m ρ (fun s h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩)

end Cert.Kernel.Hand

end
-- ==== Proof.IdealRegions.lean ====
/-
  The two pipelined regions of the program, each read at the buffer contents it is entered with.
  A region walks a grid of 25 points; at point t the body sees rows [2000 t, 2000 t + 2000) of its row-blocked
  operands and the whole of its resident operands (the stacked weights and the bias row), and leaves in the output
  block one pure function of what it loaded: for the gate region the logistic of (block x weights + bias row),
  for the update region z * h + (1 - z) * tanh (block x weights + bias row).
-/
import proofs.«157260_j76725295776119_1_alg».proof.Proof.Gen.KernelIdeal.Launch
import proofs.«157260_j76725295776119_1_alg».proof.Proof.Gen.KernelIdeal.Skeleton
import proofs.«157260_j76725295776119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered with
variable (V : (c : Dev nD) → (b : Ref sig .tc) → Buf (Elt F) ((c : Thread nD τ).loc b))

/-! # The gate region -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2000x640 := Rect.unit (s := S2000x640) ![0, 0] S2000x640.size inb_S2000x640_S2000x640_0_0
abbrev rW0 : Rect S640x128 := Rect.unit (s := S640x128) ![0, 0] S640x128.size inb_S640x128_S640x128_0_0
abbrev rB0 : Rect S1x128 := Rect.unit (s := S1x128) ![0, 0] S1x128.size inb_S1x128_S1x128_0_0
abbrev rO0 : Rect S2000x128 := Rect.unit (s := S2000x128) ![0, 0] S2000x128.size inb_S2000x128_S2000x128_0_0

/-- The output block after the body, from the three input blocks: one store of the whole block. -/
def out0_3 (x0 : Vec F S2000x640 .f32) (x1 : Vec F S640x128 .f32) (x2 : Vec F S1x128 .f32) : Vec F S2000x128 .f32 :=
  View.canon [⟨rO0, k0_pay1 (View.ld x0 rX) (View.ld x1 rW0) (View.ld x2 rB0)⟩]

theorem cover0_3 (p0 : Vec F S2000x128 .f32) (y : S2000x128.Idx) :
    ∃ pc ∈ ([⟨rO0, p0⟩] : List (View.Piece (Elt F) S2000x128 .f32)), y ∈ pc.1.set :=
  View.cover_of_tiled [⟨rO0, p0⟩] S2000x128.size (by rfl) y

set_option maxHeartbeats 1000000 in
/-- The body on whole staging buffers: the inputs stay, the output ends at out0_3 of the inputs. -/
theorem sound_kernel0 (c : Dev nD) (E : Set ℕ) (i : grid0.Coords) (arg0 : Memref sig .tc .vmem S2000x640 .f32) (harg0 : arg0.IsWhole) (arg1 : Memref sig .tc .vmem S640x128 .f32) (harg1 : arg1.IsWhole)
    (arg2 : Memref sig .tc .vmem S1x128 .f32) (harg2 : arg2.IsWhole) (arg3 : Memref sig .tc .vmem S2000x128 .f32) (harg3 : arg3.IsWhole)
    (x0 : Vec F S2000x640 .f32) (x1 : Vec F S640x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__gate_kernel i arg0 harg0 arg1 harg1 arg2 harg2 arg3 harg3) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the gate pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! # The update region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rW1 : Rect S640x64 := Rect.unit (s := S640x64) ![0, 0] S640x64.size inb_S640x64_S640x64_0_0
abbrev rB1 : Rect S1x64 := Rect.unit (s := S1x64) ![0, 0] S1x64.size inb_S1x64_S1x64_0_0
abbrev rO1 : Rect S2000x64 := Rect.unit (s := S2000x64) ![0, 0] S2000x64.size inb_S2000x64_S2000x64_0_0

/-- The output block after the body, from the five input blocks: one store of the whole block. -/
def out1_5 (x0 : Vec F S2000x640 .f32) (x1 : Vec F S640x64 .f32) (x2 : Vec F S1x64 .f32) (x3 : Vec F S2000x64 .f32) (x4 : Vec F S2000x64 .f32) : Vec F S2000x64 .f32 :=
  View.canon [⟨rO1, k1_pay1 (View.ld x0 rX) (View.ld x1 rW1) (View.ld x2 rB1) (View.ld x3 rO1) (View.ld x4 rO1)⟩]

theorem cover1_5 (p0 : Vec F S2000x64 .f32) (y : S2000x64.Idx) :
    ∃ pc ∈ ([⟨rO1, p0⟩] : List (View.Piece (Elt F) S2000x64 .f32)), y ∈ pc.1.set :=
  View.cover_of_tiled [⟨rO1, p0⟩] S2000x64.size (by rfl) y

set_option maxHeartbeats 1000000 in
theorem sound_kernel1 (c : Dev nD) (E : Set ℕ) (i : grid1.Coords) (arg0 : Memref sig .tc .vmem S2000x640 .f32) (harg0 : arg0.IsWhole) (arg1 : Memref sig .tc .vmem S640x64 .f32) (harg1 : arg1.IsWhole)
    (arg2 : Memref sig .tc .vmem S1x64 .f32) (harg2 : arg2.IsWhole) (arg3 : Memref sig .tc .vmem S2000x64 .f32) (harg3 : arg3.IsWhole)
    (arg4 : Memref sig .tc .vmem S2000x64 .f32) (harg4 : arg4.IsWhole) (arg5 : Memref sig .tc .vmem S2000x64 .f32) (harg5 : arg5.IsWhole)
    (x0 : Vec F S2000x640 .f32) (x1 : Vec F S640x64 .f32) (x2 : Vec F S1x64 .f32) (x3 : Vec F S2000x64 .f32) (x4 : Vec F S2000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__update_kernel i arg0 harg0 arg1 harg1 arg2 harg2 arg3 harg3 arg4 harg4 arg5 harg5) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole run of the program: host lines, the gate region, host lines, the update region, and the closing host
  lines, composed from the launch memory. Between two pieces every unscoped buffer is held at a named valuation
  (a fold from the launch contents: a host line applies its operations, a region replaces its output array by what
  its 25 write-backs leave); no piece writes an argument array, so each argument ends as launched.
-/
import proofs.«157260_j76725295776119_1_alg».proof.Proof.IdealRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the pieces -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ## No piece writes an argument -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg2) := (W4_arr m ρ c 4).trans (((dat1 (V3 m ρ) c).arrAt_in 4 rfl _).trans (A_eq1 (V3 m ρ) c 4))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]
theorem main_run (c : Dev nD) : main (F := F) c = Pipeline.Seg.run (segs m ρ) := (main_chain c).trans (by chain_rfl)

set_option backward.isDefEq.respectTransparency.types false in
/-- Every weakly fair execution from m ends, nothing faulting, with every unscoped buffer at the last valuation. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_all m ρ (fun s h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩)

end Cert.KernelIdeal.Hand

end
-- ==== Proof.RefOps.lean ====
/- The reference program's @main as a list of its host operations, in order, with the module-local
   functions it calls inlined at their call sites over the buffers each call names. The list is cut
   into consecutive pieces; no piece crosses a boundary between two of the printed windows of @main. -/
import proofs.«157260_j76725295776119_1_alg».proof.Proof.Gen.ReferenceIdeal
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 30 operations, %0 … %21: the two rows of the edge table, and the two degree vectors (scatter-adds of ones at the wrapped row / column indices). -/
abbrev opsA : List (HloOp τ sig (Elt F)) :=
  ( StableHlo.unary main_arg1 main_v0 ((extractStridedSlice S1x500000 ![0, 0] · slices_S2x500000_S1x500000_0_0) : (⟨S2x500000, .i32⟩ : BufTy).Contents (Elt F) → (⟨S1x500000, .i32⟩ : BufTy).Contents (Elt F)) -- %0
  :: StableHlo.reshape main_v0 main_v1 rfl shapeCasts_S1x500000_S500000 -- %1
  :: StableHlo.unary main_arg1 main_v2 ((extractStridedSlice S1x500000 ![1, 0] · slices_S2x500000_S1x500000_1_0) : (⟨S2x500000, .i32⟩ : BufTy).Contents (Elt F) → (⟨S1x500000, .i32⟩ : BufTy).Contents (Elt F)) -- %2
  :: StableHlo.reshape main_v2 main_v3 rfl shapeCasts_S1x500000_S500000 -- %3
  :: StableHlo.nullary main_cst (constant S_ .f32 0x00000000#32) -- %cst
  :: StableHlo.unary main_cst main_v4 (broadcastInDim S50000 ![] bcast_S_S50000 : (⟨S_, .f32⟩ : BufTy).Contents (Elt F) → (⟨S50000, .f32⟩ : BufTy).Contents (Elt F)) -- %4
  :: StableHlo.nullary main_c (constantI S_ 32 0#32) -- %c
  :: StableHlo.unary main_c main_v5 (broadcastInDim S500000 ![] bcast_S_S500000 : (⟨S_, .i32⟩ : BufTy).Contents (Elt F) → (⟨S500000, .i32⟩ : BufTy).Contents (Elt F)) -- %5
  :: StableHlo.binary main_v1 main_v5 main_v6 (cmpi .slt : (⟨S500000, .i32⟩ : BufTy).Contents (Elt F) → (⟨S500000, .i32⟩ : BufTy).Contents (Elt F) → (⟨S500000, .i1⟩ : BufTy).Contents (Elt F)) -- %6
  :: StableHlo.nullary main_c_0 (constantI S_ 32 50000#32) -- %c_0
  :: StableHlo.unary main_c_0 main_v7 (broadcastInDim S500000 ![] bcast_S_S500000 : (⟨S_, .i32⟩ : BufTy).Contents (Elt F) → (⟨S500000, .i32⟩ : BufTy).Contents (Elt F)) -- %7
  :: StableHlo.binary main_v1 main_v7 main_v8 (addi : (⟨S500000, .i32⟩ : BufTy).Contents (Elt F) → (⟨S500000, .i32⟩ : BufTy).Contents (Elt F) → (⟨S500000, .i32⟩ : BufTy).Contents (Elt F)) -- %8
  :: StableHlo.ternary main_v6 main_v8 main_v1 main_v9 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %9
  :: StableHlo.unary main_v9 main_v10 (broadcastInDim S500000x1 ![0] bcast_S500000_S500000x1_0 : (⟨S500000, .i32⟩ : BufTy).Contents (Elt F) → (⟨S500000x1, .i32⟩ : BufTy).Contents (Elt F)) -- %10
  :: StableHlo.nullary main_cst_1 (constant S_ .f32 0x3F800000#32) -- %cst_1
  :: StableHlo.unary main_cst_1 main_v11 (broadcastInDim S500000 ![] bcast_S_S500000 : (⟨S_, .f32⟩ : BufTy).Contents (Elt F) → (⟨S500000, .f32⟩ : BufTy).Contents (Elt F)) -- %11
  :: StableHlo.ternary main_v4 main_v10 main_v11 main_v12 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)) -- %12
  :: StableHlo.nullary main_cst_2 (constant S_ .f32 0x00000000#32) -- %cst_2
  :: StableHlo.unary main_cst_2 main_v13 (broadcastInDim S50000 ![] bcast_S_S50000 : (⟨S_, .f32⟩ : BufTy).Contents (Elt F) → (⟨S50000, .f32⟩ : BufTy).Contents (Elt F)) -- %13
  :: StableHlo.nullary main_c_3 (constantI S_ 32 0#32) -- %c_3
  :: StableHlo.unary main_c_3 main_v14 (broadcastInDim S500000 ![] bcast_S_S500000 : (⟨S_, .i32⟩ : BufTy).Contents (Elt F) → (⟨S500000, .i32⟩ : BufTy).Contents (Elt F)) -- %14
  :: StableHlo.binary main_v3 main_v14 main_v15 (cmpi .slt : (⟨S500000, .i32⟩ : BufTy).Contents (Elt F) → (⟨S500000, .i32⟩ : BufTy).Contents (Elt F) → (⟨S500000, .i1⟩ : BufTy).Contents (Elt F)) -- %15
  :: StableHlo.nullary main_c_4 (constantI S_ 32 50000#32) -- %c_4
  :: StableHlo.unary main_c_4 main_v16 (broadcastInDim S500000 ![] bcast_S_S500000 : (⟨S_, .i32⟩ : BufTy).Contents (Elt F) → (⟨S500000, .i32⟩ : BufTy).Contents (Elt F)) -- %16
  :: StableHlo.binary main_v3 main_v16 main_v17 (addi : (⟨S500000, .i32⟩ : BufTy).Contents (Elt F) → (⟨S500000, .i32⟩ : BufTy).Contents (Elt F) → (⟨S500000, .i32⟩ : BufTy).Contents (Elt F)) -- %17
  :: StableHlo.ternary main_v15 main_v17 main_v3 main_v18 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %18
  :: StableHlo.unary main_v18 main_v19 (broadcastInDim S500000x1 ![0] bcast_S500000_S500000x1_0 : (⟨S500000, .i32⟩ : BufTy).Contents (Elt F) → (⟨S500000x1, .i32⟩ : BufTy).Contents (Elt F)) -- %19
  :: StableHlo.nullary main_cst_5 (constant S_ .f32 0x3F800000#32) -- %cst_5
  :: StableHlo.unary main_cst_5 main_v20 (broadcastInDim S500000 ![] bcast_S_S500000 : (⟨S_, .f32⟩ : BufTy).Contents (Elt F) → (⟨S500000, .f32⟩ : BufTy).Contents (Elt F)) -- %20
  :: StableHlo.ternary main_v13 main_v19 main_v20 main_v21 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)) -- %21
  :: [] )

/-- 25 operations, %22 … %40: the reciprocal degrees gathered at the wrapped row indices (the two edge norms), and the concatenation [X | H]. -/
abbrev opsB : List (HloOp τ sig (Elt F)) :=
  ( StableHlo.nullary main_cst_6 (constant S_ .f32 0x3F800000#32) -- %cst_6
  :: StableHlo.unary main_cst_6 main_v22 (broadcastInDim S50000 ![] bcast_S_S50000 : (⟨S_, .f32⟩ : BufTy).Contents (Elt F) → (⟨S50000, .f32⟩ : BufTy).Contents (Elt F)) -- %22
  :: StableHlo.binary main_v22 main_v12 main_v23 (Host.divf : (⟨S50000, .f32⟩ : BufTy).Contents (Elt F) → (⟨S50000, .f32⟩ : BufTy).Contents (Elt F) → (⟨S50000, .f32⟩ : BufTy).Contents (Elt F)) -- %23
  :: StableHlo.nullary main_c_7 (constantI S_ 32 0#32) -- %c_7
  :: StableHlo.unary main_c_7 main_v24 (broadcastInDim S500000 ![] bcast_S_S500000 : (⟨S_, .i32⟩ : BufTy).Contents (Elt F) → (⟨S500000, .i32⟩ : BufTy).Contents (Elt F)) -- %24
  :: StableHlo.binary main_v1 main_v24 main_v25 (cmpi .slt : (⟨S500000, .i32⟩ : BufTy).Contents (Elt F) → (⟨S500000, .i32⟩ : BufTy).Contents (Elt F) → (⟨S500000, .i1⟩ : BufTy).Contents (Elt F)) -- %25
  :: StableHlo.nullary main_c_8 (constantI S_ 32 50000#32) -- %c_8
  :: StableHlo.unary main_c_8 main_v26 (broadcastInDim S500000 ![] bcast_S_S500000 : (⟨S_, .i32⟩ : BufTy).Contents (Elt F) → (⟨S500000, .i32⟩ : BufTy).Contents (Elt F)) -- %26
  :: StableHlo.binary main_v1 main_v26 main_v27 (addi : (⟨S500000, .i32⟩ : BufTy).Contents (Elt F) → (⟨S500000, .i32⟩ : BufTy).Contents (Elt F) → (⟨S500000, .i32⟩ : BufTy).Contents (Elt F)) -- %27
  :: StableHlo.ternary main_v25 main_v27 main_v1 main_v28 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %28
  :: StableHlo.unary main_v28 main_v29 (broadcastInDim S500000x1 ![0] bcast_S500000_S500000x1_0 : (⟨S500000, .i32⟩ : BufTy).Contents (Elt F) → (⟨S500000x1, .i32⟩ : BufTy).Contents (Elt F)) -- %29
  :: StableHlo.binary main_v23 main_v29 main_v30 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)) -- %30
  :: StableHlo.nullary main_cst_9 (constant S_ .f32 0x3F800000#32) -- %cst_9
  :: StableHlo.unary main_cst_9 main_v31 (broadcastInDim S50000 ![] bcast_S_S50000 : (⟨S_, .f32⟩ : BufTy).Contents (Elt F) → (⟨S50000, .f32⟩ : BufTy).Contents (Elt F)) -- %31
  :: StableHlo.binary main_v31 main_v21 main_v32 (Host.divf : (⟨S50000, .f32⟩ : BufTy).Contents (Elt F) → (⟨S50000, .f32⟩ : BufTy).Contents (Elt F) → (⟨S50000, .f32⟩ : BufTy).Contents (Elt F)) -- %32
  :: StableHlo.nullary main_c_10 (constantI S_ 32 0#32) -- %c_10
  :: StableHlo.unary main_c_10 main_v33 (broadcastInDim S500000 ![] bcast_S_S500000 : (⟨S_, .i32⟩ : BufTy).Contents (Elt F) → (⟨S500000, .i32⟩ : BufTy).Contents (Elt F)) -- %33
  :: StableHlo.binary main_v1 main_v33 main_v34 (cmpi .slt : (⟨S500000, .i32⟩ : BufTy).Contents (Elt F) → (⟨S500000, .i32⟩ : BufTy).Contents (Elt F) → (⟨S500000, .i1⟩ : BufTy).Contents (Elt F)) -- %34
  :: StableHlo.nullary main_c_11 (constantI S_ 32 50000#32) -- %c_11
  :: StableHlo.unary main_c_11 main_v35 (broadcastInDim S500000 ![] bcast_S_S500000 : (⟨S_, .i32⟩ : BufTy).Contents (Elt F) → (⟨S500000, .i32⟩ : BufTy).Contents (Elt F)) -- %35
  :: StableHlo.binary main_v1 main_v35 main_v36 (addi : (⟨S500000, .i32⟩ : BufTy).Contents (Elt F) → (⟨S500000, .i32⟩ : BufTy).Contents (Elt F) → (⟨S500000, .i32⟩ : BufTy).Contents (Elt F)) -- %36
  :: StableHlo.ternary main_v34 main_v36 main_v1 main_v37 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %37
  :: StableHlo.unary main_v37 main_v38 (broadcastInDim S500000x1 ![0] bcast_S500000_S500000x1_0 : (⟨S500000, .i32⟩ : BufTy).Contents (Elt F) → (⟨S500000x1, .i32⟩ : BufTy).Contents (Elt F)) -- %38
  :: StableHlo.binary main_v32 main_v38 main_v39 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)) -- %39
  :: StableHlo.binary main_arg0 main_arg2 main_v40 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) -- %40
  :: [] )

/-- 5 operations, %41 … %45: the sum of the two order-0 weight slices of the first gate. -/
abbrev opsC : List (HloOp τ sig (Elt F)) :=
  ( StableHlo.unary main_arg3 main_v41 ((extractStridedSlice S1x1x128x64 ![0, 0, 0, 0] · slices_S2x3x128x64_S1x1x128x64_0_0_0_0) : (⟨S2x3x128x64, .f32⟩ : BufTy).Contents (Elt F) → (⟨S1x1x128x64, .f32⟩ : BufTy).Contents (Elt F)) -- %41
  :: StableHlo.reshape main_v41 main_v42 rfl shapeCasts_S1x1x128x64_S128x64 -- %42
  :: StableHlo.unary main_arg3 main_v43 ((extractStridedSlice S1x1x128x64 ![1, 0, 0, 0] · slices_S2x3x128x64_S1x1x128x64_1_0_0_0) : (⟨S2x3x128x64, .f32⟩ : BufTy).Contents (Elt F) → (⟨S1x1x128x64, .f32⟩ : BufTy).Contents (Elt F)) -- %43
  :: StableHlo.reshape main_v43 main_v44 rfl shapeCasts_S1x1x128x64_S128x64 -- %44
  :: StableHlo.binary main_v42 main_v44 main_v45 (addf : (⟨S128x64, .f32⟩ : BufTy).Contents (Elt F) → (⟨S128x64, .f32⟩ : BufTy).Contents (Elt F) → (⟨S128x64, .f32⟩ : BufTy).Contents (Elt F)) -- %45
  :: [] )

/-- 33 operations, %46 … %72: first gate — the order-0 product and the two order-1 propagations (gather, scale, scatter-add). -/
abbrev opsD : List (HloOp τ sig (Elt F)) :=
  ( StableHlo.binary main_v40 main_v45 main_v46 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %46
  :: StableHlo.unary main_v30 main_v47 (broadcastInDim S500000x1 ![0] bcast_S500000_S500000x1_0 : (⟨S500000, .f32⟩ : BufTy).Contents (Elt F) → (⟨S500000x1, .f32⟩ : BufTy).Contents (Elt F)) -- %47
  :: StableHlo.nullary main_c_12 (constantI S_ 32 0#32) -- %c_12
  :: StableHlo.unary main_c_12 main_v48 (broadcastInDim S500000 ![] bcast_S_S500000 : (⟨S_, .i32⟩ : BufTy).Contents (Elt F) → (⟨S500000, .i32⟩ : BufTy).Contents (Elt F)) -- %48
  :: StableHlo.binary main_v1 main_v48 main_v49 (cmpi .slt : (⟨S500000, .i32⟩ : BufTy).Contents (Elt F) → (⟨S500000, .i32⟩ : BufTy).Contents (Elt F) → (⟨S500000, .i1⟩ : BufTy).Contents (Elt F)) -- %49
  :: StableHlo.nullary main_c_13 (constantI S_ 32 50000#32) -- %c_13
  :: StableHlo.unary main_c_13 main_v50 (broadcastInDim S500000 ![] bcast_S_S500000 : (⟨S_, .i32⟩ : BufTy).Contents (Elt F) → (⟨S500000, .i32⟩ : BufTy).Contents (Elt F)) -- %50
  :: StableHlo.binary main_v1 main_v50 main_v51 (addi : (⟨S500000, .i32⟩ : BufTy).Contents (Elt F) → (⟨S500000, .i32⟩ : BufTy).Contents (Elt F) → (⟨S500000, .i32⟩ : BufTy).Contents (Elt F)) -- %51
  :: StableHlo.ternary main_v49 main_v51 main_v1 main_v52 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %52
  :: StableHlo.unary main_v52 main_v53 (broadcastInDim S500000x1 ![0] bcast_S500000_S500000x1_0 : (⟨S500000, .i32⟩ : BufTy).Contents (Elt F) → (⟨S500000x1, .i32⟩ : BufTy).Contents (Elt F)) -- %53
  :: StableHlo.binary main_v40 main_v53 main_v54 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %54
  :: StableHlo.unary main_v47 main_v55 (broadcastInDim S500000x128 ![0, 1] bcast_S500000x1_S500000x128_0_1 : (⟨S500000x1, .f32⟩ : BufTy).Contents (Elt F) → (⟨S500000x128, .f32⟩ : BufTy).Contents (Elt F)) -- %55
  :: StableHlo.binary main_v55 main_v54 main_v56 (mulf : (⟨S500000x128, .f32⟩ : BufTy).Contents (Elt F) → (⟨S500000x128, .f32⟩ : BufTy).Contents (Elt F) → (⟨S500000x128, .f32⟩ : BufTy).Contents (Elt F)) -- %56
  :: StableHlo.nullary main_cst_14 (constant S_ .f32 0x00000000#32) -- %cst_14
  :: StableHlo.unary main_cst_14 main_v57 (broadcastInDim S50000x128 ![] bcast_S_S50000x128 : (⟨S_, .f32⟩ : BufTy).Contents (Elt F) → (⟨S50000x128, .f32⟩ : BufTy).Contents (Elt F)) -- %57
  :: StableHlo.unary main_v3 main_v58 (broadcastInDim S500000x1 ![0] bcast_S500000_S500000x1_0 : (⟨S500000, .i32⟩ : BufTy).Contents (Elt F) → (⟨S500000x1, .i32⟩ : BufTy).Contents (Elt F)) -- %58
  :: StableHlo.ternary main_v57 main_v58 main_v56 main_v59 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %59
  :: StableHlo.unary main_v39 main_v60 (broadcastInDim S500000x1 ![0] bcast_S500000_S500000x1_0 : (⟨S500000, .f32⟩ : BufTy).Contents (Elt F) → (⟨S500000x1, .f32⟩ : BufTy).Contents (Elt F)) -- %60
  :: StableHlo.nullary main_c_15 (constantI S_ 32 0#32) -- %c_15
  :: StableHlo.unary main_c_15 main_v61 (broadcastInDim S500000 ![] bcast_S_S500000 : (⟨S_, .i32⟩ : BufTy).Contents (Elt F) → (⟨S500000, .i32⟩ : BufTy).Contents (Elt F)) -- %61
  :: StableHlo.binary main_v1 main_v61 main_v62 (cmpi .slt : (⟨S500000, .i32⟩ : BufTy).Contents (Elt F) → (⟨S500000, .i32⟩ : BufTy).Contents (Elt F) → (⟨S500000, .i1⟩ : BufTy).Contents (Elt F)) -- %62
  :: StableHlo.nullary main_c_16 (constantI S_ 32 50000#32) -- %c_16
  :: StableHlo.unary main_c_16 main_v63 (broadcastInDim S500000 ![] bcast_S_S500000 : (⟨S_, .i32⟩ : BufTy).Contents (Elt F) → (⟨S500000, .i32⟩ : BufTy).Contents (Elt F)) -- %63
  :: StableHlo.binary main_v1 main_v63 main_v64 (addi : (⟨S500000, .i32⟩ : BufTy).Contents (Elt F) → (⟨S500000, .i32⟩ : BufTy).Contents (Elt F) → (⟨S500000, .i32⟩ : BufTy).Contents (Elt F)) -- %64
  :: StableHlo.ternary main_v62 main_v64 main_v1 main_v65 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %65
  :: StableHlo.unary main_v65 main_v66 (broadcastInDim S500000x1 ![0] bcast_S500000_S500000x1_0 : (⟨S500000, .i32⟩ : BufTy).Contents (Elt F) → (⟨S500000x1, .i32⟩ : BufTy).Contents (Elt F)) -- %66
  :: StableHlo.binary main_v40 main_v66 main_v67 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %67
  :: StableHlo.unary main_v60 main_v68 (broadcastInDim S500000x128 ![0, 1] bcast_S500000x1_S500000x128_0_1 : (⟨S500000x1, .f32⟩ : BufTy).Contents (Elt F) → (⟨S500000x128, .f32⟩ : BufTy).Contents (Elt F)) -- %68
  :: StableHlo.binary main_v68 main_v67 main_v69 (mulf : (⟨S500000x128, .f32⟩ : BufTy).Contents (Elt F) → (⟨S500000x128, .f32⟩ : BufTy).Contents (Elt F) → (⟨S500000x128, .f32⟩ : BufTy).Contents (Elt F)) -- %69
  :: StableHlo.nullary main_cst_17 (constant S_ .f32 0x00000000#32) -- %cst_17
  :: StableHlo.unary main_cst_17 main_v70 (broadcastInDim S50000x128 ![] bcast_S_S50000x128 : (⟨S_, .f32⟩ : BufTy).Contents (Elt F) → (⟨S50000x128, .f32⟩ : BufTy).Contents (Elt F)) -- %70
  :: StableHlo.unary main_v3 main_v71 (broadcastInDim S500000x1 ![0] bcast_S500000_S500000x1_0 : (⟨S500000, .i32⟩ : BufTy).Contents (Elt F) → (⟨S500000x1, .i32⟩ : BufTy).Contents (Elt F)) -- %71
  :: StableHlo.ternary main_v70 main_v71 main_v69 main_v72 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %72
  :: [] )

/-- 27 operations, %73 … %95: first gate — the order-1 products and sums, the second propagation along the first norm, doubled. -/
abbrev opsE : List (HloOp τ sig (Elt F)) :=
  ( StableHlo.unary main_arg3 main_v73 ((extractStridedSlice S1x1x128x64 ![0, 1, 0, 0] · slices_S2x3x128x64_S1x1x128x64_0_1_0_0) : (⟨S2x3x128x64, .f32⟩ : BufTy).Contents (Elt F) → (⟨S1x1x128x64, .f32⟩ : BufTy).Contents (Elt F)) -- %73
  :: StableHlo.reshape main_v73 main_v74 rfl shapeCasts_S1x1x128x64_S128x64 -- %74
  :: StableHlo.binary main_v59 main_v74 main_v75 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %75
  :: StableHlo.binary main_v46 main_v75 main_v76 (addf : (⟨S50000x64, .f32⟩ : BufTy).Contents (Elt F) → (⟨S50000x64, .f32⟩ : BufTy).Contents (Elt F) → (⟨S50000x64, .f32⟩ : BufTy).Contents (Elt F)) -- %76
  :: StableHlo.unary main_arg3 main_v77 ((extractStridedSlice S1x1x128x64 ![1, 1, 0, 0] · slices_S2x3x128x64_S1x1x128x64_1_1_0_0) : (⟨S2x3x128x64, .f32⟩ : BufTy).Contents (Elt F) → (⟨S1x1x128x64, .f32⟩ : BufTy).Contents (Elt F)) -- %77
  :: StableHlo.reshape main_v77 main_v78 rfl shapeCasts_S1x1x128x64_S128x64 -- %78
  :: StableHlo.binary main_v72 main_v78 main_v79 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %79
  :: StableHlo.binary main_v76 main_v79 main_v80 (addf : (⟨S50000x64, .f32⟩ : BufTy).Contents (Elt F) → (⟨S50000x64, .f32⟩ : BufTy).Contents (Elt F) → (⟨S50000x64, .f32⟩ : BufTy).Contents (Elt F)) -- %80
  :: StableHlo.unary main_v30 main_v81 (broadcastInDim S500000x1 ![0] bcast_S500000_S500000x1_0 : (⟨S500000, .f32⟩ : BufTy).Contents (Elt F) → (⟨S500000x1, .f32⟩ : BufTy).Contents (Elt F)) -- %81
  :: StableHlo.nullary main_c_18 (constantI S_ 32 0#32) -- %c_18
  :: StableHlo.unary main_c_18 main_v82 (broadcastInDim S500000 ![] bcast_S_S500000 : (⟨S_, .i32⟩ : BufTy).Contents (Elt F) → (⟨S500000, .i32⟩ : BufTy).Contents (Elt F)) -- %82
  :: StableHlo.binary main_v1 main_v82 main_v83 (cmpi .slt : (⟨S500000, .i32⟩ : BufTy).Contents (Elt F) → (⟨S500000, .i32⟩ : BufTy).Contents (Elt F) → (⟨S500000, .i1⟩ : BufTy).Contents (Elt F)) -- %83
  :: StableHlo.nullary main_c_19 (constantI S_ 32 50000#32) -- %c_19
  :: StableHlo.unary main_c_19 main_v84 (broadcastInDim S500000 ![] bcast_S_S500000 : (⟨S_, .i32⟩ : BufTy).Contents (Elt F) → (⟨S500000, .i32⟩ : BufTy).Contents (Elt F)) -- %84
  :: StableHlo.binary main_v1 main_v84 main_v85 (addi : (⟨S500000, .i32⟩ : BufTy).Contents (Elt F) → (⟨S500000, .i32⟩ : BufTy).Contents (Elt F) → (⟨S500000, .i32⟩ : BufTy).Contents (Elt F)) -- %85
  :: StableHlo.ternary main_v83 main_v85 main_v1 main_v86 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %86
  :: StableHlo.unary main_v86 main_v87 (broadcastInDim S500000x1 ![0] bcast_S500000_S500000x1_0 : (⟨S500000, .i32⟩ : BufTy).Contents (Elt F) → (⟨S500000x1, .i32⟩ : BufTy).Contents (Elt F)) -- %87
  :: StableHlo.binary main_v59 main_v87 main_v88 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %88
  :: StableHlo.unary main_v81 main_v89 (broadcastInDim S500000x128 ![0, 1] bcast_S500000x1_S500000x128_0_1 : (⟨S500000x1, .f32⟩ : BufTy).Contents (Elt F) → (⟨S500000x128, .f32⟩ : BufTy).Contents (Elt F)) -- %89
  :: StableHlo.binary main_v89 main_v88 main_v90 (mulf : (⟨S500000x128, .f32⟩ : BufTy).Contents (Elt F) → (⟨S500000x128, .f32⟩ : BufTy).Contents (Elt F) → (⟨S500000x128, .f32⟩ : BufTy).Contents (Elt F)) -- %90
  :: StableHlo.nullary main_cst_20 (constant S_ .f32 0x00000000#32) -- %cst_20
  :: StableHlo.unary main_cst_20 main_v91 (broadcastInDim S50000x128 ![] bcast_S_S50000x128 : (⟨S_, .f32⟩ : BufTy).Contents (Elt F) → (⟨S50000x128, .f32⟩ : BufTy).Contents (Elt F)) -- %91
  :: StableHlo.unary main_v3 main_v92 (broadcastInDim S500000x1 ![0] bcast_S500000_S500000x1_0 : (⟨S500000, .i32⟩ : BufTy).Contents (Elt F) → (⟨S500000x1, .i32⟩ : BufTy).Contents (Elt F)) -- %92
  :: StableHlo.ternary main_v91 main_v92 main_v90 main_v93 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %93
  :: StableHlo.nullary main_cst_21 (constant S_ .f32 0x40000000#32) -- %cst_21
  :: StableHlo.unary main_cst_21 main_v94 (broadcastInDim S50000x128 ![] bcast_S_S50000x128 : (⟨S_, .f32⟩ : BufTy).Contents (Elt F) → (⟨S50000x128, .f32⟩ : BufTy).Contents (Elt F)) -- %94
  :: StableHlo.binary main_v94 main_v93 main_v95 (mulf : (⟨S50000x128, .f32⟩ : BufTy).Contents (Elt F) → (⟨S50000x128, .f32⟩ : BufTy).Contents (Elt F) → (⟨S50000x128, .f32⟩ : BufTy).Contents (Elt F)) -- %95
  :: [] )

/-- 40 operations, %96 … %129: first gate — the order-2 terms, their products, the bias and the logistic function: the gate Z at %129. -/
abbrev opsF : List (HloOp τ sig (Elt F)) :=
  ( StableHlo.binary main_v95 main_v40 main_v96 (subf : (⟨S50000x128, .f32⟩ : BufTy).Contents (Elt F) → (⟨S50000x128, .f32⟩ : BufTy).Contents (Elt F) → (⟨S50000x128, .f32⟩ : BufTy).Contents (Elt F)) -- %96
  :: StableHlo.unary main_v39 main_v97 (broadcastInDim S500000x1 ![0] bcast_S500000_S500000x1_0 : (⟨S500000, .f32⟩ : BufTy).Contents (Elt F) → (⟨S500000x1, .f32⟩ : BufTy).Contents (Elt F)) -- %97
  :: StableHlo.nullary main_c_22 (constantI S_ 32 0#32) -- %c_22
  :: StableHlo.unary main_c_22 main_v98 (broadcastInDim S500000 ![] bcast_S_S500000 : (⟨S_, .i32⟩ : BufTy).Contents (Elt F) → (⟨S500000, .i32⟩ : BufTy).Contents (Elt F)) -- %98
  :: StableHlo.binary main_v1 main_v98 main_v99 (cmpi .slt : (⟨S500000, .i32⟩ : BufTy).Contents (Elt F) → (⟨S500000, .i32⟩ : BufTy).Contents (Elt F) → (⟨S500000, .i1⟩ : BufTy).Contents (Elt F)) -- %99
  :: StableHlo.nullary main_c_23 (constantI S_ 32 50000#32) -- %c_23
  :: StableHlo.unary main_c_23 main_v100 (broadcastInDim S500000 ![] bcast_S_S500000 : (⟨S_, .i32⟩ : BufTy).Contents (Elt F) → (⟨S500000, .i32⟩ : BufTy).Contents (Elt F)) -- %100
  :: StableHlo.binary main_v1 main_v100 main_v101 (addi : (⟨S500000, .i32⟩ : BufTy).Contents (Elt F) → (⟨S500000, .i32⟩ : BufTy).Contents (Elt F) → (⟨S500000, .i32⟩ : BufTy).Contents (Elt F)) -- %101
  :: StableHlo.ternary main_v99 main_v101 main_v1 main_v102 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %102
  :: StableHlo.unary main_v102 main_v103 (broadcastInDim S500000x1 ![0] bcast_S500000_S500000x1_0 : (⟨S500000, .i32⟩ : BufTy).Contents (Elt F) → (⟨S500000x1, .i32⟩ : BufTy).Contents (Elt F)) -- %103
  :: StableHlo.binary main_v72 main_v103 main_v104 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %104
  :: StableHlo.unary main_v97 main_v105 (broadcastInDim S500000x128 ![0, 1] bcast_S500000x1_S500000x128_0_1 : (⟨S500000x1, .f32⟩ : BufTy).Contents (Elt F) → (⟨S500000x128, .f32⟩ : BufTy).Contents (Elt F)) -- %105
  :: StableHlo.binary main_v105 main_v104 main_v106 (mulf : (⟨S500000x128, .f32⟩ : BufTy).Contents (Elt F) → (⟨S500000x128, .f32⟩ : BufTy).Contents (Elt F) → (⟨S500000x128, .f32⟩ : BufTy).Contents (Elt F)) -- %106
  :: StableHlo.nullary main_cst_24 (constant S_ .f32 0x00000000#32) -- %cst_24
  :: StableHlo.unary main_cst_24 main_v107 (broadcastInDim S50000x128 ![] bcast_S_S50000x128 : (⟨S_, .f32⟩ : BufTy).Contents (Elt F) → (⟨S50000x128, .f32⟩ : BufTy).Contents (Elt F)) -- %107
  :: StableHlo.unary main_v3 main_v108 (broadcastInDim S500000x1 ![0] bcast_S500000_S500000x1_0 : (⟨S500000, .i32⟩ : BufTy).Contents (Elt F) → (⟨S500000x1, .i32⟩ : BufTy).Contents (Elt F)) -- %108
  :: StableHlo.ternary main_v107 main_v108 main_v106 main_v109 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %109
  :: StableHlo.nullary main_cst_25 (constant S_ .f32 0x40000000#32) -- %cst_25
  :: StableHlo.unary main_cst_25 main_v110 (broadcastInDim S50000x128 ![] bcast_S_S50000x128 : (⟨S_, .f32⟩ : BufTy).Contents (Elt F) → (⟨S50000x128, .f32⟩ : BufTy).Contents (Elt F)) -- %110
  :: StableHlo.binary main_v110 main_v109 main_v111 (mulf : (⟨S50000x128, .f32⟩ : BufTy).Contents (Elt F) → (⟨S50000x128, .f32⟩ : BufTy).Contents (Elt F) → (⟨S50000x128, .f32⟩ : BufTy).Contents (Elt F)) -- %111
  :: StableHlo.binary main_v111 main_v40 main_v112 (subf : (⟨S50000x128, .f32⟩ : BufTy).Contents (Elt F) → (⟨S50000x128, .f32⟩ : BufTy).Contents (Elt F) → (⟨S50000x128, .f32⟩ : BufTy).Contents (Elt F)) -- %112
  :: StableHlo.unary main_arg3 main_v113 ((extractStridedSlice S1x1x128x64 ![0, 2, 0, 0] · slices_S2x3x128x64_S1x1x128x64_0_2_0_0) : (⟨S2x3x128x64, .f32⟩ : BufTy).Contents (Elt F) → (⟨S1x1x128x64, .f32⟩ : BufTy).Contents (Elt F)) -- %113
  :: StableHlo.reshape main_v113 main_v114 rfl shapeCasts_S1x1x128x64_S128x64 -- %114
  :: StableHlo.binary main_v96 main_v114 main_v115 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %115
  :: StableHlo.binary main_v80 main_v115 main_v116 (addf : (⟨S50000x64, .f32⟩ : BufTy).Contents (Elt F) → (⟨S50000x64, .f32⟩ : BufTy).Contents (Elt F) → (⟨S50000x64, .f32⟩ : BufTy).Contents (Elt F)) -- %116
  :: StableHlo.unary main_arg3 main_v117 ((extractStridedSlice S1x1x128x64 ![1, 2, 0, 0] · slices_S2x3x128x64_S1x1x128x64_1_2_0_0) : (⟨S2x3x128x64, .f32⟩ : BufTy).Contents (Elt F) → (⟨S1x1x128x64, .f32⟩ : BufTy).Contents (Elt F)) -- %117
  :: StableHlo.reshape main_v117 main_v118 rfl shapeCasts_S1x1x128x64_S128x64 -- %118
  :: StableHlo.binary main_v112 main_v118 main_v119 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %119
  :: StableHlo.binary main_v116 main_v119 main_v120 (addf : (⟨S50000x64, .f32⟩ : BufTy).Contents (Elt F) → (⟨S50000x64, .f32⟩ : BufTy).Contents (Elt F) → (⟨S50000x64, .f32⟩ : BufTy).Contents (Elt F)) -- %120
  :: StableHlo.unary main_arg4 main_v121 (broadcastInDim S1x64 ![1] bcast_S64_S1x64_1 : (⟨S64, .f32⟩ : BufTy).Contents (Elt F) → (⟨S1x64, .f32⟩ : BufTy).Contents (Elt F)) -- %121
  :: StableHlo.unary main_v121 main_v122 (broadcastInDim S50000x64 ![0, 1] bcast_S1x64_S50000x64_0_1 : (⟨S1x64, .f32⟩ : BufTy).Contents (Elt F) → (⟨S50000x64, .f32⟩ : BufTy).Contents (Elt F)) -- %122
  :: StableHlo.binary main_v120 main_v122 main_v123 (addf : (⟨S50000x64, .f32⟩ : BufTy).Contents (Elt F) → (⟨S50000x64, .f32⟩ : BufTy).Contents (Elt F) → (⟨S50000x64, .f32⟩ : BufTy).Contents (Elt F)) -- %123
  :: StableHlo.unary main_v123 main_v124 (Host.negf : (⟨S50000x64, .f32⟩ : BufTy).Contents (Elt F) → (⟨S50000x64, .f32⟩ : BufTy).Contents (Elt F)) -- %124
  :: StableHlo.unary main_v124 main_v125 (Host.exp : (⟨S50000x64, .f32⟩ : BufTy).Contents (Elt F) → (⟨S50000x64, .f32⟩ : BufTy).Contents (Elt F)) -- %125
  :: StableHlo.nullary main_cst_26 (constant S_ .f32 0x3F800000#32) -- %cst_26
  :: StableHlo.unary main_cst_26 main_v126 (broadcastInDim S50000x64 ![] bcast_S_S50000x64 : (⟨S_, .f32⟩ : BufTy).Contents (Elt F) → (⟨S50000x64, .f32⟩ : BufTy).Contents (Elt F)) -- %126
  :: StableHlo.binary main_v126 main_v125 main_v127 (addf : (⟨S50000x64, .f32⟩ : BufTy).Contents (Elt F) → (⟨S50000x64, .f32⟩ : BufTy).Contents (Elt F) → (⟨S50000x64, .f32⟩ : BufTy).Contents (Elt F)) -- %127
  :: StableHlo.nullary main_cst_27 (constant S_ .f32 0x3F800000#32) -- %cst_27
  :: StableHlo.unary main_cst_27 main_v128 (broadcastInDim S50000x64 ![] bcast_S_S50000x64 : (⟨S_, .f32⟩ : BufTy).Contents (Elt F) → (⟨S50000x64, .f32⟩ : BufTy).Contents (Elt F)) -- %128
  :: StableHlo.binary main_v128 main_v127 main_v129 (Host.divf : (⟨S50000x64, .f32⟩ : BufTy).Contents (Elt F) → (⟨S50000x64, .f32⟩ : BufTy).Contents (Elt F) → (⟨S50000x64, .f32⟩ : BufTy).Contents (Elt F)) -- %129
  :: [] )

/-- 20 operations, %130 … %146: second gate — order-0 weights and product, start of the first order-1 propagation. -/
abbrev opsG : List (HloOp τ sig (Elt F)) :=
  ( StableHlo.unary main_arg5 main_v130 ((extractStridedSlice S1x1x128x64 ![0, 0, 0, 0] · slices_S2x3x128x64_S1x1x128x64_0_0_0_0) : (⟨S2x3x128x64, .f32⟩ : BufTy).Contents (Elt F) → (⟨S1x1x128x64, .f32⟩ : BufTy).Contents (Elt F)) -- %130
  :: StableHlo.reshape main_v130 main_v131 rfl shapeCasts_S1x1x128x64_S128x64 -- %131
  :: StableHlo.unary main_arg5 main_v132 ((extractStridedSlice S1x1x128x64 ![1, 0, 0, 0] · slices_S2x3x128x64_S1x1x128x64_1_0_0_0) : (⟨S2x3x128x64, .f32⟩ : BufTy).Contents (Elt F) → (⟨S1x1x128x64, .f32⟩ : BufTy).Contents (Elt F)) -- %132
  :: StableHlo.reshape main_v132 main_v133 rfl shapeCasts_S1x1x128x64_S128x64 -- %133
  :: StableHlo.binary main_v131 main_v133 main_v134 (addf : (⟨S128x64, .f32⟩ : BufTy).Contents (Elt F) → (⟨S128x64, .f32⟩ : BufTy).Contents (Elt F) → (⟨S128x64, .f32⟩ : BufTy).Contents (Elt F)) -- %134
  :: StableHlo.binary main_v40 main_v134 main_v135 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %135
  :: StableHlo.unary main_v30 main_v136 (broadcastInDim S500000x1 ![0] bcast_S500000_S500000x1_0 : (⟨S500000, .f32⟩ : BufTy).Contents (Elt F) → (⟨S500000x1, .f32⟩ : BufTy).Contents (Elt F)) -- %136
  :: StableHlo.nullary main_c_28 (constantI S_ 32 0#32) -- %c_28
  :: StableHlo.unary main_c_28 main_v137 (broadcastInDim S500000 ![] bcast_S_S500000 : (⟨S_, .i32⟩ : BufTy).Contents (Elt F) → (⟨S500000, .i32⟩ : BufTy).Contents (Elt F)) -- %137
  :: StableHlo.binary main_v1 main_v137 main_v138 (cmpi .slt : (⟨S500000, .i32⟩ : BufTy).Contents (Elt F) → (⟨S500000, .i32⟩ : BufTy).Contents (Elt F) → (⟨S500000, .i1⟩ : BufTy).Contents (Elt F)) -- %138
  :: StableHlo.nullary main_c_29 (constantI S_ 32 50000#32) -- %c_29
  :: StableHlo.unary main_c_29 main_v139 (broadcastInDim S500000 ![] bcast_S_S500000 : (⟨S_, .i32⟩ : BufTy).Contents (Elt F) → (⟨S500000, .i32⟩ : BufTy).Contents (Elt F)) -- %139
  :: StableHlo.binary main_v1 main_v139 main_v140 (addi : (⟨S500000, .i32⟩ : BufTy).Contents (Elt F) → (⟨S500000, .i32⟩ : BufTy).Contents (Elt F) → (⟨S500000, .i32⟩ : BufTy).Contents (Elt F)) -- %140
  :: StableHlo.ternary main_v138 main_v140 main_v1 main_v141 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %141
  :: StableHlo.unary main_v141 main_v142 (broadcastInDim S500000x1 ![0] bcast_S500000_S500000x1_0 : (⟨S500000, .i32⟩ : BufTy).Contents (Elt F) → (⟨S500000x1, .i32⟩ : BufTy).Contents (Elt F)) -- %142
  :: StableHlo.binary main_v40 main_v142 main_v143 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %143
  :: StableHlo.unary main_v136 main_v144 (broadcastInDim S500000x128 ![0, 1] bcast_S500000x1_S500000x128_0_1 : (⟨S500000x1, .f32⟩ : BufTy).Contents (Elt F) → (⟨S500000x128, .f32⟩ : BufTy).Contents (Elt F)) -- %144
  :: StableHlo.binary main_v144 main_v143 main_v145 (mulf : (⟨S500000x128, .f32⟩ : BufTy).Contents (Elt F) → (⟨S500000x128, .f32⟩ : BufTy).Contents (Elt F) → (⟨S500000x128, .f32⟩ : BufTy).Contents (Elt F)) -- %145
  :: StableHlo.nullary main_cst_30 (constant S_ .f32 0x00000000#32) -- %cst_30
  :: StableHlo.unary main_cst_30 main_v146 (broadcastInDim S50000x128 ![] bcast_S_S50000x128 : (⟨S_, .f32⟩ : BufTy).Contents (Elt F) → (⟨S50000x128, .f32⟩ : BufTy).Contents (Elt F)) -- %146
  :: [] )

/-- 26 operations, %147 … %169: second gate — the two order-1 propagations, their products and sums. -/
abbrev opsH : List (HloOp τ sig (Elt F)) :=
  ( StableHlo.unary main_v3 main_v147 (broadcastInDim S500000x1 ![0] bcast_S500000_S500000x1_0 : (⟨S500000, .i32⟩ : BufTy).Contents (Elt F) → (⟨S500000x1, .i32⟩ : BufTy).Contents (Elt F)) -- %147
  :: StableHlo.ternary main_v146 main_v147 main_v145 main_v148 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %148
  :: StableHlo.unary main_v39 main_v149 (broadcastInDim S500000x1 ![0] bcast_S500000_S500000x1_0 : (⟨S500000, .f32⟩ : BufTy).Contents (Elt F) → (⟨S500000x1, .f32⟩ : BufTy).Contents (Elt F)) -- %149
  :: StableHlo.nullary main_c_31 (constantI S_ 32 0#32) -- %c_31
  :: StableHlo.unary main_c_31 main_v150 (broadcastInDim S500000 ![] bcast_S_S500000 : (⟨S_, .i32⟩ : BufTy).Contents (Elt F) → (⟨S500000, .i32⟩ : BufTy).Contents (Elt F)) -- %150
  :: StableHlo.binary main_v1 main_v150 main_v151 (cmpi .slt : (⟨S500000, .i32⟩ : BufTy).Contents (Elt F) → (⟨S500000, .i32⟩ : BufTy).Contents (Elt F) → (⟨S500000, .i1⟩ : BufTy).Contents (Elt F)) -- %151
  :: StableHlo.nullary main_c_32 (constantI S_ 32 50000#32) -- %c_32
  :: StableHlo.unary main_c_32 main_v152 (broadcastInDim S500000 ![] bcast_S_S500000 : (⟨S_, .i32⟩ : BufTy).Contents (Elt F) → (⟨S500000, .i32⟩ : BufTy).Contents (Elt F)) -- %152
  :: StableHlo.binary main_v1 main_v152 main_v153 (addi : (⟨S500000, .i32⟩ : BufTy).Contents (Elt F) → (⟨S500000, .i32⟩ : BufTy).Contents (Elt F) → (⟨S500000, .i32⟩ : BufTy).Contents (Elt F)) -- %153
  :: StableHlo.ternary main_v151 main_v153 main_v1 main_v154 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %154
  :: StableHlo.unary main_v154 main_v155 (broadcastInDim S500000x1 ![0] bcast_S500000_S500000x1_0 : (⟨S500000, .i32⟩ : BufTy).Contents (Elt F) → (⟨S500000x1, .i32⟩ : BufTy).Contents (Elt F)) -- %155
  :: StableHlo.binary main_v40 main_v155 main_v156 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %156
  :: StableHlo.unary main_v149 main_v157 (broadcastInDim S500000x128 ![0, 1] bcast_S500000x1_S500000x128_0_1 : (⟨S500000x1, .f32⟩ : BufTy).Contents (Elt F) → (⟨S500000x128, .f32⟩ : BufTy).Contents (Elt F)) -- %157
  :: StableHlo.binary main_v157 main_v156 main_v158 (mulf : (⟨S500000x128, .f32⟩ : BufTy).Contents (Elt F) → (⟨S500000x128, .f32⟩ : BufTy).Contents (Elt F) → (⟨S500000x128, .f32⟩ : BufTy).Contents (Elt F)) -- %158
  :: StableHlo.nullary main_cst_33 (constant S_ .f32 0x00000000#32) -- %cst_33
  :: StableHlo.unary main_cst_33 main_v159 (broadcastInDim S50000x128 ![] bcast_S_S50000x128 : (⟨S_, .f32⟩ : BufTy).Contents (Elt F) → (⟨S50000x128, .f32⟩ : BufTy).Contents (Elt F)) -- %159
  :: StableHlo.unary main_v3 main_v160 (broadcastInDim S500000x1 ![0] bcast_S500000_S500000x1_0 : (⟨S500000, .i32⟩ : BufTy).Contents (Elt F) → (⟨S500000x1, .i32⟩ : BufTy).Contents (Elt F)) -- %160
  :: StableHlo.ternary main_v159 main_v160 main_v158 main_v161 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %161
  :: StableHlo.unary main_arg5 main_v162 ((extractStridedSlice S1x1x128x64 ![0, 1, 0, 0] · slices_S2x3x128x64_S1x1x128x64_0_1_0_0) : (⟨S2x3x128x64, .f32⟩ : BufTy).Contents (Elt F) → (⟨S1x1x128x64, .f32⟩ : BufTy).Contents (Elt F)) -- %162
  :: StableHlo.reshape main_v162 main_v163 rfl shapeCasts_S1x1x128x64_S128x64 -- %163
  :: StableHlo.binary main_v148 main_v163 main_v164 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %164
  :: StableHlo.binary main_v135 main_v164 main_v165 (addf : (⟨S50000x64, .f32⟩ : BufTy).Contents (Elt F) → (⟨S50000x64, .f32⟩ : BufTy).Contents (Elt F) → (⟨S50000x64, .f32⟩ : BufTy).Contents (Elt F)) -- %165
  :: StableHlo.unary main_arg5 main_v166 ((extractStridedSlice S1x1x128x64 ![1, 1, 0, 0] · slices_S2x3x128x64_S1x1x128x64_1_1_0_0) : (⟨S2x3x128x64, .f32⟩ : BufTy).Contents (Elt F) → (⟨S1x1x128x64, .f32⟩ : BufTy).Contents (Elt F)) -- %166
  :: StableHlo.reshape main_v166 main_v167 rfl shapeCasts_S1x1x128x64_S128x64 -- %167
  :: StableHlo.binary main_v161 main_v167 main_v168 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %168
  :: StableHlo.binary main_v165 main_v168 main_v169 (addf : (⟨S50000x64, .f32⟩ : BufTy).Contents (Elt F) → (⟨S50000x64, .f32⟩ : BufTy).Contents (Elt F) → (⟨S50000x64, .f32⟩ : BufTy).Contents (Elt F)) -- %169
  :: [] )

/-- 34 operations, %170 … %196: second gate — the two order-2 propagations. -/
abbrev opsI : List (HloOp τ sig (Elt F)) :=
  ( StableHlo.unary main_v30 main_v170 (broadcastInDim S500000x1 ![0] bcast_S500000_S500000x1_0 : (⟨S500000, .f32⟩ : BufTy).Contents (Elt F) → (⟨S500000x1, .f32⟩ : BufTy).Contents (Elt F)) -- %170
  :: StableHlo.nullary main_c_34 (constantI S_ 32 0#32) -- %c_34
  :: StableHlo.unary main_c_34 main_v171 (broadcastInDim S500000 ![] bcast_S_S500000 : (⟨S_, .i32⟩ : BufTy).Contents (Elt F) → (⟨S500000, .i32⟩ : BufTy).Contents (Elt F)) -- %171
  :: StableHlo.binary main_v1 main_v171 main_v172 (cmpi .slt : (⟨S500000, .i32⟩ : BufTy).Contents (Elt F) → (⟨S500000, .i32⟩ : BufTy).Contents (Elt F) → (⟨S500000, .i1⟩ : BufTy).Contents (Elt F)) -- %172
  :: StableHlo.nullary main_c_35 (constantI S_ 32 50000#32) -- %c_35
  :: StableHlo.unary main_c_35 main_v173 (broadcastInDim S500000 ![] bcast_S_S500000 : (⟨S_, .i32⟩ : BufTy).Contents (Elt F) → (⟨S500000, .i32⟩ : BufTy).Contents (Elt F)) -- %173
  :: StableHlo.binary main_v1 main_v173 main_v174 (addi : (⟨S500000, .i32⟩ : BufTy).Contents (Elt F) → (⟨S500000, .i32⟩ : BufTy).Contents (Elt F) → (⟨S500000, .i32⟩ : BufTy).Contents (Elt F)) -- %174
  :: StableHlo.ternary main_v172 main_v174 main_v1 main_v175 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %175
  :: StableHlo.unary main_v175 main_v176 (broadcastInDim S500000x1 ![0] bcast_S500000_S500000x1_0 : (⟨S500000, .i32⟩ : BufTy).Contents (Elt F) → (⟨S500000x1, .i32⟩ : BufTy).Contents (Elt F)) -- %176
  :: StableHlo.binary main_v148 main_v176 main_v177 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %177
  :: StableHlo.unary main_v170 main_v178 (broadcastInDim S500000x128 ![0, 1] bcast_S500000x1_S500000x128_0_1 : (⟨S500000x1, .f32⟩ : BufTy).Contents (Elt F) → (⟨S500000x128, .f32⟩ : BufTy).Contents (Elt F)) -- %178
  :: StableHlo.binary main_v178 main_v177 main_v179 (mulf : (⟨S500000x128, .f32⟩ : BufTy).Contents (Elt F) → (⟨S500000x128, .f32⟩ : BufTy).Contents (Elt F) → (⟨S500000x128, .f32⟩ : BufTy).Contents (Elt F)) -- %179
  :: StableHlo.nullary main_cst_36 (constant S_ .f32 0x00000000#32) -- %cst_36
  :: StableHlo.unary main_cst_36 main_v180 (broadcastInDim S50000x128 ![] bcast_S_S50000x128 : (⟨S_, .f32⟩ : BufTy).Contents (Elt F) → (⟨S50000x128, .f32⟩ : BufTy).Contents (Elt F)) -- %180
  :: StableHlo.unary main_v3 main_v181 (broadcastInDim S500000x1 ![0] bcast_S500000_S500000x1_0 : (⟨S500000, .i32⟩ : BufTy).Contents (Elt F) → (⟨S500000x1, .i32⟩ : BufTy).Contents (Elt F)) -- %181
  :: StableHlo.ternary main_v180 main_v181 main_v179 main_v182 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %182
  :: StableHlo.nullary main_cst_37 (constant S_ .f32 0x40000000#32) -- %cst_37
  :: StableHlo.unary main_cst_37 main_v183 (broadcastInDim S50000x128 ![] bcast_S_S50000x128 : (⟨S_, .f32⟩ : BufTy).Contents (Elt F) → (⟨S50000x128, .f32⟩ : BufTy).Contents (Elt F)) -- %183
  :: StableHlo.binary main_v183 main_v182 main_v184 (mulf : (⟨S50000x128, .f32⟩ : BufTy).Contents (Elt F) → (⟨S50000x128, .f32⟩ : BufTy).Contents (Elt F) → (⟨S50000x128, .f32⟩ : BufTy).Contents (Elt F)) -- %184
  :: StableHlo.binary main_v184 main_v40 main_v185 (subf : (⟨S50000x128, .f32⟩ : BufTy).Contents (Elt F) → (⟨S50000x128, .f32⟩ : BufTy).Contents (Elt F) → (⟨S50000x128, .f32⟩ : BufTy).Contents (Elt F)) -- %185
  :: StableHlo.unary main_v39 main_v186 (broadcastInDim S500000x1 ![0] bcast_S500000_S500000x1_0 : (⟨S500000, .f32⟩ : BufTy).Contents (Elt F) → (⟨S500000x1, .f32⟩ : BufTy).Contents (Elt F)) -- %186
  :: StableHlo.nullary main_c_38 (constantI S_ 32 0#32) -- %c_38
  :: StableHlo.unary main_c_38 main_v187 (broadcastInDim S500000 ![] bcast_S_S500000 : (⟨S_, .i32⟩ : BufTy).Contents (Elt F) → (⟨S500000, .i32⟩ : BufTy).Contents (Elt F)) -- %187
  :: StableHlo.binary main_v1 main_v187 main_v188 (cmpi .slt : (⟨S500000, .i32⟩ : BufTy).Contents (Elt F) → (⟨S500000, .i32⟩ : BufTy).Contents (Elt F) → (⟨S500000, .i1⟩ : BufTy).Contents (Elt F)) -- %188
  :: StableHlo.nullary main_c_39 (constantI S_ 32 50000#32) -- %c_39
  :: StableHlo.unary main_c_39 main_v189 (broadcastInDim S500000 ![] bcast_S_S500000 : (⟨S_, .i32⟩ : BufTy).Contents (Elt F) → (⟨S500000, .i32⟩ : BufTy).Contents (Elt F)) -- %189
  :: StableHlo.binary main_v1 main_v189 main_v190 (addi : (⟨S500000, .i32⟩ : BufTy).Contents (Elt F) → (⟨S500000, .i32⟩ : BufTy).Contents (Elt F) → (⟨S500000, .i32⟩ : BufTy).Contents (Elt F)) -- %190
  :: StableHlo.ternary main_v188 main_v190 main_v1 main_v191 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %191
  :: StableHlo.unary main_v191 main_v192 (broadcastInDim S500000x1 ![0] bcast_S500000_S500000x1_0 : (⟨S500000, .i32⟩ : BufTy).Contents (Elt F) → (⟨S500000x1, .i32⟩ : BufTy).Contents (Elt F)) -- %192
  :: StableHlo.binary main_v161 main_v192 main_v193 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %193
  :: StableHlo.unary main_v186 main_v194 (broadcastInDim S500000x128 ![0, 1] bcast_S500000x1_S500000x128_0_1 : (⟨S500000x1, .f32⟩ : BufTy).Contents (Elt F) → (⟨S500000x128, .f32⟩ : BufTy).Contents (Elt F)) -- %194
  :: StableHlo.binary main_v194 main_v193 main_v195 (mulf : (⟨S500000x128, .f32⟩ : BufTy).Contents (Elt F) → (⟨S500000x128, .f32⟩ : BufTy).Contents (Elt F) → (⟨S500000x128, .f32⟩ : BufTy).Contents (Elt F)) -- %195
  :: StableHlo.nullary main_cst_40 (constant S_ .f32 0x00000000#32) -- %cst_40
  :: StableHlo.unary main_cst_40 main_v196 (broadcastInDim S50000x128 ![] bcast_S_S50000x128 : (⟨S_, .f32⟩ : BufTy).Contents (Elt F) → (⟨S50000x128, .f32⟩ : BufTy).Contents (Elt F)) -- %196
  :: [] )

/-- 25 operations, %197 … %218: second gate — order-2 terms, products, bias, logistic function: the gate R at %218. -/
abbrev opsJ : List (HloOp τ sig (Elt F)) :=
  ( StableHlo.unary main_v3 main_v197 (broadcastInDim S500000x1 ![0] bcast_S500000_S500000x1_0 : (⟨S500000, .i32⟩ : BufTy).Contents (Elt F) → (⟨S500000x1, .i32⟩ : BufTy).Contents (Elt F)) -- %197
  :: StableHlo.ternary main_v196 main_v197 main_v195 main_v198 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %198
  :: StableHlo.nullary main_cst_41 (constant S_ .f32 0x40000000#32) -- %cst_41
  :: StableHlo.unary main_cst_41 main_v199 (broadcastInDim S50000x128 ![] bcast_S_S50000x128 : (⟨S_, .f32⟩ : BufTy).Contents (Elt F) → (⟨S50000x128, .f32⟩ : BufTy).Contents (Elt F)) -- %199
  :: StableHlo.binary main_v199 main_v198 main_v200 (mulf : (⟨S50000x128, .f32⟩ : BufTy).Contents (Elt F) → (⟨S50000x128, .f32⟩ : BufTy).Contents (Elt F) → (⟨S50000x128, .f32⟩ : BufTy).Contents (Elt F)) -- %200
  :: StableHlo.binary main_v200 main_v40 main_v201 (subf : (⟨S50000x128, .f32⟩ : BufTy).Contents (Elt F) → (⟨S50000x128, .f32⟩ : BufTy).Contents (Elt F) → (⟨S50000x128, .f32⟩ : BufTy).Contents (Elt F)) -- %201
  :: StableHlo.unary main_arg5 main_v202 ((extractStridedSlice S1x1x128x64 ![0, 2, 0, 0] · slices_S2x3x128x64_S1x1x128x64_0_2_0_0) : (⟨S2x3x128x64, .f32⟩ : BufTy).Contents (Elt F) → (⟨S1x1x128x64, .f32⟩ : BufTy).Contents (Elt F)) -- %202
  :: StableHlo.reshape main_v202 main_v203 rfl shapeCasts_S1x1x128x64_S128x64 -- %203
  :: StableHlo.binary main_v185 main_v203 main_v204 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %204
  :: StableHlo.binary main_v169 main_v204 main_v205 (addf : (⟨S50000x64, .f32⟩ : BufTy).Contents (Elt F) → (⟨S50000x64, .f32⟩ : BufTy).Contents (Elt F) → (⟨S50000x64, .f32⟩ : BufTy).Contents (Elt F)) -- %205
  :: StableHlo.unary main_arg5 main_v206 ((extractStridedSlice S1x1x128x64 ![1, 2, 0, 0] · slices_S2x3x128x64_S1x1x128x64_1_2_0_0) : (⟨S2x3x128x64, .f32⟩ : BufTy).Contents (Elt F) → (⟨S1x1x128x64, .f32⟩ : BufTy).Contents (Elt F)) -- %206
  :: StableHlo.reshape main_v206 main_v207 rfl shapeCasts_S1x1x128x64_S128x64 -- %207
  :: StableHlo.binary main_v201 main_v207 main_v208 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %208
  :: StableHlo.binary main_v205 main_v208 main_v209 (addf : (⟨S50000x64, .f32⟩ : BufTy).Contents (Elt F) → (⟨S50000x64, .f32⟩ : BufTy).Contents (Elt F) → (⟨S50000x64, .f32⟩ : BufTy).Contents (Elt F)) -- %209
  :: StableHlo.unary main_arg6 main_v210 (broadcastInDim S1x64 ![1] bcast_S64_S1x64_1 : (⟨S64, .f32⟩ : BufTy).Contents (Elt F) → (⟨S1x64, .f32⟩ : BufTy).Contents (Elt F)) -- %210
  :: StableHlo.unary main_v210 main_v211 (broadcastInDim S50000x64 ![0, 1] bcast_S1x64_S50000x64_0_1 : (⟨S1x64, .f32⟩ : BufTy).Contents (Elt F) → (⟨S50000x64, .f32⟩ : BufTy).Contents (Elt F)) -- %211
  :: StableHlo.binary main_v209 main_v211 main_v212 (addf : (⟨S50000x64, .f32⟩ : BufTy).Contents (Elt F) → (⟨S50000x64, .f32⟩ : BufTy).Contents (Elt F) → (⟨S50000x64, .f32⟩ : BufTy).Contents (Elt F)) -- %212
  :: StableHlo.unary main_v212 main_v213 (Host.negf : (⟨S50000x64, .f32⟩ : BufTy).Contents (Elt F) → (⟨S50000x64, .f32⟩ : BufTy).Contents (Elt F)) -- %213
  :: StableHlo.unary main_v213 main_v214 (Host.exp : (⟨S50000x64, .f32⟩ : BufTy).Contents (Elt F) → (⟨S50000x64, .f32⟩ : BufTy).Contents (Elt F)) -- %214
  :: StableHlo.nullary main_cst_42 (constant S_ .f32 0x3F800000#32) -- %cst_42
  :: StableHlo.unary main_cst_42 main_v215 (broadcastInDim S50000x64 ![] bcast_S_S50000x64 : (⟨S_, .f32⟩ : BufTy).Contents (Elt F) → (⟨S50000x64, .f32⟩ : BufTy).Contents (Elt F)) -- %215
  :: StableHlo.binary main_v215 main_v214 main_v216 (addf : (⟨S50000x64, .f32⟩ : BufTy).Contents (Elt F) → (⟨S50000x64, .f32⟩ : BufTy).Contents (Elt F) → (⟨S50000x64, .f32⟩ : BufTy).Contents (Elt F)) -- %216
  :: StableHlo.nullary main_cst_43 (constant S_ .f32 0x3F800000#32) -- %cst_43
  :: StableHlo.unary main_cst_43 main_v217 (broadcastInDim S50000x64 ![] bcast_S_S50000x64 : (⟨S_, .f32⟩ : BufTy).Contents (Elt F) → (⟨S50000x64, .f32⟩ : BufTy).Contents (Elt F)) -- %217
  :: StableHlo.binary main_v217 main_v216 main_v218 (Host.divf : (⟨S50000x64, .f32⟩ : BufTy).Contents (Elt F) → (⟨S50000x64, .f32⟩ : BufTy).Contents (Elt F) → (⟨S50000x64, .f32⟩ : BufTy).Contents (Elt F)) -- %218
  :: [] )

/-- 35 operations, %219 … %248: H ⊙ R, the concatenation [X | H ⊙ R]; candidate — order-0 weights and product, the order-1 propagations begun. -/
abbrev opsK : List (HloOp τ sig (Elt F)) :=
  ( StableHlo.binary main_arg2 main_v218 main_v219 (mulf : (⟨S50000x64, .f32⟩ : BufTy).Contents (Elt F) → (⟨S50000x64, .f32⟩ : BufTy).Contents (Elt F) → (⟨S50000x64, .f32⟩ : BufTy).Contents (Elt F)) -- %219
  :: StableHlo.binary main_arg0 main_v219 main_v220 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) -- %220
  :: StableHlo.unary main_arg7 main_v221 ((extractStridedSlice S1x1x128x64 ![0, 0, 0, 0] · slices_S2x3x128x64_S1x1x128x64_0_0_0_0) : (⟨S2x3x128x64, .f32⟩ : BufTy).Contents (Elt F) → (⟨S1x1x128x64, .f32⟩ : BufTy).Contents (Elt F)) -- %221
  :: StableHlo.reshape main_v221 main_v222 rfl shapeCasts_S1x1x128x64_S128x64 -- %222
  :: StableHlo.unary main_arg7 main_v223 ((extractStridedSlice S1x1x128x64 ![1, 0, 0, 0] · slices_S2x3x128x64_S1x1x128x64_1_0_0_0) : (⟨S2x3x128x64, .f32⟩ : BufTy).Contents (Elt F) → (⟨S1x1x128x64, .f32⟩ : BufTy).Contents (Elt F)) -- %223
  :: StableHlo.reshape main_v223 main_v224 rfl shapeCasts_S1x1x128x64_S128x64 -- %224
  :: StableHlo.binary main_v222 main_v224 main_v225 (addf : (⟨S128x64, .f32⟩ : BufTy).Contents (Elt F) → (⟨S128x64, .f32⟩ : BufTy).Contents (Elt F) → (⟨S128x64, .f32⟩ : BufTy).Contents (Elt F)) -- %225
  :: StableHlo.binary main_v220 main_v225 main_v226 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %226
  :: StableHlo.unary main_v30 main_v227 (broadcastInDim S500000x1 ![0] bcast_S500000_S500000x1_0 : (⟨S500000, .f32⟩ : BufTy).Contents (Elt F) → (⟨S500000x1, .f32⟩ : BufTy).Contents (Elt F)) -- %227
  :: StableHlo.nullary main_c_44 (constantI S_ 32 0#32) -- %c_44
  :: StableHlo.unary main_c_44 main_v228 (broadcastInDim S500000 ![] bcast_S_S500000 : (⟨S_, .i32⟩ : BufTy).Contents (Elt F) → (⟨S500000, .i32⟩ : BufTy).Contents (Elt F)) -- %228
  :: StableHlo.binary main_v1 main_v228 main_v229 (cmpi .slt : (⟨S500000, .i32⟩ : BufTy).Contents (Elt F) → (⟨S500000, .i32⟩ : BufTy).Contents (Elt F) → (⟨S500000, .i1⟩ : BufTy).Contents (Elt F)) -- %229
  :: StableHlo.nullary main_c_45 (constantI S_ 32 50000#32) -- %c_45
  :: StableHlo.unary main_c_45 main_v230 (broadcastInDim S500000 ![] bcast_S_S500000 : (⟨S_, .i32⟩ : BufTy).Contents (Elt F) → (⟨S500000, .i32⟩ : BufTy).Contents (Elt F)) -- %230
  :: StableHlo.binary main_v1 main_v230 main_v231 (addi : (⟨S500000, .i32⟩ : BufTy).Contents (Elt F) → (⟨S500000, .i32⟩ : BufTy).Contents (Elt F) → (⟨S500000, .i32⟩ : BufTy).Contents (Elt F)) -- %231
  :: StableHlo.ternary main_v229 main_v231 main_v1 main_v232 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %232
  :: StableHlo.unary main_v232 main_v233 (broadcastInDim S500000x1 ![0] bcast_S500000_S500000x1_0 : (⟨S500000, .i32⟩ : BufTy).Contents (Elt F) → (⟨S500000x1, .i32⟩ : BufTy).Contents (Elt F)) -- %233
  :: StableHlo.binary main_v220 main_v233 main_v234 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %234
  :: StableHlo.unary main_v227 main_v235 (broadcastInDim S500000x128 ![0, 1] bcast_S500000x1_S500000x128_0_1 : (⟨S500000x1, .f32⟩ : BufTy).Contents (Elt F) → (⟨S500000x128, .f32⟩ : BufTy).Contents (Elt F)) -- %235
  :: StableHlo.binary main_v235 main_v234 main_v236 (mulf : (⟨S500000x128, .f32⟩ : BufTy).Contents (Elt F) → (⟨S500000x128, .f32⟩ : BufTy).Contents (Elt F) → (⟨S500000x128, .f32⟩ : BufTy).Contents (Elt F)) -- %236
  :: StableHlo.nullary main_cst_46 (constant S_ .f32 0x00000000#32) -- %cst_46
  :: StableHlo.unary main_cst_46 main_v237 (broadcastInDim S50000x128 ![] bcast_S_S50000x128 : (⟨S_, .f32⟩ : BufTy).Contents (Elt F) → (⟨S50000x128, .f32⟩ : BufTy).Contents (Elt F)) -- %237
  :: StableHlo.unary main_v3 main_v238 (broadcastInDim S500000x1 ![0] bcast_S500000_S500000x1_0 : (⟨S500000, .i32⟩ : BufTy).Contents (Elt F) → (⟨S500000x1, .i32⟩ : BufTy).Contents (Elt F)) -- %238
  :: StableHlo.ternary main_v237 main_v238 main_v236 main_v239 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %239
  :: StableHlo.unary main_v39 main_v240 (broadcastInDim S500000x1 ![0] bcast_S500000_S500000x1_0 : (⟨S500000, .f32⟩ : BufTy).Contents (Elt F) → (⟨S500000x1, .f32⟩ : BufTy).Contents (Elt F)) -- %240
  :: StableHlo.nullary main_c_47 (constantI S_ 32 0#32) -- %c_47
  :: StableHlo.unary main_c_47 main_v241 (broadcastInDim S500000 ![] bcast_S_S500000 : (⟨S_, .i32⟩ : BufTy).Contents (Elt F) → (⟨S500000, .i32⟩ : BufTy).Contents (Elt F)) -- %241
  :: StableHlo.binary main_v1 main_v241 main_v242 (cmpi .slt : (⟨S500000, .i32⟩ : BufTy).Contents (Elt F) → (⟨S500000, .i32⟩ : BufTy).Contents (Elt F) → (⟨S500000, .i1⟩ : BufTy).Contents (Elt F)) -- %242
  :: StableHlo.nullary main_c_48 (constantI S_ 32 50000#32) -- %c_48
  :: StableHlo.unary main_c_48 main_v243 (broadcastInDim S500000 ![] bcast_S_S500000 : (⟨S_, .i32⟩ : BufTy).Contents (Elt F) → (⟨S500000, .i32⟩ : BufTy).Contents (Elt F)) -- %243
  :: StableHlo.binary main_v1 main_v243 main_v244 (addi : (⟨S500000, .i32⟩ : BufTy).Contents (Elt F) → (⟨S500000, .i32⟩ : BufTy).Contents (Elt F) → (⟨S500000, .i32⟩ : BufTy).Contents (Elt F)) -- %244
  :: StableHlo.ternary main_v242 main_v244 main_v1 main_v245 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %245
  :: StableHlo.unary main_v245 main_v246 (broadcastInDim S500000x1 ![0] bcast_S500000_S500000x1_0 : (⟨S500000, .i32⟩ : BufTy).Contents (Elt F) → (⟨S500000x1, .i32⟩ : BufTy).Contents (Elt F)) -- %246
  :: StableHlo.binary main_v220 main_v246 main_v247 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %247
  :: StableHlo.unary main_v240 main_v248 (broadcastInDim S500000x128 ![0, 1] bcast_S500000x1_S500000x128_0_1 : (⟨S500000x1, .f32⟩ : BufTy).Contents (Elt F) → (⟨S500000x128, .f32⟩ : BufTy).Contents (Elt F)) -- %248
  :: [] )

/-- 33 operations, %249 … %276: candidate — order-1 propagation finished, order-1 products and sums, first order-2 term. -/
abbrev opsL : List (HloOp τ sig (Elt F)) :=
  ( StableHlo.binary main_v248 main_v247 main_v249 (mulf : (⟨S500000x128, .f32⟩ : BufTy).Contents (Elt F) → (⟨S500000x128, .f32⟩ : BufTy).Contents (Elt F) → (⟨S500000x128, .f32⟩ : BufTy).Contents (Elt F)) -- %249
  :: StableHlo.nullary main_cst_49 (constant S_ .f32 0x00000000#32) -- %cst_49
  :: StableHlo.unary main_cst_49 main_v250 (broadcastInDim S50000x128 ![] bcast_S_S50000x128 : (⟨S_, .f32⟩ : BufTy).Contents (Elt F) → (⟨S50000x128, .f32⟩ : BufTy).Contents (Elt F)) -- %250
  :: StableHlo.unary main_v3 main_v251 (broadcastInDim S500000x1 ![0] bcast_S500000_S500000x1_0 : (⟨S500000, .i32⟩ : BufTy).Contents (Elt F) → (⟨S500000x1, .i32⟩ : BufTy).Contents (Elt F)) -- %251
  :: StableHlo.ternary main_v250 main_v251 main_v249 main_v252 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %252
  :: StableHlo.unary main_arg7 main_v253 ((extractStridedSlice S1x1x128x64 ![0, 1, 0, 0] · slices_S2x3x128x64_S1x1x128x64_0_1_0_0) : (⟨S2x3x128x64, .f32⟩ : BufTy).Contents (Elt F) → (⟨S1x1x128x64, .f32⟩ : BufTy).Contents (Elt F)) -- %253
  :: StableHlo.reshape main_v253 main_v254 rfl shapeCasts_S1x1x128x64_S128x64 -- %254
  :: StableHlo.binary main_v239 main_v254 main_v255 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %255
  :: StableHlo.binary main_v226 main_v255 main_v256 (addf : (⟨S50000x64, .f32⟩ : BufTy).Contents (Elt F) → (⟨S50000x64, .f32⟩ : BufTy).Contents (Elt F) → (⟨S50000x64, .f32⟩ : BufTy).Contents (Elt F)) -- %256
  :: StableHlo.unary main_arg7 main_v257 ((extractStridedSlice S1x1x128x64 ![1, 1, 0, 0] · slices_S2x3x128x64_S1x1x128x64_1_1_0_0) : (⟨S2x3x128x64, .f32⟩ : BufTy).Contents (Elt F) → (⟨S1x1x128x64, .f32⟩ : BufTy).Contents (Elt F)) -- %257
  :: StableHlo.reshape main_v257 main_v258 rfl shapeCasts_S1x1x128x64_S128x64 -- %258
  :: StableHlo.binary main_v252 main_v258 main_v259 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %259
  :: StableHlo.binary main_v256 main_v259 main_v260 (addf : (⟨S50000x64, .f32⟩ : BufTy).Contents (Elt F) → (⟨S50000x64, .f32⟩ : BufTy).Contents (Elt F) → (⟨S50000x64, .f32⟩ : BufTy).Contents (Elt F)) -- %260
  :: StableHlo.unary main_v30 main_v261 (broadcastInDim S500000x1 ![0] bcast_S500000_S500000x1_0 : (⟨S500000, .f32⟩ : BufTy).Contents (Elt F) → (⟨S500000x1, .f32⟩ : BufTy).Contents (Elt F)) -- %261
  :: StableHlo.nullary main_c_50 (constantI S_ 32 0#32) -- %c_50
  :: StableHlo.unary main_c_50 main_v262 (broadcastInDim S500000 ![] bcast_S_S500000 : (⟨S_, .i32⟩ : BufTy).Contents (Elt F) → (⟨S500000, .i32⟩ : BufTy).Contents (Elt F)) -- %262
  :: StableHlo.binary main_v1 main_v262 main_v263 (cmpi .slt : (⟨S500000, .i32⟩ : BufTy).Contents (Elt F) → (⟨S500000, .i32⟩ : BufTy).Contents (Elt F) → (⟨S500000, .i1⟩ : BufTy).Contents (Elt F)) -- %263
  :: StableHlo.nullary main_c_51 (constantI S_ 32 50000#32) -- %c_51
  :: StableHlo.unary main_c_51 main_v264 (broadcastInDim S500000 ![] bcast_S_S500000 : (⟨S_, .i32⟩ : BufTy).Contents (Elt F) → (⟨S500000, .i32⟩ : BufTy).Contents (Elt F)) -- %264
  :: StableHlo.binary main_v1 main_v264 main_v265 (addi : (⟨S500000, .i32⟩ : BufTy).Contents (Elt F) → (⟨S500000, .i32⟩ : BufTy).Contents (Elt F) → (⟨S500000, .i32⟩ : BufTy).Contents (Elt F)) -- %265
  :: StableHlo.ternary main_v263 main_v265 main_v1 main_v266 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %266
  :: StableHlo.unary main_v266 main_v267 (broadcastInDim S500000x1 ![0] bcast_S500000_S500000x1_0 : (⟨S500000, .i32⟩ : BufTy).Contents (Elt F) → (⟨S500000x1, .i32⟩ : BufTy).Contents (Elt F)) -- %267
  :: StableHlo.binary main_v239 main_v267 main_v268 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %268
  :: StableHlo.unary main_v261 main_v269 (broadcastInDim S500000x128 ![0, 1] bcast_S500000x1_S500000x128_0_1 : (⟨S500000x1, .f32⟩ : BufTy).Contents (Elt F) → (⟨S500000x128, .f32⟩ : BufTy).Contents (Elt F)) -- %269
  :: StableHlo.binary main_v269 main_v268 main_v270 (mulf : (⟨S500000x128, .f32⟩ : BufTy).Contents (Elt F) → (⟨S500000x128, .f32⟩ : BufTy).Contents (Elt F) → (⟨S500000x128, .f32⟩ : BufTy).Contents (Elt F)) -- %270
  :: StableHlo.nullary main_cst_52 (constant S_ .f32 0x00000000#32) -- %cst_52
  :: StableHlo.unary main_cst_52 main_v271 (broadcastInDim S50000x128 ![] bcast_S_S50000x128 : (⟨S_, .f32⟩ : BufTy).Contents (Elt F) → (⟨S50000x128, .f32⟩ : BufTy).Contents (Elt F)) -- %271
  :: StableHlo.unary main_v3 main_v272 (broadcastInDim S500000x1 ![0] bcast_S500000_S500000x1_0 : (⟨S500000, .i32⟩ : BufTy).Contents (Elt F) → (⟨S500000x1, .i32⟩ : BufTy).Contents (Elt F)) -- %272
  :: StableHlo.ternary main_v271 main_v272 main_v270 main_v273 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %273
  :: StableHlo.nullary main_cst_53 (constant S_ .f32 0x40000000#32) -- %cst_53
  :: StableHlo.unary main_cst_53 main_v274 (broadcastInDim S50000x128 ![] bcast_S_S50000x128 : (⟨S_, .f32⟩ : BufTy).Contents (Elt F) → (⟨S50000x128, .f32⟩ : BufTy).Contents (Elt F)) -- %274
  :: StableHlo.binary main_v274 main_v273 main_v275 (mulf : (⟨S50000x128, .f32⟩ : BufTy).Contents (Elt F) → (⟨S50000x128, .f32⟩ : BufTy).Contents (Elt F) → (⟨S50000x128, .f32⟩ : BufTy).Contents (Elt F)) -- %275
  :: StableHlo.binary main_v275 main_v220 main_v276 (subf : (⟨S50000x128, .f32⟩ : BufTy).Contents (Elt F) → (⟨S50000x128, .f32⟩ : BufTy).Contents (Elt F) → (⟨S50000x128, .f32⟩ : BufTy).Contents (Elt F)) -- %276
  :: [] )

/-- 27 operations, %277 … %299: candidate — second order-2 term, order-2 products. -/
abbrev opsM : List (HloOp τ sig (Elt F)) :=
  ( StableHlo.unary main_v39 main_v277 (broadcastInDim S500000x1 ![0] bcast_S500000_S500000x1_0 : (⟨S500000, .f32⟩ : BufTy).Contents (Elt F) → (⟨S500000x1, .f32⟩ : BufTy).Contents (Elt F)) -- %277
  :: StableHlo.nullary main_c_54 (constantI S_ 32 0#32) -- %c_54
  :: StableHlo.unary main_c_54 main_v278 (broadcastInDim S500000 ![] bcast_S_S500000 : (⟨S_, .i32⟩ : BufTy).Contents (Elt F) → (⟨S500000, .i32⟩ : BufTy).Contents (Elt F)) -- %278
  :: StableHlo.binary main_v1 main_v278 main_v279 (cmpi .slt : (⟨S500000, .i32⟩ : BufTy).Contents (Elt F) → (⟨S500000, .i32⟩ : BufTy).Contents (Elt F) → (⟨S500000, .i1⟩ : BufTy).Contents (Elt F)) -- %279
  :: StableHlo.nullary main_c_55 (constantI S_ 32 50000#32) -- %c_55
  :: StableHlo.unary main_c_55 main_v280 (broadcastInDim S500000 ![] bcast_S_S500000 : (⟨S_, .i32⟩ : BufTy).Contents (Elt F) → (⟨S500000, .i32⟩ : BufTy).Contents (Elt F)) -- %280
  :: StableHlo.binary main_v1 main_v280 main_v281 (addi : (⟨S500000, .i32⟩ : BufTy).Contents (Elt F) → (⟨S500000, .i32⟩ : BufTy).Contents (Elt F) → (⟨S500000, .i32⟩ : BufTy).Contents (Elt F)) -- %281
  :: StableHlo.ternary main_v279 main_v281 main_v1 main_v282 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) -- %282
  :: StableHlo.unary main_v282 main_v283 (broadcastInDim S500000x1 ![0] bcast_S500000_S500000x1_0 : (⟨S500000, .i32⟩ : BufTy).Contents (Elt F) → (⟨S500000x1, .i32⟩ : BufTy).Contents (Elt F)) -- %283
  :: StableHlo.binary main_v252 main_v283 main_v284 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) -- %284
  :: StableHlo.unary main_v277 main_v285 (broadcastInDim S500000x128 ![0, 1] bcast_S500000x1_S500000x128_0_1 : (⟨S500000x1, .f32⟩ : BufTy).Contents (Elt F) → (⟨S500000x128, .f32⟩ : BufTy).Contents (Elt F)) -- %285
  :: StableHlo.binary main_v285 main_v284 main_v286 (mulf : (⟨S500000x128, .f32⟩ : BufTy).Contents (Elt F) → (⟨S500000x128, .f32⟩ : BufTy).Contents (Elt F) → (⟨S500000x128, .f32⟩ : BufTy).Contents (Elt F)) -- %286
  :: StableHlo.nullary main_cst_56 (constant S_ .f32 0x00000000#32) -- %cst_56
  :: StableHlo.unary main_cst_56 main_v287 (broadcastInDim S50000x128 ![] bcast_S_S50000x128 : (⟨S_, .f32⟩ : BufTy).Contents (Elt F) → (⟨S50000x128, .f32⟩ : BufTy).Contents (Elt F)) -- %287
  :: StableHlo.unary main_v3 main_v288 (broadcastInDim S500000x1 ![0] bcast_S500000_S500000x1_0 : (⟨S500000, .i32⟩ : BufTy).Contents (Elt F) → (⟨S500000x1, .i32⟩ : BufTy).Contents (Elt F)) -- %288
  :: StableHlo.ternary main_v287 main_v288 main_v286 main_v289 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) -- %289
  :: StableHlo.nullary main_cst_57 (constant S_ .f32 0x40000000#32) -- %cst_57
  :: StableHlo.unary main_cst_57 main_v290 (broadcastInDim S50000x128 ![] bcast_S_S50000x128 : (⟨S_, .f32⟩ : BufTy).Contents (Elt F) → (⟨S50000x128, .f32⟩ : BufTy).Contents (Elt F)) -- %290
  :: StableHlo.binary main_v290 main_v289 main_v291 (mulf : (⟨S50000x128, .f32⟩ : BufTy).Contents (Elt F) → (⟨S50000x128, .f32⟩ : BufTy).Contents (Elt F) → (⟨S50000x128, .f32⟩ : BufTy).Contents (Elt F)) -- %291
  :: StableHlo.binary main_v291 main_v220 main_v292 (subf : (⟨S50000x128, .f32⟩ : BufTy).Contents (Elt F) → (⟨S50000x128, .f32⟩ : BufTy).Contents (Elt F) → (⟨S50000x128, .f32⟩ : BufTy).Contents (Elt F)) -- %292
  :: StableHlo.unary main_arg7 main_v293 ((extractStridedSlice S1x1x128x64 ![0, 2, 0, 0] · slices_S2x3x128x64_S1x1x128x64_0_2_0_0) : (⟨S2x3x128x64, .f32⟩ : BufTy).Contents (Elt F) → (⟨S1x1x128x64, .f32⟩ : BufTy).Contents (Elt F)) -- %293
  :: StableHlo.reshape main_v293 main_v294 rfl shapeCasts_S1x1x128x64_S128x64 -- %294
  :: StableHlo.binary main_v276 main_v294 main_v295 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %295
  :: StableHlo.binary main_v260 main_v295 main_v296 (addf : (⟨S50000x64, .f32⟩ : BufTy).Contents (Elt F) → (⟨S50000x64, .f32⟩ : BufTy).Contents (Elt F) → (⟨S50000x64, .f32⟩ : BufTy).Contents (Elt F)) -- %296
  :: StableHlo.unary main_arg7 main_v297 ((extractStridedSlice S1x1x128x64 ![1, 2, 0, 0] · slices_S2x3x128x64_S1x1x128x64_1_2_0_0) : (⟨S2x3x128x64, .f32⟩ : BufTy).Contents (Elt F) → (⟨S1x1x128x64, .f32⟩ : BufTy).Contents (Elt F)) -- %297
  :: StableHlo.reshape main_v297 main_v298 rfl shapeCasts_S1x1x128x64_S128x64 -- %298
  :: StableHlo.binary main_v292 main_v298 main_v299 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) -- %299
  :: [] )

/-- 5 operations, %300 … %304: candidate — last sum, bias, hyperbolic tangent: the candidate state at %304. -/
abbrev opsN : List (HloOp τ sig (Elt F)) :=
  ( StableHlo.binary main_v296 main_v299 main_v300 (addf : (⟨S50000x64, .f32⟩ : BufTy).Contents (Elt F) → (⟨S50000x64, .f32⟩ : BufTy).Contents (Elt F) → (⟨S50000x64, .f32⟩ : BufTy).Contents (Elt F)) -- %300
  :: StableHlo.unary main_arg8 main_v301 (broadcastInDim S1x64 ![1] bcast_S64_S1x64_1 : (⟨S64, .f32⟩ : BufTy).Contents (Elt F) → (⟨S1x64, .f32⟩ : BufTy).Contents (Elt F)) -- %301
  :: StableHlo.unary main_v301 main_v302 (broadcastInDim S50000x64 ![0, 1] bcast_S1x64_S50000x64_0_1 : (⟨S1x64, .f32⟩ : BufTy).Contents (Elt F) → (⟨S50000x64, .f32⟩ : BufTy).Contents (Elt F)) -- %302
  :: StableHlo.binary main_v300 main_v302 main_v303 (addf : (⟨S50000x64, .f32⟩ : BufTy).Contents (Elt F) → (⟨S50000x64, .f32⟩ : BufTy).Contents (Elt F) → (⟨S50000x64, .f32⟩ : BufTy).Contents (Elt F)) -- %303
  :: StableHlo.unary main_v303 main_v304 (Host.tanh : (⟨S50000x64, .f32⟩ : BufTy).Contents (Elt F) → (⟨S50000x64, .f32⟩ : BufTy).Contents (Elt F)) -- %304
  :: [] )

/-- 7 operations, %305 … %310: the convex combination Z ⊙ H + (1 − Z) ⊙ candidate at %309, and its not-a-number mask at %310. -/
abbrev opsO : List (HloOp τ sig (Elt F)) :=
  ( StableHlo.binary main_v129 main_arg2 main_v305 (mulf : (⟨S50000x64, .f32⟩ : BufTy).Contents (Elt F) → (⟨S50000x64, .f32⟩ : BufTy).Contents (Elt F) → (⟨S50000x64, .f32⟩ : BufTy).Contents (Elt F)) -- %305
  :: StableHlo.nullary main_cst_58 (constant S_ .f32 0x3F800000#32) -- %cst_58
  :: StableHlo.unary main_cst_58 main_v306 (broadcastInDim S50000x64 ![] bcast_S_S50000x64 : (⟨S_, .f32⟩ : BufTy).Contents (Elt F) → (⟨S50000x64, .f32⟩ : BufTy).Contents (Elt F)) -- %306
  :: StableHlo.binary main_v306 main_v129 main_v307 (subf : (⟨S50000x64, .f32⟩ : BufTy).Contents (Elt F) → (⟨S50000x64, .f32⟩ : BufTy).Contents (Elt F) → (⟨S50000x64, .f32⟩ : BufTy).Contents (Elt F)) -- %307
  :: StableHlo.binary main_v307 main_v304 main_v308 (mulf : (⟨S50000x64, .f32⟩ : BufTy).Contents (Elt F) → (⟨S50000x64, .f32⟩ : BufTy).Contents (Elt F) → (⟨S50000x64, .f32⟩ : BufTy).Contents (Elt F)) -- %308
  :: StableHlo.binary main_v305 main_v308 main_v309 (addf : (⟨S50000x64, .f32⟩ : BufTy).Contents (Elt F) → (⟨S50000x64, .f32⟩ : BufTy).Contents (Elt F) → (⟨S50000x64, .f32⟩ : BufTy).Contents (Elt F)) -- %309
  :: StableHlo.binary main_v309 main_v309 main_v310 (cmpf .une : (⟨S50000x64, .f32⟩ : BufTy).Contents (Elt F) → (⟨S50000x64, .f32⟩ : BufTy).Contents (Elt F) → (⟨S50000x64, .i1⟩ : BufTy).Contents (Elt F)) -- %310
  :: [] )

/-- 13 operations, the thirteen operations of the mean over the entries of %309 that are numbers (the outlined mean, its sum and its selection inlined, each value in the buffer its call names): %311. -/
abbrev opsP : List (HloOp τ sig (Elt F)) :=
  ( StableHlo.TRef.binary (.of main_v309 : StableHlo.TRef sig ⟨S50000x64, .f32⟩) (.of main_v309 : StableHlo.TRef sig ⟨S50000x64, .f32⟩) (.of main_call0_v0 : StableHlo.TRef sig ⟨S50000x64, .i1⟩) (cmpf .une) -- mask of %309 (first copy)
  :: StableHlo.TRef.unary (.of main_call0_v0 : StableHlo.TRef sig ⟨S50000x64, .i1⟩) (.of main_call0_v1 : StableHlo.TRef sig ⟨S50000x64, .i1⟩) noti -- its complement
  :: StableHlo.TRef.unary (.of main_call0_v1 : StableHlo.TRef sig ⟨S50000x64, .i1⟩) (.of main_call0_v2 : StableHlo.TRef sig ⟨S50000x64, .i32⟩) (extui 32 · natLt_1_32) -- as 32-bit integers
  :: StableHlo.TRef.unary (.of main_call0_v2 : StableHlo.TRef sig ⟨S50000x64, .i32⟩) (.of main_call0_v3 : StableHlo.TRef sig ⟨S50000x64, .f32⟩) (sitofp .f32) -- as floats
  :: StableHlo.TRef.nullary (.of main_call0_cst : StableHlo.TRef sig ⟨S_, .f32⟩) (constant S_ .f32 0x00000000#32) -- zero
  :: StableHlo.TRef.binary (.of main_call0_v3 : StableHlo.TRef sig ⟨S50000x64, .f32⟩) (.of main_call0_cst : StableHlo.TRef sig ⟨S_, .f32⟩) (.of main_call0_v4 : StableHlo.TRef sig ⟨S_, .f32⟩) (fun x v => Host.reduceAdd x v reducesTo_S50000x64_S_d0_1 h_S_) -- the count of entries that are numbers
  :: StableHlo.TRef.binary (.of main_v309 : StableHlo.TRef sig ⟨S50000x64, .f32⟩) (.of main_v309 : StableHlo.TRef sig ⟨S50000x64, .f32⟩) (.of main_call0_call0_v0 : StableHlo.TRef sig ⟨S50000x64, .i1⟩) (cmpf .une) -- mask of %309 (second copy)
  :: StableHlo.TRef.nullary (.of main_call0_call0_cst : StableHlo.TRef sig ⟨S_, .f32⟩) (constant S_ .f32 0x00000000#32) -- zero
  :: StableHlo.TRef.unary (.of main_call0_call0_cst : StableHlo.TRef sig ⟨S_, .f32⟩) (.of main_call0_call0_call0_v0 : StableHlo.TRef sig ⟨S50000x64, .f32⟩) (broadcastInDim S50000x64 ![] bcast_S_S50000x64) -- zero, broadcast
  :: StableHlo.TRef.ternary (.of main_call0_call0_v0 : StableHlo.TRef sig ⟨S50000x64, .i1⟩) (.of main_call0_call0_call0_v0 : StableHlo.TRef sig ⟨S50000x64, .f32⟩) (.of main_v309 : StableHlo.TRef sig ⟨S50000x64, .f32⟩) (.of main_call0_call0_v1 : StableHlo.TRef sig ⟨S50000x64, .f32⟩) select -- %309 with zero where it is not a number
  :: StableHlo.TRef.nullary (.of main_call0_call0_cst_0 : StableHlo.TRef sig ⟨S_, .f32⟩) (constant S_ .f32 0x00000000#32) -- zero
  :: StableHlo.TRef.binary (.of main_call0_call0_v1 : StableHlo.TRef sig ⟨S50000x64, .f32⟩) (.of main_call0_call0_cst_0 : StableHlo.TRef sig ⟨S_, .f32⟩) (.of main_call0_v5 : StableHlo.TRef sig ⟨S_, .f32⟩) (fun x v => Host.reduceAdd x v reducesTo_S50000x64_S_d0_1 h_S_) -- the sum of the entries that are numbers
  :: StableHlo.TRef.binary (.of main_call0_v5 : StableHlo.TRef sig ⟨S_, .f32⟩) (.of main_call0_v4 : StableHlo.TRef sig ⟨S_, .f32⟩) (.of main_v311 : StableHlo.TRef sig ⟨S_, .f32⟩) Host.divf -- %311: their mean
  :: [] )

/-- 2 operations, the two operations of the outlined selection, inlined: the result %312. -/
abbrev opsQ : List (HloOp τ sig (Elt F)) :=
  ( StableHlo.TRef.unary (.of main_v311 : StableHlo.TRef sig ⟨S_, .f32⟩) (.of main_call1_v0 : StableHlo.TRef sig ⟨S50000x64, .f32⟩) (broadcastInDim S50000x64 ![] bcast_S_S50000x64) -- the mean, broadcast
  :: StableHlo.TRef.ternary (.of main_v310 : StableHlo.TRef sig ⟨S50000x64, .i1⟩) (.of main_call1_v0 : StableHlo.TRef sig ⟨S50000x64, .f32⟩) (.of main_v309 : StableHlo.TRef sig ⟨S50000x64, .f32⟩) (.of main_v312 : StableHlo.TRef sig ⟨S50000x64, .f32⟩) select -- %312: %309 with the mean where it is not a number
  :: [] )

/-- Every operation of @main in order, the calls inlined: 387 operations. -/
abbrev ops : List (HloOp τ sig (Elt F)) :=
  opsA ++ opsB ++ opsC ++ opsD ++ opsE ++ opsF ++ opsG ++ opsH ++ opsI ++ opsJ ++ opsK ++ opsL ++ opsM ++ opsN ++ opsO ++ opsP ++ opsQ

end Cert.ReferenceIdeal.Hand

end
-- ==== Proof.RefPieces.lean ====
/- The reference program's @main is the line of the listed operations; each piece of the list touches
   TensorCore references only and allocates nothing; the signature scopes nothing. -/
import proofs.«157260_j76725295776119_1_alg».proof.Proof.RefOps
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the line of the operations -/

/-- Window 0 of @main is the line of its pieces. -/
theorem main_part0_eq (c : Dev nD) : main_part0 (F := F) c = seq (opsA ++ opsB ++ opsC) := rfl

/-- Window 1 of @main is the line of its pieces. -/
theorem main_part1_eq (c : Dev nD) : main_part1 (F := F) c = seq (opsD ++ opsE) := rfl

/-- Window 2 of @main is the line of its pieces. -/
theorem main_part2_eq (c : Dev nD) : main_part2 (F := F) c = seq (opsF ++ opsG) := rfl

/-- Window 3 of @main is the line of its pieces. -/
theorem main_part3_eq (c : Dev nD) : main_part3 (F := F) c = seq (opsH ++ opsI) := rfl

/-- Window 4 of @main is the line of its pieces. -/
theorem main_part4_eq (c : Dev nD) : main_part4 (F := F) c = seq (opsJ ++ opsK) := rfl

/-- Window 5 of @main is the line of its pieces. -/
theorem main_part5_eq (c : Dev nD) : main_part5 (F := F) c = seq (opsL ++ opsM) := rfl

set_option maxRecDepth 4096 in
/-- The last window of @main is the line of its pieces: the functions' definitions unfolded at their calls and the
    records at their fields, both sides are one chain of steps once sequencing is reassociated. -/
theorem main_part6_eq (c : Dev nD) : main_part6 (F := F) c = seq (opsN ++ opsO ++ opsP ++ opsQ) := by
  simp only [main_part6, fn_nanmean.body, fn_nansum.body, fn_where.body, fn_where_0.body, bind_assoc, pure_bind]
  rfl

/-- @main is the line of all the operations: its windows in order, each the line of its pieces, and two lines
    run one after the other are their concatenation run as one. -/
theorem main_eq (c : Dev nD) : main (F := F) c = seq ops := by
  simp only [main, main_part0_eq, main_part1_eq, main_part2_eq, main_part3_eq, main_part4_eq, main_part5_eq,
    main_part6_eq, ops, seq_append, bind_assoc]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Each piece touches TensorCore references only and allocates nothing -/

theorem opsA_sub : (opsA : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem opsA_fresh : (opsA : List (HloOp τ sig (Elt F))).Forall fun op => op.fresh = ∅ := by
  simp only [List.Forall]; repeat' constructor

theorem opsB_sub : (opsB : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem opsB_fresh : (opsB : List (HloOp τ sig (Elt F))).Forall fun op => op.fresh = ∅ := by
  simp only [List.Forall]; repeat' constructor

theorem opsC_sub : (opsC : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub ..⟩
theorem opsC_fresh : (opsC : List (HloOp τ sig (Elt F))).Forall fun op => op.fresh = ∅ := by
  simp only [List.Forall]; repeat' constructor

theorem opsD_sub : (opsD : List (HloOp τ sig (Elt F))).Forall fun op => op.bufs ⊆ tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem opsD_fresh : (opsD : List (HloOp τ sig (Elt F))).Forall fun op => op.fresh = ∅ := by
  simp only [List.Forall]; repeat' constructor

theorem opsE_sub : (opsE : List (HloOp τ sig (Elt F))).Forall fun op => op.bufs ⊆ tcRefs τ sig :=
  ⟨StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub ..⟩
theorem opsE_fresh : (opsE : List (HloOp τ sig (Elt F))).Forall fun op => op.fresh = ∅ := by
  simp only [List.Forall]; repeat' constructor

theorem opsF_sub : (opsF : List (HloOp τ sig (Elt F))).Forall fun op => op.bufs ⊆ tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
theorem opsF_fresh : (opsF : List (HloOp τ sig (Elt F))).Forall fun op => op.fresh = ∅ := by
  simp only [List.Forall]; repeat' constructor

theorem opsG_sub : (opsG : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub ..⟩
theorem opsG_fresh : (opsG : List (HloOp τ sig (Elt F))).Forall fun op => op.fresh = ∅ := by
  simp only [List.Forall]; repeat' constructor

theorem opsH_sub : (opsH : List (HloOp τ sig (Elt F))).Forall fun op => op.bufs ⊆ tcRefs τ sig :=
  ⟨StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub ..⟩
theorem opsH_fresh : (opsH : List (HloOp τ sig (Elt F))).Forall fun op => op.fresh = ∅ := by
  simp only [List.Forall]; repeat' constructor

theorem opsI_sub : (opsI : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub ..⟩
theorem opsI_fresh : (opsI : List (HloOp τ sig (Elt F))).Forall fun op => op.fresh = ∅ := by
  simp only [List.Forall]; repeat' constructor

theorem opsJ_sub : (opsJ : List (HloOp τ sig (Elt F))).Forall fun op => op.bufs ⊆ tcRefs τ sig :=
  ⟨StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
theorem opsJ_fresh : (opsJ : List (HloOp τ sig (Elt F))).Forall fun op => op.fresh = ∅ := by
  simp only [List.Forall]; repeat' constructor

theorem opsK_sub : (opsK : List (HloOp τ sig (Elt F))).Forall fun op => op.bufs ⊆ tcRefs τ sig :=
  ⟨StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩
theorem opsK_fresh : (opsK : List (HloOp τ sig (Elt F))).Forall fun op => op.fresh = ∅ := by
  simp only [List.Forall]; repeat' constructor

theorem opsL_sub : (opsL : List (HloOp τ sig (Elt F))).Forall fun op => op.bufs ⊆ tcRefs τ sig :=
  ⟨StableHlo.binary_bufs_sub .., StableHlo.nullary_bufs_sub .., StableHlo.unary_bufs_sub .., StableHlo.unary_bufs_sub .., StableHlo.ternary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub ..⟩
theorem opsL_fresh : (opsL : List (HloOp τ sig (Elt F))).Forall fun op => op.fresh = ∅ := by
  simp only [List.Forall]; repeat' constructor

theorem opsM_sub : (opsM : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub ..⟩
theorem opsM_fresh : (opsM : List (HloOp τ sig (Elt F))).Forall fun op => op.fresh = ∅ := by
  simp only [List.Forall]; repeat' constructor

theorem opsN_sub : (opsN : List (HloOp τ sig (Elt F))).Forall fun op => op.bufs ⊆ tcRefs τ sig :=
  ⟨StableHlo.binary_bufs_sub .., StableHlo.unary_bufs_sub .., StableHlo.unary_bufs_sub .., StableHlo.binary_bufs_sub .., StableHlo.unary_bufs_sub ..⟩
theorem opsN_fresh : (opsN : List (HloOp τ sig (Elt F))).Forall fun op => op.fresh = ∅ := by
  simp only [List.Forall]; repeat' constructor

theorem opsO_sub : (opsO : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.binary_bufs_sub .., StableHlo.binary_bufs_sub .., StableHlo.binary_bufs_sub ..⟩
theorem opsO_fresh : (opsO : List (HloOp τ sig (Elt F))).Forall fun op => op.fresh = ∅ := by
  simp only [List.Forall]; repeat' constructor

theorem opsP_sub : (opsP : List (HloOp τ sig (Elt F))).Forall fun op => op.bufs ⊆ tcRefs τ sig :=
  ⟨StableHlo.binary_bufs_sub .., StableHlo.unary_bufs_sub .., StableHlo.unary_bufs_sub .., StableHlo.unary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.binary_bufs_sub .., StableHlo.binary_bufs_sub ..⟩
theorem opsP_fresh : (opsP : List (HloOp τ sig (Elt F))).Forall fun op => op.fresh = ∅ := by
  simp only [List.Forall]; repeat' constructor

theorem opsQ_sub : (opsQ : List (HloOp τ sig (Elt F))).Forall fun op => op.bufs ⊆ tcRefs τ sig :=
  ⟨StableHlo.unary_bufs_sub .., StableHlo.ternary_bufs_sub ..⟩
theorem opsQ_fresh : (opsQ : List (HloOp τ sig (Elt F))).Forall fun op => op.fresh = ∅ := by
  simp only [List.Forall]; repeat' constructor

end Cert.ReferenceIdeal.Hand

end
-- ==== Proof.RefRun.lean ====
/- The reference program's run: every weakly fair execution of @main terminates with each TensorCore
   buffer at the fold of the listed operations' results over the launch contents. -/
import proofs.«157260_j76725295776119_1_alg».proof.Proof.RefPieces
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The whole line

A property of every operation of a concatenation holds exactly when it holds of every operation of each part
(`List.forall_append`): the statements about the whole line are the conjunctions of the pieces' statements. The two
forms the run theorem consumes are stated for every device. -/

theorem ops_sub : (ops : List (HloOp τ sig (Elt F))).Forall fun op => op.bufs ⊆ tcRefs τ sig := by
  unfold ops
  simp only [List.forall_append]
  exact ⟨⟨⟨⟨⟨⟨⟨⟨⟨⟨⟨⟨⟨⟨⟨⟨opsA_sub, opsB_sub⟩, opsC_sub⟩, opsD_sub⟩, opsE_sub⟩, opsF_sub⟩, opsG_sub⟩, opsH_sub⟩, opsI_sub⟩, opsJ_sub⟩, opsK_sub⟩, opsL_sub⟩, opsM_sub⟩, opsN_sub⟩, opsO_sub⟩, opsP_sub⟩, opsQ_sub⟩

theorem ops_fresh : (ops : List (HloOp τ sig (Elt F))).Forall fun op => op.fresh = ∅ := by
  unfold ops
  simp only [List.forall_append]
  exact ⟨⟨⟨⟨⟨⟨⟨⟨⟨⟨⟨⟨⟨⟨⟨⟨opsA_fresh, opsB_fresh⟩, opsC_fresh⟩, opsD_fresh⟩, opsE_fresh⟩, opsF_fresh⟩, opsG_fresh⟩, opsH_fresh⟩, opsI_fresh⟩, opsJ_fresh⟩, opsK_fresh⟩, opsL_fresh⟩, opsM_fresh⟩, opsN_fresh⟩, opsO_fresh⟩, opsP_fresh⟩, opsQ_fresh⟩

/-- `ops_sub`, under a device binder. -/
theorem ops_sub_dev : ∀ _ : Dev nD, (ops : List (HloOp τ sig (Elt F))).Forall fun op => op.bufs ⊆ tcRefs τ sig := by
  intro _
  unfold ops
  simp only [List.forall_append]
  exact ⟨⟨⟨⟨⟨⟨⟨⟨⟨⟨⟨⟨⟨⟨⟨⟨opsA_sub, opsB_sub⟩, opsC_sub⟩, opsD_sub⟩, opsE_sub⟩, opsF_sub⟩, opsG_sub⟩, opsH_sub⟩, opsI_sub⟩, opsJ_sub⟩, opsK_sub⟩, opsL_sub⟩, opsM_sub⟩, opsN_sub⟩, opsO_sub⟩, opsP_sub⟩, opsQ_sub⟩

/-- No operation of the line allocates: each determines its results. -/
theorem ops_fresh_dev : ∀ _ : Dev nD, ∀ op ∈ (ops : List (HloOp τ sig (Elt F))), op.fresh = ∅ := by
  intro _
  refine List.forall_iff_forall_mem.mp ?_
  unfold ops
  simp only [List.forall_append]
  exact ⟨⟨⟨⟨⟨⟨⟨⟨⟨⟨⟨⟨⟨⟨⟨⟨opsA_fresh, opsB_fresh⟩, opsC_fresh⟩, opsD_fresh⟩, opsE_fresh⟩, opsF_fresh⟩, opsG_fresh⟩, opsH_fresh⟩, opsI_fresh⟩, opsJ_fresh⟩, opsK_fresh⟩, opsL_fresh⟩, opsM_fresh⟩, opsN_fresh⟩, opsO_fresh⟩, opsP_fresh⟩, opsQ_fresh⟩

/-- On every device, for any float values, from any memory with zero counters: every weakly fair execution of
    @main terminates, and every final state has each TensorCore buffer at the fold of the operations' results over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq (Val := Elt F) scopedRefs_eq scopedSems_eq (defs (F := F)) (main (F := F)) (fun _ => ops (F := F)) main_eq
    ops_sub_dev m ρ ops_fresh_dev

end Cert.ReferenceIdeal.Hand

end
-- ==== Proof.RefFrame.lean ====
/- The reference program's frame: the references each piece of the line writes, a reference no piece
   writes keeps its contents, so every argument ends as launched. -/
import proofs.«157260_j76725295776119_1_alg».proof.Defs
import proofs.«157260_j76725295776119_1_alg».proof.Proof.Gen.Pre_finite_inputs
import proofs.«157260_j76725295776119_1_alg».proof.Proof.RefRun
import Idealize.ShloMosaic.Lib.Pipeline.Frame

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## What each piece writes -/

/-- The references the operations of `opsA` write, in order. -/
abbrev opsA_W : List (Ref sig .tc) :=
  [main_v0, main_v1, main_v2, main_v3, main_cst, main_v4, main_c, main_v5, main_v6, main_c_0, main_v7, main_v8, main_v9, main_v10, main_cst_1, main_v11, main_v12, main_cst_2, main_v13, main_c_3, main_v14, main_v15, main_c_4, main_v16, main_v17, main_v18, main_v19, main_cst_5, main_v20, main_v21]
theorem opsA_writes : (opsA : List (HloOp τ sig (Elt F))).Forall fun op => op.writes ⊆ (opsA_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsA` does not write keeps its contents through it. -/
theorem opsA_keep (V : Valuation τ sig (Elt F)) {r : Ref sig .tc} (hr : r ∉ opsA_W) :
    after opsA V (Proc.devRef .tc r) = V (Proc.devRef .tc r) :=
  after_of_writes_sub opsA V opsA_writes hr

/-- The references the operations of `opsB` write, in order. -/
abbrev opsB_W : List (Ref sig .tc) :=
  [main_cst_6, main_v22, main_v23, main_c_7, main_v24, main_v25, main_c_8, main_v26, main_v27, main_v28, main_v29, main_v30, main_cst_9, main_v31, main_v32, main_c_10, main_v33, main_v34, main_c_11, main_v35, main_v36, main_v37, main_v38, main_v39, main_v40]
theorem opsB_writes : (opsB : List (HloOp τ sig (Elt F))).Forall fun op => op.writes ⊆ (opsB_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsB` does not write keeps its contents through it. -/
theorem opsB_keep (V : Valuation τ sig (Elt F)) {r : Ref sig .tc} (hr : r ∉ opsB_W) :
    after opsB V (Proc.devRef .tc r) = V (Proc.devRef .tc r) :=
  after_of_writes_sub opsB V opsB_writes hr

/-- The references the operations of `opsC` write, in order. -/
abbrev opsC_W : List (Ref sig .tc) :=
  [main_v41, main_v42, main_v43, main_v44, main_v45]
theorem opsC_writes : (opsC : List (HloOp τ sig (Elt F))).Forall fun op => op.writes ⊆ (opsC_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsC` does not write keeps its contents through it. -/
theorem opsC_keep (V : Valuation τ sig (Elt F)) {r : Ref sig .tc} (hr : r ∉ opsC_W) :
    after opsC V (Proc.devRef .tc r) = V (Proc.devRef .tc r) :=
  after_of_writes_sub opsC V opsC_writes hr

/-- The references the operations of `opsD` write, in order. -/
abbrev opsD_W : List (Ref sig .tc) :=
  [main_v46, main_v47, main_c_12, main_v48, main_v49, main_c_13, main_v50, main_v51, main_v52, main_v53, main_v54, main_v55, main_v56, main_cst_14, main_v57, main_v58, main_v59, main_v60, main_c_15, main_v61, main_v62, main_c_16, main_v63, main_v64, main_v65, main_v66, main_v67, main_v68, main_v69, main_cst_17, main_v70, main_v71, main_v72]
theorem opsD_writes : (opsD : List (HloOp τ sig (Elt F))).Forall fun op => op.writes ⊆ (opsD_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsD` does not write keeps its contents through it. -/
theorem opsD_keep (V : Valuation τ sig (Elt F)) {r : Ref sig .tc} (hr : r ∉ opsD_W) :
    after opsD V (Proc.devRef .tc r) = V (Proc.devRef .tc r) :=
  after_of_writes_sub opsD V opsD_writes hr

/-- The references the operations of `opsE` write, in order. -/
abbrev opsE_W : List (Ref sig .tc) :=
  [main_v73, main_v74, main_v75, main_v76, main_v77, main_v78, main_v79, main_v80, main_v81, main_c_18, main_v82, main_v83, main_c_19, main_v84, main_v85, main_v86, main_v87, main_v88, main_v89, main_v90, main_cst_20, main_v91, main_v92, main_v93, main_cst_21, main_v94, main_v95]
theorem opsE_writes : (opsE : List (HloOp τ sig (Elt F))).Forall fun op => op.writes ⊆ (opsE_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsE` does not write keeps its contents through it. -/
theorem opsE_keep (V : Valuation τ sig (Elt F)) {r : Ref sig .tc} (hr : r ∉ opsE_W) :
    after opsE V (Proc.devRef .tc r) = V (Proc.devRef .tc r) :=
  after_of_writes_sub opsE V opsE_writes hr

/-- The references the operations of `opsF` write, in order. -/
abbrev opsF_W : List (Ref sig .tc) :=
  [main_v96, main_v97, main_c_22, main_v98, main_v99, main_c_23, main_v100, main_v101, main_v102, main_v103, main_v104, main_v105, main_v106, main_cst_24, main_v107, main_v108, main_v109, main_cst_25, main_v110, main_v111, main_v112, main_v113, main_v114, main_v115, main_v116, main_v117, main_v118, main_v119, main_v120, main_v121, main_v122, main_v123, main_v124, main_v125, main_cst_26, main_v126, main_v127, main_cst_27, main_v128, main_v129]
theorem opsF_writes : (opsF : List (HloOp τ sig (Elt F))).Forall fun op => op.writes ⊆ (opsF_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsF` does not write keeps its contents through it. -/
theorem opsF_keep (V : Valuation τ sig (Elt F)) {r : Ref sig .tc} (hr : r ∉ opsF_W) :
    after opsF V (Proc.devRef .tc r) = V (Proc.devRef .tc r) :=
  after_of_writes_sub opsF V opsF_writes hr

/-- The references the operations of `opsG` write, in order. -/
abbrev opsG_W : List (Ref sig .tc) :=
  [main_v130, main_v131, main_v132, main_v133, main_v134, main_v135, main_v136, main_c_28, main_v137, main_v138, main_c_29, main_v139, main_v140, main_v141, main_v142, main_v143, main_v144, main_v145, main_cst_30, main_v146]
theorem opsG_writes : (opsG : List (HloOp τ sig (Elt F))).Forall fun op => op.writes ⊆ (opsG_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsG` does not write keeps its contents through it. -/
theorem opsG_keep (V : Valuation τ sig (Elt F)) {r : Ref sig .tc} (hr : r ∉ opsG_W) :
    after opsG V (Proc.devRef .tc r) = V (Proc.devRef .tc r) :=
  after_of_writes_sub opsG V opsG_writes hr

/-- The references the operations of `opsH` write, in order. -/
abbrev opsH_W : List (Ref sig .tc) :=
  [main_v147, main_v148, main_v149, main_c_31, main_v150, main_v151, main_c_32, main_v152, main_v153, main_v154, main_v155, main_v156, main_v157, main_v158, main_cst_33, main_v159, main_v160, main_v161, main_v162, main_v163, main_v164, main_v165, main_v166, main_v167, main_v168, main_v169]
theorem opsH_writes : (opsH : List (HloOp τ sig (Elt F))).Forall fun op => op.writes ⊆ (opsH_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsH` does not write keeps its contents through it. -/
theorem opsH_keep (V : Valuation τ sig (Elt F)) {r : Ref sig .tc} (hr : r ∉ opsH_W) :
    after opsH V (Proc.devRef .tc r) = V (Proc.devRef .tc r) :=
  after_of_writes_sub opsH V opsH_writes hr

/-- The references the operations of `opsI` write, in order. -/
abbrev opsI_W : List (Ref sig .tc) :=
  [main_v170, main_c_34, main_v171, main_v172, main_c_35, main_v173, main_v174, main_v175, main_v176, main_v177, main_v178, main_v179, main_cst_36, main_v180, main_v181, main_v182, main_cst_37, main_v183, main_v184, main_v185, main_v186, main_c_38, main_v187, main_v188, main_c_39, main_v189, main_v190, main_v191, main_v192, main_v193, main_v194, main_v195, main_cst_40, main_v196]
theorem opsI_writes : (opsI : List (HloOp τ sig (Elt F))).Forall fun op => op.writes ⊆ (opsI_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsI` does not write keeps its contents through it. -/
theorem opsI_keep (V : Valuation τ sig (Elt F)) {r : Ref sig .tc} (hr : r ∉ opsI_W) :
    after opsI V (Proc.devRef .tc r) = V (Proc.devRef .tc r) :=
  after_of_writes_sub opsI V opsI_writes hr

/-- The references the operations of `opsJ` write, in order. -/
abbrev opsJ_W : List (Ref sig .tc) :=
  [main_v197, main_v198, main_cst_41, main_v199, main_v200, main_v201, main_v202, main_v203, main_v204, main_v205, main_v206, main_v207, main_v208, main_v209, main_v210, main_v211, main_v212, main_v213, main_v214, main_cst_42, main_v215, main_v216, main_cst_43, main_v217, main_v218]
theorem opsJ_writes : (opsJ : List (HloOp τ sig (Elt F))).Forall fun op => op.writes ⊆ (opsJ_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsJ` does not write keeps its contents through it. -/
theorem opsJ_keep (V : Valuation τ sig (Elt F)) {r : Ref sig .tc} (hr : r ∉ opsJ_W) :
    after opsJ V (Proc.devRef .tc r) = V (Proc.devRef .tc r) :=
  after_of_writes_sub opsJ V opsJ_writes hr

/-- The references the operations of `opsK` write, in order. -/
abbrev opsK_W : List (Ref sig .tc) :=
  [main_v219, main_v220, main_v221, main_v222, main_v223, main_v224, main_v225, main_v226, main_v227, main_c_44, main_v228, main_v229, main_c_45, main_v230, main_v231, main_v232, main_v233, main_v234, main_v235, main_v236, main_cst_46, main_v237, main_v238, main_v239, main_v240, main_c_47, main_v241, main_v242, main_c_48, main_v243, main_v244, main_v245, main_v246, main_v247, main_v248]
theorem opsK_writes : (opsK : List (HloOp τ sig (Elt F))).Forall fun op => op.writes ⊆ (opsK_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsK` does not write keeps its contents through it. -/
theorem opsK_keep (V : Valuation τ sig (Elt F)) {r : Ref sig .tc} (hr : r ∉ opsK_W) :
    after opsK V (Proc.devRef .tc r) = V (Proc.devRef .tc r) :=
  after_of_writes_sub opsK V opsK_writes hr

/-- The references the operations of `opsL` write, in order. -/
abbrev opsL_W : List (Ref sig .tc) :=
  [main_v249, main_cst_49, main_v250, main_v251, main_v252, main_v253, main_v254, main_v255, main_v256, main_v257, main_v258, main_v259, main_v260, main_v261, main_c_50, main_v262, main_v263, main_c_51, main_v264, main_v265, main_v266, main_v267, main_v268, main_v269, main_v270, main_cst_52, main_v271, main_v272, main_v273, main_cst_53, main_v274, main_v275, main_v276]
theorem opsL_writes : (opsL : List (HloOp τ sig (Elt F))).Forall fun op => op.writes ⊆ (opsL_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsL` does not write keeps its contents through it. -/
theorem opsL_keep (V : Valuation τ sig (Elt F)) {r : Ref sig .tc} (hr : r ∉ opsL_W) :
    after opsL V (Proc.devRef .tc r) = V (Proc.devRef .tc r) :=
  after_of_writes_sub opsL V opsL_writes hr

/-- The references the operations of `opsM` write, in order. -/
abbrev opsM_W : List (Ref sig .tc) :=
  [main_v277, main_c_54, main_v278, main_v279, main_c_55, main_v280, main_v281, main_v282, main_v283, main_v284, main_v285, main_v286, main_cst_56, main_v287, main_v288, main_v289, main_cst_57, main_v290, main_v291, main_v292, main_v293, main_v294, main_v295, main_v296, main_v297, main_v298, main_v299]
theorem opsM_writes : (opsM : List (HloOp τ sig (Elt F))).Forall fun op => op.writes ⊆ (opsM_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsM` does not write keeps its contents through it. -/
theorem opsM_keep (V : Valuation τ sig (Elt F)) {r : Ref sig .tc} (hr : r ∉ opsM_W) :
    after opsM V (Proc.devRef .tc r) = V (Proc.devRef .tc r) :=
  after_of_writes_sub opsM V opsM_writes hr

/-- The references the operations of `opsN` write, in order. -/
abbrev opsN_W : List (Ref sig .tc) :=
  [main_v300, main_v301, main_v302, main_v303, main_v304]
theorem opsN_writes : (opsN : List (HloOp τ sig (Elt F))).Forall fun op => op.writes ⊆ (opsN_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsN` does not write keeps its contents through it. -/
theorem opsN_keep (V : Valuation τ sig (Elt F)) {r : Ref sig .tc} (hr : r ∉ opsN_W) :
    after opsN V (Proc.devRef .tc r) = V (Proc.devRef .tc r) :=
  after_of_writes_sub opsN V opsN_writes hr

/-- The references the operations of `opsO` write, in order. -/
abbrev opsO_W : List (Ref sig .tc) :=
  [main_v305, main_cst_58, main_v306, main_v307, main_v308, main_v309, main_v310]
theorem opsO_writes : (opsO : List (HloOp τ sig (Elt F))).Forall fun op => op.writes ⊆ (opsO_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsO` does not write keeps its contents through it. -/
theorem opsO_keep (V : Valuation τ sig (Elt F)) {r : Ref sig .tc} (hr : r ∉ opsO_W) :
    after opsO V (Proc.devRef .tc r) = V (Proc.devRef .tc r) :=
  after_of_writes_sub opsO V opsO_writes hr

/-- The references the operations of `opsP` write, in order. -/
abbrev opsP_W : List (Ref sig .tc) :=
  [main_call0_v0, main_call0_v1, main_call0_v2, main_call0_v3, main_call0_cst, main_call0_v4, main_call0_call0_v0, main_call0_call0_cst, main_call0_call0_call0_v0, main_call0_call0_v1, main_call0_call0_cst_0, main_call0_v5, main_v311]
theorem opsP_writes : (opsP : List (HloOp τ sig (Elt F))).Forall fun op => op.writes ⊆ (opsP_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsP` does not write keeps its contents through it. -/
theorem opsP_keep (V : Valuation τ sig (Elt F)) {r : Ref sig .tc} (hr : r ∉ opsP_W) :
    after opsP V (Proc.devRef .tc r) = V (Proc.devRef .tc r) :=
  after_of_writes_sub opsP V opsP_writes hr

/-- The references the operations of `opsQ` write, in order. -/
abbrev opsQ_W : List (Ref sig .tc) :=
  [main_call1_v0, main_v312]
theorem opsQ_writes : (opsQ : List (HloOp τ sig (Elt F))).Forall fun op => op.writes ⊆ (opsQ_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- A reference `opsQ` does not write keeps its contents through it. -/
theorem opsQ_keep (V : Valuation τ sig (Elt F)) {r : Ref sig .tc} (hr : r ∉ opsQ_W) :
    after opsQ V (Proc.devRef .tc r) = V (Proc.devRef .tc r) :=
  after_of_writes_sub opsQ V opsQ_writes hr

/-! ## The whole line -/

/-- The references the line writes, in order: one per operation. -/
abbrev ops_W : List (Ref sig .tc) :=
  opsA_W ++ opsB_W ++ opsC_W ++ opsD_W ++ opsE_W ++ opsF_W ++ opsG_W ++ opsH_W ++ opsI_W ++ opsJ_W ++ opsK_W ++ opsL_W ++ opsM_W ++ opsN_W ++ opsO_W ++ opsP_W ++ opsQ_W

/-- The fold over the whole line is the folds over its pieces, in order. -/
theorem after_ops (V : Valuation τ sig (Elt F)) :
    after ops V = after opsQ (after opsP (after opsO (after opsN (after opsM (after opsL (after opsK (after opsJ (after opsI (after opsH (after opsG (after opsF (after opsE (after opsD (after opsC (after opsB (after opsA (V))))))))))))))))) := by
  simp only [ops, StableHlo.after_append]

/-- A reference no operation of the line writes keeps its contents. -/
theorem ops_keep (V : Valuation τ sig (Elt F)) {r : Ref sig .tc} (hr : r ∉ ops_W) :
    after ops V (Proc.devRef .tc r) = V (Proc.devRef .tc r) := by
  have hr' : r ∉ opsA_W ∧ r ∉ opsB_W ∧ r ∉ opsC_W ∧ r ∉ opsD_W ∧ r ∉ opsE_W ∧ r ∉ opsF_W ∧ r ∉ opsG_W ∧ r ∉ opsH_W ∧ r ∉ opsI_W ∧ r ∉ opsJ_W ∧ r ∉ opsK_W ∧ r ∉ opsL_W ∧ r ∉ opsM_W ∧ r ∉ opsN_W ∧ r ∉ opsO_W ∧ r ∉ opsP_W ∧ r ∉ opsQ_W := by
    simpa only [ops_W, List.mem_append, not_or, and_assoc] using hr
  obtain ⟨hA, hB, hC, hD, hE, hF, hG, hH, hI, hJ, hK, hL, hM, hN, hO, hP, hQ⟩ := hr'
  rw [after_ops, opsQ_keep _ hQ, opsP_keep _ hP, opsO_keep _ hO, opsN_keep _ hN, opsM_keep _ hM, opsL_keep _ hL, opsK_keep _ hK, opsJ_keep _ hJ, opsI_keep _ hI, opsH_keep _ hH, opsG_keep _ hG, opsF_keep _ hF, opsE_keep _ hE, opsD_keep _ hD, opsC_keep _ hC, opsB_keep _ hB, opsA_keep _ hA]

/-! ## The arguments end as launched -/

theorem kept_arg0 (V : Valuation τ sig (Elt F)) :
    after ops V (Proc.devRef .tc main_arg0) = V (Proc.devRef .tc main_arg0) := ops_keep V (by decide)

theorem kept_arg1 (V : Valuation τ sig (Elt F)) :
    after ops V (Proc.devRef .tc main_arg1) = V (Proc.devRef .tc main_arg1) := ops_keep V (by decide)

theorem kept_arg2 (V : Valuation τ sig (Elt F)) :
    after ops V (Proc.devRef .tc main_arg2) = V (Proc.devRef .tc main_arg2) := ops_keep V (by decide)

theorem kept_arg3 (V : Valuation τ sig (Elt F)) :
    after ops V (Proc.devRef .tc main_arg3) = V (Proc.devRef .tc main_arg3) := ops_keep V (by decide)

theorem kept_arg4 (V : Valuation τ sig (Elt F)) :
    after ops V (Proc.devRef .tc main_arg4) = V (Proc.devRef .tc main_arg4) := ops_keep V (by decide)

theorem kept_arg5 (V : Valuation τ sig (Elt F)) :
    after ops V (Proc.devRef .tc main_arg5) = V (Proc.devRef .tc main_arg5) := ops_keep V (by decide)

theorem kept_arg6 (V : Valuation τ sig (Elt F)) :
    after ops V (Proc.devRef .tc main_arg6) = V (Proc.devRef .tc main_arg6) := ops_keep V (by decide)

theorem kept_arg7 (V : Valuation τ sig (Elt F)) :
    after ops V (Proc.devRef .tc main_arg7) = V (Proc.devRef .tc main_arg7) := ops_keep V (by decide)

theorem kept_arg8 (V : Valuation τ sig (Elt F)) :
    after ops V (Proc.devRef .tc main_arg8) = V (Proc.devRef .tc main_arg8) := ops_keep V (by decide)

end Cert.ReferenceIdeal.Hand

namespace Cert.Proof.Hand

open Cert.ReferenceIdeal Cert.ReferenceIdeal.Hand Idealize.ShloMosaic Idealize.ShloMosaic.TcCoe Idealize.SL.Sem Idealize.ShloMosaic.StableHlo

/-- The reference runs, and its argument arrays end unchanged: the run theorem at the ideal instance, read at
    the nine arguments, none of which the line writes. -/
theorem frame_ri [hReferenceIdeal : Cert.ReferenceIdeal.Facts] [hPre_finite_inputs : Cert.Pre_finite_inputs.Facts] :
    Cert.frame_ReferenceIdeal := by
  intro m g _
  exact (θ_run _ _ _).mono (fun _ h c =>
    ⟨(h c main_arg0).trans (kept_arg0 _), (h c main_arg1).trans (kept_arg1 _), (h c main_arg2).trans (kept_arg2 _),
     (h c main_arg3).trans (kept_arg3 _), (h c main_arg4).trans (kept_arg4 _), (h c main_arg5).trans (kept_arg5 _),
     (h c main_arg6).trans (kept_arg6 _), (h c main_arg7).trans (kept_arg7 _), (h c main_arg8).trans (kept_arg8 _)⟩)
    (run_all (F := Ideal) m g)

end Cert.Proof.Hand

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.IdealPayload.lean ====
/-
  The two kernel bodies' stored values read at one entry, over the extended reals.

  A change of float format and a shape cast to the same shape are the identity there, and a matrix product into a
  zero accumulator is the plain sum over the contracted axis, so

    * the gate body stores, at row p and column q of its block,
        logistic (sum over k of x (p, k) * w (k, q)  +  b (0, q)),
    * the update body stores
        z (p, q) * h (p, q) + (1 - z (p, q)) * tanh (sum over k of x (p, k) * w (k, q)  +  b (0, q)),

  where x is the block of rows, w the whole stacked weight matrix, b the bias row, z the gate block and h the state
  block. The same two expressions, read over whole arrays, are the functions G0 and G1.
-/
import proofs.«157260_j76725295776119_1_alg».proof.Proof.Gen.KernelIdeal.Skeleton
import proofs.«157260_j76725295776119_1_alg».proof.Proof.LibMatProd
import proofs.«157260_j76725295776119_1_alg».proof.Proof.LibBroadcastTo
import Idealize.ShloMosaic.PureOps.Ideal.Laws
import Idealize.ShloMosaic.Lib.Pipeline.Value
import Idealize.ShloMosaic.Lib.ValueIdx

noncomputable section

open scoped BigOperators

namespace Cert.KernelIdeal.HandValue

open Cert.KernelIdeal Cert.KernelIdeal.Gen
open Idealize.ShloMosaic Idealize.ShloMosaic.ValueIdx

/-! # The specifications, over whole arrays -/

/-- The gate: logistic of (rows times stacked weights, plus the bias row). -/
def G0 (x : FVec Ideal S50000x640 .f32) (w : FVec Ideal S640x128 .f32) (b : FVec Ideal S1x128 .f32) :
    FVec Ideal S50000x128 .f32 :=
  fun i => Ideal.logistic ((∑ k : Fin 640, x (ix2 (i 0) k) * w (ix2 k (i 1))) + b (ix2 0 (i 1)))

theorem G0_apply (x : FVec Ideal S50000x640 .f32) (w : FVec Ideal S640x128 .f32) (b : FVec Ideal S1x128 .f32)
    (n : Fin 50000) (j : Fin 128) :
    G0 x w b (ix2 n j) = Ideal.logistic ((∑ k : Fin 640, x (ix2 n k) * w (ix2 k j)) + b (ix2 0 j)) := rfl

/-- The update: z * h + (1 - z) * tanh (rows times stacked weights, plus the bias row). -/
def G1 (x : FVec Ideal S50000x640 .f32) (w : FVec Ideal S640x64 .f32) (b : FVec Ideal S1x64 .f32)
    (z h : FVec Ideal S50000x64 .f32) : FVec Ideal S50000x64 .f32 :=
  fun i => z i * h i + (Ideal.ofBits .f32 0x3F800000#32 - z i)
    * Ideal.tanh ((∑ k : Fin 640, x (ix2 (i 0) k) * w (ix2 k (i 1))) + b (ix2 0 (i 1)))

theorem G1_apply (x : FVec Ideal S50000x640 .f32) (w : FVec Ideal S640x64 .f32) (b : FVec Ideal S1x64 .f32)
    (z h : FVec Ideal S50000x64 .f32) (n : Fin 50000) (j : Fin 64) :
    G1 x w b z h (ix2 n j) = z (ix2 n j) * h (ix2 n j) + (Ideal.ofBits .f32 0x3F800000#32 - z (ix2 n j))
      * Ideal.tanh ((∑ k : Fin 640, x (ix2 n k) * w (ix2 k j)) + b (ix2 0 j)) := rfl

/-! # The bodies' stored values at an entry -/

/-- A matrix product into a zero accumulator plus a bias row broadcast down the rows, at an entry. -/
theorem affine_apply {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = (∑ k : Fin K, a (ix2 p k) * w (ix2 k q)) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [Cert.MatProd.matmul_plain_zero_apply, Cert.BroadcastTo.row_apply]

theorem dot0_eq : dot_S2000x640_S640x128_S2000x128_1_0_0_1_n_n = DotDims.plain 2000 640 128 := rfl
theorem dot1_eq : dot_S2000x640_S640x64_S2000x64_1_0_0_1_n_n = DotDims.plain 2000 640 64 := rfl

/-- The gate body's stored value at row p, column q of the block. -/
theorem pay0_apply (x : FVec Ideal S2000x640 .f32) (w : FVec Ideal S640x128 .f32) (b : FVec Ideal S1x128 .f32)
    (p : Fin 2000) (q : Fin 128) :
    k0_pay1 (F := Ideal) x w b (ix2 p q)
      = Ideal.logistic ((∑ k : Fin 640, x (ix2 p k) * w (ix2 k q)) + b (ix2 0 q)) := by
  unfold k0_pay1
  rw [shapeCast_self, shapeCast_self, shapeCast_self]
  show Ideal.logistic (addf (matmul dot_S2000x640_S640x128_S2000x128_1_0_0_1_n_n none x w
      (constant S2000x128 .f32 0x00000000#32)) (broadcastTo S2000x128 b broadcasts_S1x128_S2000x128) (ix2 p q)) = _
  rw [affine_apply _ dot0_eq]

/-- The update body's stored value at row p, column q of the block. -/
theorem pay1_apply (x : FVec Ideal S2000x640 .f32) (w : FVec Ideal S640x64 .f32) (b : FVec Ideal S1x64 .f32)
    (z h : FVec Ideal S2000x64 .f32) (p : Fin 2000) (q : Fin 64) :
    k1_pay1 (F := Ideal) x w b z h (ix2 p q)
      = z (ix2 p q) * h (ix2 p q) + (Ideal.ofBits .f32 0x3F800000#32 - z (ix2 p q))
        * Ideal.tanh ((∑ k : Fin 640, x (ix2 p k) * w (ix2 k q)) + b (ix2 0 q)) := by
  unfold k1_pay1
  rw [shapeCast_self, shapeCast_self, shapeCast_self, shapeCast_self]
  show z (ix2 p q) * h (ix2 p q) + (Ideal.ofBits .f32 0x3F800000#32 - z (ix2 p q))
      * Ideal.tanh (addf (matmul dot_S2000x640_S640x64_S2000x64_1_0_0_1_n_n none x w
        (constant S2000x64 .f32 0x00000000#32)) (broadcastTo S2000x64 b broadcasts_S1x64_S2000x64) (ix2 p q)) = _
  rw [affine_apply _ dot1_eq]

end Cert.KernelIdeal.HandValue

end
-- ==== Proof.IdealRegionValue0.lean ====
/-
  The gate region's output array after the run, as ONE function of the arrays the region is entered with: every grid
  point t writes back rows [2000 t, 2000 t + 2000) of
      logistic (rows times stacked weights, plus the bias row),
  and the 25 points' row blocks cover the 50000 rows.
-/
import proofs.«157260_j76725295776119_1_alg».proof.Proof.IdealRegions
import proofs.«157260_j76725295776119_1_alg».proof.Proof.IdealPayload
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-! # The gate region -/

/-- The printed index maps over the grid: the row-blocked windows sit at block row t, the resident ones at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

example : Pipeline.arrRef spec0 0 = main_v99 := rfl
example : Pipeline.arrRef spec0 1 = main_v128 := rfl
example : Pipeline.arrRef spec0 2 = main_v130 := rfl
example : Pipeline.arrRef spec0 3 = main_v131 := rfl

/-- Row p of the block of rows at point t is row 2000 t + p of the array. -/
theorem iblk0_0_apply (c : Dev nD) (t : Fin cfg0.N) (p : Fin 2000) (k : Fin 640) (n : Fin 50000)
    (hn : n.val = 2000 * t.val + p.val) :
    (iblk0 V c 0 t : FVec Ideal S2000x640 .f32) (ix2 p k) = (V c main_v99 : FVec Ideal S50000x640 .f32) (ix2 n k) := by
  obtain ⟨e0, e1, -⟩ := idx_facts0 t
  unfold iblk0
  rw [View.read_apply]
  show V c main_v99 _ = V c main_v99 _
  congr 1
  funext a
  apply Fin.ext
  match a with
  | ⟨0, _⟩ => show win0_0.index t (0 : Fin 2) * 2000 + 1 * p.val = n.val; rw [e0, hn]; omega
  | ⟨1, _⟩ => show win0_0.index t (1 : Fin 2) * 640 + 1 * k.val = k.val; rw [e1]; omega

/-- The stacked weights' window is the whole array at every point. -/
theorem iblk0_1_apply (c : Dev nD) (t : Fin cfg0.N) (k : Fin 640) (q : Fin 128) :
    (iblk0 V c 1 t : FVec Ideal S640x128 .f32) (ix2 k q) = (V c main_v128 : FVec Ideal S640x128 .f32) (ix2 k q) := by
  obtain ⟨-, -, e0, e1, -⟩ := idx_facts0 t
  unfold iblk0
  rw [View.read_apply]
  show V c main_v128 _ = V c main_v128 _
  congr 1
  funext a
  apply Fin.ext
  match a with
  | ⟨0, _⟩ => show win0_1.index t (0 : Fin 2) * 640 + 1 * k.val = k.val; rw [e0]; omega
  | ⟨1, _⟩ => show win0_1.index t (1 : Fin 2) * 128 + 1 * q.val = q.val; rw [e1]; omega

/-- The bias row's window is the whole row at every point. -/
theorem iblk0_2_apply (c : Dev nD) (t : Fin cfg0.N) (q : Fin 128) :
    (iblk0 V c 2 t : FVec Ideal S1x128 .f32) (ix2 0 q) = (V c main_v130 : FVec Ideal S1x128 .f32) (ix2 0 q) := by
  obtain ⟨-, -, -, -, e0, e1, -⟩ := idx_facts0 t
  unfold iblk0
  rw [View.read_apply]
  show V c main_v130 _ = V c main_v130 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- The gate body's stored value at an entry of a block whose rows are rows of the array. -/
theorem gate_entry (X : FVec Ideal S50000x640 .f32) (W : FVec Ideal S640x128 .f32) (B : FVec Ideal S1x128 .f32)
    (x : FVec Ideal S2000x640 .f32) (w : FVec Ideal S640x128 .f32) (b : FVec Ideal S1x128 .f32)
    (p : Fin 2000) (q : Fin 128) (n : Fin 50000)
    (hx : ∀ k : Fin 640, x (ix2 p k) = X (ix2 n k)) (hw : ∀ k : Fin 640, w (ix2 k q) = W (ix2 k q))
    (hb : b (ix2 0 q) = B (ix2 0 q)) :
    k0_pay1 (F := Ideal) x w b (ix2 p q) = G0 X W B (ix2 n q) := by
  rw [pay0_apply, G0_apply, hb]
  exact congrArg (fun s => Ideal.logistic (s + B (ix2 0 q))) (Finset.sum_congr rfl fun k _ => by rw [hx k, hw k])

/-- WHAT POINT t WRITES BACK is its block of rows of G0 of the arrays the region is entered with. -/
theorem flushed_eq0 (c : Dev nD) (t : Fin cfg0.N) :
    (dat0 (F := Ideal) V c).flushed 3 t
      = ((cfg0.win 3).blk t).view.read (Elt Ideal) (G0 (V c main_v99) (V c main_v128) (V c main_v130)) := by
  show (cfg0.win 3).cut (grid0.coords t) ((dat0 V c).after 3 t) = _
  rw [after0_3]
  unfold out0_3
  rw [View.canon_unit_zero hz]
  simp only [View.ld_unit_zero (S := S2000x640) hz, View.ld_unit_zero (S := S640x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, e0, e1⟩ := idx_facts0 t
  have hN : cfg0.N = 25 := N_0
  have ht : t.val < 25 := hN ▸ t.isLt
  have hn : 2000 * t.val + p.val < 50000 := by have := p.isLt; omega
  have he : ((cfg0.win 3).blk t).view.emb (ix2 p q) = (ix2 (⟨2000 * t.val + p.val, hn⟩ : Fin 50000) q : S50000x128.Idx) := by
    funext a
    apply Fin.ext
    match a with
    | ⟨0, _⟩ => show win0_3.index t (0 : Fin 2) * 2000 + 1 * p.val = 2000 * t.val + p.val; rw [e0]; omega
    | ⟨1, _⟩ => show win0_3.index t (1 : Fin 2) * 128 + 1 * q.val = q.val; rw [e1]; omega
  rw [View.read_apply, he]
  exact gate_entry (V c main_v99) (V c main_v128) (V c main_v130) (iblk0 V c 0 t) (iblk0 V c 1 t) (iblk0 V c 2 t) p q
    ⟨2000 * t.val + p.val, hn⟩ (fun k => iblk0_0_apply V c t p k _ rfl) (fun k => iblk0_1_apply V c t k q) (iblk0_2_apply V c t q)

/-- An index of the array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v131).slice (win0_3.rect t)).set ↔ _
  rw [View.set_slice_whole, Rect.mem_set_unit]
  exact Iff.rfl

/-- Row r is in the block of point r / 2000. -/
theorem cover0 (i : S50000x128.Idx) : ∃ t : Fin cfg0.N, (cfg0.win 3).flush t = true ∧ i ∈ ((cfg0.win 3).blk t).view.set := by
  have hN : cfg0.N = 25 := N_0
  have hi0 : (i 0).val < 50000 := idx2_lt0 i
  have hi1 : (i 1).val < 128 := idx2_lt1 i
  have ht : (i 0).val / 2000 < cfg0.N := by rw [hN]; omega
  refine ⟨⟨(i 0).val / 2000, ht⟩, flush0_3 _, ?_⟩
  obtain ⟨-, -, -, -, -, -, e0, e1⟩ := idx_facts0 ⟨(i 0).val / 2000, ht⟩
  rw [mem_blk0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e1]; omega

/-- THE GATE ARRAY after the region: G0 of the arrays the region is entered with. -/
theorem arr0 (c : Dev nD) :
    (dat0 (F := Ideal) V c).arrAt 3 cfg0.N = G0 (V c main_v99) (V c main_v128) (V c main_v130) :=
  (dat0 (F := Ideal) V c).arrAt_eq_of_cover 3 (G0 (V c main_v99) (V c main_v128) (V c main_v130))
    (fun t _ => flushed_eq0 V c t) cover0

end Cert.KernelIdeal.HandValue

end
-- ==== Proof.IdealRegionValue1.lean ====
/-
  The update region's output array after the run, as ONE function of the arrays the region is entered with: every grid
  point t writes back rows [2000 t, 2000 t + 2000) of
      z * h + (1 - z) * tanh (rows times stacked weights, plus the bias row),
  and the 25 points' row blocks cover the 50000 rows.
-/
import proofs.«157260_j76725295776119_1_alg».proof.Proof.IdealRegions
import proofs.«157260_j76725295776119_1_alg».proof.Proof.IdealPayload
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-! # The update region -/

/-- The printed index maps over the grid: the row-blocked windows sit at block row t, the resident ones at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

example : Pipeline.arrRef spec1 0 = main_v194 := rfl
example : Pipeline.arrRef spec1 1 = main_v208 := rfl
example : Pipeline.arrRef spec1 2 = main_v209 := rfl
example : Pipeline.arrRef spec1 3 = main_v132 := rfl
example : Pipeline.arrRef spec1 4 = main_arg2 := rfl
example : Pipeline.arrRef spec1 5 = main_v210 := rfl

/-- Row p of the block of rows at point t is row 2000 t + p of the array. -/
theorem iblk1_0_apply (c : Dev nD) (t : Fin cfg1.N) (p : Fin 2000) (k : Fin 640) (n : Fin 50000)
    (hn : n.val = 2000 * t.val + p.val) :
    (iblk1 V c 0 t : FVec Ideal S2000x640 .f32) (ix2 p k) = (V c main_v194 : FVec Ideal S50000x640 .f32) (ix2 n k) := by
  obtain ⟨e0, e1, -⟩ := idx_facts1 t
  unfold iblk1
  rw [View.read_apply]
  show V c main_v194 _ = V c main_v194 _
  congr 1
  funext a
  apply Fin.ext
  match a with
  | ⟨0, _⟩ => show win1_0.index t (0 : Fin 2) * 2000 + 1 * p.val = n.val; rw [e0, hn]; omega
  | ⟨1, _⟩ => show win1_0.index t (1 : Fin 2) * 640 + 1 * k.val = k.val; rw [e1]; omega

/-- The stacked weights' window is the whole array at every point. -/
theorem iblk1_1_apply (c : Dev nD) (t : Fin cfg1.N) (k : Fin 640) (q : Fin 64) :
    (iblk1 V c 1 t : FVec Ideal S640x64 .f32) (ix2 k q) = (V c main_v208 : FVec Ideal S640x64 .f32) (ix2 k q) := by
  obtain ⟨-, -, e0, e1, -⟩ := idx_facts1 t
  unfold iblk1
  rw [View.read_apply]
  show V c main_v208 _ = V c main_v208 _
  congr 1
  funext a
  apply Fin.ext
  match a with
  | ⟨0, _⟩ => show win1_1.index t (0 : Fin 2) * 640 + 1 * k.val = k.val; rw [e0]; omega
  | ⟨1, _⟩ => show win1_1.index t (1 : Fin 2) * 64 + 1 * q.val = q.val; rw [e1]; omega

/-- The bias row's window is the whole row at every point. -/
theorem iblk1_2_apply (c : Dev nD) (t : Fin cfg1.N) (q : Fin 64) :
    (iblk1 V c 2 t : FVec Ideal S1x64 .f32) (ix2 0 q) = (V c main_v209 : FVec Ideal S1x64 .f32) (ix2 0 q) := by
  obtain ⟨-, -, -, -, e0, e1, -⟩ := idx_facts1 t
  unfold iblk1
  rw [View.read_apply]
  show V c main_v209 _ = V c main_v209 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

/-- Row p of the gate block at point t is row 2000 t + p of the gate array. -/
theorem iblk1_3_apply (c : Dev nD) (t : Fin cfg1.N) (p : Fin 2000) (q : Fin 64) (n : Fin 50000)
    (hn : n.val = 2000 * t.val + p.val) :
    (iblk1 V c 3 t : FVec Ideal S2000x64 .f32) (ix2 p q) = (V c main_v132 : FVec Ideal S50000x64 .f32) (ix2 n q) := by
  obtain ⟨-, -, -, -, -, -, e0, e1, -⟩ := idx_facts1 t
  unfold iblk1
  rw [View.read_apply]
  show V c main_v132 _ = V c main_v132 _
  congr 1
  funext a
  apply Fin.ext
  match a with
  | ⟨0, _⟩ => show win1_3.index t (0 : Fin 2) * 2000 + 1 * p.val = n.val; rw [e0, hn]; omega
  | ⟨1, _⟩ => show win1_3.index t (1 : Fin 2) * 64 + 1 * q.val = q.val; rw [e1]; omega

/-- Row p of the state block at point t is row 2000 t + p of the state array. -/
theorem iblk1_4_apply (c : Dev nD) (t : Fin cfg1.N) (p : Fin 2000) (q : Fin 64) (n : Fin 50000)
    (hn : n.val = 2000 * t.val + p.val) :
    (iblk1 V c 4 t : FVec Ideal S2000x64 .f32) (ix2 p q) = (V c main_arg2 : FVec Ideal S50000x64 .f32) (ix2 n q) := by
  obtain ⟨-, -, -, -, -, -, -, -, e0, e1, -⟩ := idx_facts1 t
  unfold iblk1
  rw [View.read_apply]
  show V c main_arg2 _ = V c main_arg2 _
  congr 1
  funext a
  apply Fin.ext
  match a with
  | ⟨0, _⟩ => show win1_4.index t (0 : Fin 2) * 2000 + 1 * p.val = n.val; rw [e0, hn]; omega
  | ⟨1, _⟩ => show win1_4.index t (1 : Fin 2) * 64 + 1 * q.val = q.val; rw [e1]; omega

/-- The update body's stored value at an entry of a block whose rows are rows of the arrays. -/
theorem update_entry (X : FVec Ideal S50000x640 .f32) (W : FVec Ideal S640x64 .f32) (B : FVec Ideal S1x64 .f32)
    (Z H : FVec Ideal S50000x64 .f32)
    (x : FVec Ideal S2000x640 .f32) (w : FVec Ideal S640x64 .f32) (b : FVec Ideal S1x64 .f32) (z h : FVec Ideal S2000x64 .f32)
    (p : Fin 2000) (q : Fin 64) (n : Fin 50000)
    (hx : ∀ k : Fin 640, x (ix2 p k) = X (ix2 n k)) (hw : ∀ k : Fin 640, w (ix2 k q) = W (ix2 k q))
    (hb : b (ix2 0 q) = B (ix2 0 q)) (hz : z (ix2 p q) = Z (ix2 n q)) (hh : h (ix2 p q) = H (ix2 n q)) :
    k1_pay1 (F := Ideal) x w b z h (ix2 p q) = G1 X W B Z H (ix2 n q) := by
  rw [pay1_apply, G1_apply, hb, hz, hh]
  exact congrArg (fun s => Z (ix2 n q) * H (ix2 n q) + (Ideal.ofBits .f32 0x3F800000#32 - Z (ix2 n q)) * Ideal.tanh (s + B (ix2 0 q)))
    (Finset.sum_congr rfl fun k _ => by rw [hx k, hw k])

/-- WHAT POINT t WRITES BACK is its block of rows of G1 of the arrays the region is entered with. -/
theorem flushed_eq1 (c : Dev nD) (t : Fin cfg1.N) :
    (dat1 (F := Ideal) V c).flushed 5 t
      = ((cfg1.win 5).blk t).view.read (Elt Ideal)
          (G1 (V c main_v194) (V c main_v208) (V c main_v209) (V c main_v132) (V c main_arg2)) := by
  show (cfg1.win 5).cut (grid1.coords t) ((dat1 V c).after 5 t) = _
  rw [after1_5]
  unfold out1_5
  rw [View.canon_unit_zero hz]
  simp only [View.ld_unit_zero (S := S2000x640) hz, View.ld_unit_zero (S := S640x64) hz, View.ld_unit_zero (S := S1x64) hz,
    View.ld_unit_zero (S := S2000x64) hz]
  funext j
  obtain ⟨p, q, rfl⟩ : ∃ (p : Fin 2000) (q : Fin 64), j = ix2 p q := ⟨j 0, j 1, eq_ix2 j⟩
  obtain ⟨-, -, -, -, -, -, -, -, -, -, e0, e1⟩ := idx_facts1 t
  have hN : cfg1.N = 25 := N_1
  have ht : t.val < 25 := hN ▸ t.isLt
  have hn : 2000 * t.val + p.val < 50000 := by have := p.isLt; omega
  have he : ((cfg1.win 5).blk t).view.emb (ix2 p q) = (ix2 (⟨2000 * t.val + p.val, hn⟩ : Fin 50000) q : S50000x64.Idx) := by
    funext a
    apply Fin.ext
    match a with
    | ⟨0, _⟩ => show win1_5.index t (0 : Fin 2) * 2000 + 1 * p.val = 2000 * t.val + p.val; rw [e0]; omega
    | ⟨1, _⟩ => show win1_5.index t (1 : Fin 2) * 64 + 1 * q.val = q.val; rw [e1]; omega
  rw [View.read_apply, he]
  exact update_entry (V c main_v194) (V c main_v208) (V c main_v209) (V c main_v132) (V c main_arg2)
    (iblk1 V c 0 t) (iblk1 V c 1 t) (iblk1 V c 2 t) (iblk1 V c 3 t) (iblk1 V c 4 t) p q
    ⟨2000 * t.val + p.val, hn⟩ (fun k => iblk1_0_apply V c t p k _ rfl) (fun k => iblk1_1_apply V c t k q) (iblk1_2_apply V c t q)
    (iblk1_3_apply V c t p q _ rfl) (iblk1_4_apply V c t p q _ rfl)

/-- An index of the array is in point t's block iff each coordinate is in the block's range on its axis. -/
theorem mem_blk1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v210).slice (win1_5.rect t)).set ↔ _
  rw [View.set_slice_whole, Rect.mem_set_unit]
  exact Iff.rfl

/-- Row r is in the block of point r / 2000. -/
theorem cover1 (i : S50000x64.Idx) : ∃ t : Fin cfg1.N, (cfg1.win 5).flush t = true ∧ i ∈ ((cfg1.win 5).blk t).view.set := by
  have hN : cfg1.N = 25 := N_1
  have hi0 : (i 0).val < 50000 := idx2_lt0 i
  have hi1 : (i 1).val < 64 := idx2_lt1 i
  have ht : (i 0).val / 2000 < cfg1.N := by rw [hN]; omega
  refine ⟨⟨(i 0).val / 2000, ht⟩, flush1_5 _, ?_⟩
  obtain ⟨-, -, -, -, -, -, -, -, -, -, e0, e1⟩ := idx_facts1 ⟨(i 0).val / 2000, ht⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 64 ≤ (i 1).val ∧ (i 1).val < win1_5.index ⟨(i 0).val / 2000, ht⟩ (1 : Fin 2) * 64 + 64
    rw [e1]; omega

/-- THE NEW STATE ARRAY after the region: G1 of the arrays the region is entered with. -/
theorem arr1 (c : Dev nD) :
    (dat1 (F := Ideal) V c).arrAt 5 cfg1.N
      = G1 (V c main_v194) (V c main_v208) (V c main_v209) (V c main_v132) (V c main_arg2) :=
  (dat1 (F := Ideal) V c).arrAt_eq_of_cover 5 (G1 (V c main_v194) (V c main_v208) (V c main_v209) (V c main_v132) (V c main_arg2))
    (fun t _ => flushed_eq1 V c t) cover1

end Cert.KernelIdeal.HandValue

end
-- ==== Proof.IdealRegionValue.lean ====
/-
  The two pipelined regions' output arrays after the run: the gate array is G0, the new state array is G1, each of
  the arrays its region is entered with (the two modules imported here prove one each).
-/
import proofs.«157260_j76725295776119_1_alg».proof.Proof.IdealRegionValue0
import proofs.«157260_j76725295776119_1_alg».proof.Proof.IdealRegionValue1
-- ==== Proof.Spec.lean ====
/-
  The host-side mathematics of the diffusion-convolution GRU cell, as functions of arrays. With row and col the two
  rows of the edge list: a node's inverse degree 1 / (number of edges listing it), read back per edge at the edge's
  row end (the edge norm); one propagation step prop x norm = for each node the sum, over the edges whose col end is
  that node, of norm(edge) * x[row(edge)] (negative row indices wrapped by the node count before the gather, as array
  indexing does); the second Chebyshev term 2 * prop (prop x) - x; the five terms side by side; and the five weight
  blocks W[0,0] + W[1,0], W[0,1], W[1,1], W[0,2], W[1,2] stacked.
-/
import proofs.«157260_j76725295776119_1_alg».proof.Proof.Gen.KernelIdeal

noncomputable section

namespace Cert.KernelIdeal.Spec

open Cert.KernelIdeal Cert.KernelIdeal.Facts₀ Cert.KernelIdeal.Facts Idealize.ShloMosaic

variable {F : FTy → Type} [FloatOps F]

/-- The contents of a buffer of shape S and element type e. -/
abbrev Cn (F : FTy → Type) [FloatOps F] (S : Shape) (e : EltTy) : Type := (⟨S, e⟩ : BufTy).Contents (Elt F)

/-- Row 0 of the edge list: each edge's source node. -/
def rowOf (ei : Cn F S2x500000 .i32) : Cn F S500000 .i32 :=
  fun i => shapeCast S500000 (extractStridedSlice S1x500000 ![0, 0] ei slices_S2x500000_S1x500000_0_0) shapeCasts_S1x500000_S500000 i
/-- Row 1 of the edge list: each edge's target node. -/
def colOf (ei : Cn F S2x500000 .i32) : Cn F S500000 .i32 :=
  fun i => shapeCast S500000 (extractStridedSlice S1x500000 ![1, 0] ei slices_S2x500000_S1x500000_1_0) shapeCasts_S1x500000_S500000 i

/-- An index vector with its negative entries moved up by the node count, as a column of start indices. -/
def wrap (r : Cn F S500000 .i32) : Cn F S500000x1 .i32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)

/-- One over the number of edges whose end `idx` is the node. -/
def invDeg (idx : Cn F S500000 .i32) : Cn F S50000 .f32 :=
  Host.divf (broadcastInDim S50000 ![] bcast_S_S50000 (constant S_ .f32 0x3F800000#32))
    (Host.scatterAdd scatter_S50000_S500000x1_S500000_n_0_0_1
      (broadcastInDim S50000 ![] bcast_S_S50000 (constant S_ .f32 0x00000000#32)) (wrap idx)
      (broadcastInDim S500000 ![] bcast_S_S500000 (constant S_ .f32 0x3F800000#32)))

/-- The edge norm: the inverse degree (counted over `idx`) read at each edge's row end. -/
def normOf (idx row : Cn F S500000 .i32) : Cn F S500000 .f32 :=
  Host.gather gather_S50000_S500000x1_S500000_n_0_n_n_0_1_1 (invDeg idx) (wrap row)

/-- One propagation step: gather the rows at the edges' row ends, scale by the edge norm, add into the col ends. -/
def prop (x : Cn F S50000x128 .f32) (nrm : Cn F S500000 .f32) (row col : Cn F S500000 .i32) : Cn F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 col)
    (mulf (broadcastInDim S500000x128 ![0, 1] bcast_S500000x1_S500000x128_0_1 (broadcastInDim S500000x1 ![0] bcast_S500000_S500000x1_0 nrm))
      (Host.gather gather_S50000x128_S500000x1_S500000x128_1_0_n_n_0_1_1128 x (wrap row)))

/-- The second Chebyshev term from a twice-propagated array p and the start array x: 2 p - x. -/
def cheb2 (p x : Cn F S50000x128 .f32) : Cn F S50000x128 .f32 :=
  subf (mulf (broadcastInDim S50000x128 ![] bcast_S_S50000x128 (constant S_ .f32 0x40000000#32)) p) x

/-- Two [50000,64] arrays side by side. -/
def cat2 (a b : Cn F S50000x64 .f32) : Cn F S50000x128 .f32 :=
  concatenate S50000x128 1 [⟨S50000x64, a⟩, ⟨S50000x64, b⟩] concatenates_S50000x64_S50000x64_S50000x128_d1

/-- Five [50000,128] arrays side by side. -/
def cat5 (t0 t1 t2 t3 t4 : Cn F S50000x128 .f32) : Cn F S50000x640 .f32 :=
  concatenate S50000x640 1 [⟨S50000x128, t0⟩, ⟨S50000x128, t1⟩, ⟨S50000x128, t2⟩, ⟨S50000x128, t3⟩, ⟨S50000x128, t4⟩]
    concatenates_S50000x128_S50000x128_S50000x128_S50000x128_S50000x128_S50000x640_d1

/-- The five diffusion terms of a start array x side by side: x, prop x (out-norm), prop x (in-norm), and the two second
    Chebyshev terms. -/
def txcat (x : Cn F S50000x128 .f32) (nO nI : Cn F S500000 .f32) (row col : Cn F S500000 .i32) : Cn F S50000x640 .f32 :=
  cat5 x (prop x nO row col) (prop x nI row col) (cheb2 (prop (prop x nO row col) nO row col) x) (cheb2 (prop (prop x nI row col) nI row col) x)

/-- The weight blocks W[a, k] as [128,64] matrices. -/
def w00 (W : Cn F S2x3x128x64 .f32) : Cn F S128x64 .f32 :=
  fun i => shapeCast S128x64 (extractStridedSlice S1x1x128x64 ![0, 0, 0, 0] W slices_S2x3x128x64_S1x1x128x64_0_0_0_0) shapeCasts_S1x1x128x64_S128x64 i
def w10 (W : Cn F S2x3x128x64 .f32) : Cn F S128x64 .f32 :=
  fun i => shapeCast S128x64 (extractStridedSlice S1x1x128x64 ![1, 0, 0, 0] W slices_S2x3x128x64_S1x1x128x64_1_0_0_0) shapeCasts_S1x1x128x64_S128x64 i
def w01 (W : Cn F S2x3x128x64 .f32) : Cn F S128x64 .f32 :=
  fun i => shapeCast S128x64 (extractStridedSlice S1x1x128x64 ![0, 1, 0, 0] W slices_S2x3x128x64_S1x1x128x64_0_1_0_0) shapeCasts_S1x1x128x64_S128x64 i
def w11 (W : Cn F S2x3x128x64 .f32) : Cn F S128x64 .f32 :=
  fun i => shapeCast S128x64 (extractStridedSlice S1x1x128x64 ![1, 1, 0, 0] W slices_S2x3x128x64_S1x1x128x64_1_1_0_0) shapeCasts_S1x1x128x64_S128x64 i
def w02 (W : Cn F S2x3x128x64 .f32) : Cn F S128x64 .f32 :=
  fun i => shapeCast S128x64 (extractStridedSlice S1x1x128x64 ![0, 2, 0, 0] W slices_S2x3x128x64_S1x1x128x64_0_2_0_0) shapeCasts_S1x1x128x64_S128x64 i
def w12 (W : Cn F S2x3x128x64 .f32) : Cn F S128x64 .f32 :=
  fun i => shapeCast S128x64 (extractStridedSlice S1x1x128x64 ![1, 2, 0, 0] W slices_S2x3x128x64_S1x1x128x64_1_2_0_0) shapeCasts_S1x1x128x64_S128x64 i
/-- W[0,0] + W[1,0]. -/
def wsum (W : Cn F S2x3x128x64 .f32) : Cn F S128x64 .f32 := addf (w00 W) (w10 W)

/-- Five [128,64] blocks stacked. -/
def stack5 (a0 a1 a2 a3 a4 : Cn F S128x64 .f32) : Cn F S640x64 .f32 :=
  concatenate S640x64 0 [⟨S128x64, a0⟩, ⟨S128x64, a1⟩, ⟨S128x64, a2⟩, ⟨S128x64, a3⟩, ⟨S128x64, a4⟩]
    concatenates_S128x64_S128x64_S128x64_S128x64_S128x64_S640x64_d0
/-- The stacked weights of one convolution. -/
def wcat (W : Cn F S2x3x128x64 .f32) : Cn F S640x64 .f32 := stack5 (wsum W) (w01 W) (w11 W) (w02 W) (w12 W)

/-- The left and right halves (columns 0..63 and 64..127) of a [50000,128] array. -/
def halfLo (y : Cn F S50000x128 .f32) : Cn F S50000x64 .f32 := extractStridedSlice S50000x64 ![0, 0] y slices_S50000x128_S50000x64_0_0
def halfHi (y : Cn F S50000x128 .f32) : Cn F S50000x64 .f32 := extractStridedSlice S50000x64 ![0, 64] y slices_S50000x128_S50000x64_0_64

/-- Two stacked weight matrices side by side. -/
def wpair (a b : Cn F S640x64 .f32) : Cn F S640x128 .f32 :=
  concatenate S640x128 1 [⟨S640x64, a⟩, ⟨S640x64, b⟩] concatenates_S640x64_S640x64_S640x128_d1

/-- Two bias vectors joined, as one row. -/
def brow128 (bz br : Cn F S64 .f32) : Cn F S1x128 .f32 :=
  fun i => shapeCast S1x128 (concatenate S128 0 [⟨S64, bz⟩, ⟨S64, br⟩] concatenates_S64_S64_S128_d0) shapeCasts_S128_S1x128 i
/-- A bias vector as one row. -/
def brow64 (b : Cn F S64 .f32) : Cn F S1x64 .f32 := fun i => shapeCast S1x64 b shapeCasts_S64_S1x64 i

end Cert.KernelIdeal.Spec

end
-- ==== Proof.LibNary5.lean ====
/-
  A host operation with a LITERAL family of five operand references (a concatenation of five pieces): its result
  with each operand's contents at its own reference, so that reading a line of host operations goes on through the
  five operands. With the general statement the operands stay under a binder, where their references are no literals
  and nothing more can be read. Also the one-pass reading of a line of host operations with this statement in the
  general one's place. General in the topology, the signature and the element values.
-/
import Idealize.ShloMosaic.Lib.StableHlo.Run

noncomputable section

namespace Cert.Nary5

open Idealize.ShloMosaic Idealize.ShloMosaic.StableHlo Idealize.ShloMosaic.TcCoe

variable {τ : Topo} {sig : RefSig} {Val : EltTy → Type}
variable {x0 x1 x2 x3 x4 y : Ref sig .tc}

/-- The result of an operation over five literal references: its function at the five operands' contents, each at
    its own reference. -/
theorem nary5_result
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [nary_result]; congr 1; funext k; fin_cases k <;> rfl

/-- The same, the result reference un-indexed for `simp`. -/
theorem nary5_result'
    (f : ((k : Fin 5) → ((![x0, x1, x2, x3, x4] : Fin 5 → Ref sig .tc) k).ty.Contents Val) → y.ty.Contents Val) (hxs hy)
    (F : Valuation τ sig Val) :
    (nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) :=
  nary5_result f hxs hy F

/-- What one buffer holds after a literal line of host operations, as ONE simp pass: each operation's result at its
    own result buffer is its function's value, at any other reference what was there; a five-operand operation by
    `nary5_result'`. -/
macro "after_results_simp5" : tactic =>
  `(tactic| (simp (disch := decide) only [after_cons, after_nil,
      nullary_result', unary_result', binary_result', ternary_result', quaternary_result', reshape_result', nary5_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Cert.Nary5

end
-- ==== Proof.IdealValueBC.lean ====
/-
  The host lines between the two regions and the closing host lines, each read at one buffer as a function of the
  buffers it starts from.

  Between the regions: the gate array's left half is z, its right half r; the update region's rows are the five
  diffusion terms of (x | r * h) side by side, with the edge norms and the two rows of the edge list as the first host
  lines left them; its weights are the five blocks of the candidate's weight array stacked, its bias row the
  candidate's bias.

  At the end: every entry of the new state that is not equal to itself is replaced by the mean of the others; over
  the extended reals every entry equals itself, so nothing is replaced.
-/
import proofs.«157260_j76725295776119_1_alg».proof.Proof.Gen.KernelIdeal.Launch
import proofs.«157260_j76725295776119_1_alg».proof.Proof.Spec
import proofs.«157260_j76725295776119_1_alg».proof.Proof.LibNary5
import Idealize.ShloMosaic.Lib.StableHlo.Run
import Idealize.ShloMosaic.PureOps.Ideal.Laws
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe
open Cert.Nary5 Idealize.ShloMosaic.StableHlo

variable {F : FTy → Type} [FloatOps F] (V : Valuation τ sig (Elt F))

attribute [local irreducible] Host.gather Host.scatterAdd

/-! # The host lines between the two regions -/

theorem h1_v132 : StableHlo.after hostOps1 V (Proc.devRef .tc main_v132) = Spec.halfLo (V (Proc.devRef .tc main_v131)) := by
  after_results_simp5; rfl

set_option maxHeartbeats 8000000 in
theorem h1_v194 : StableHlo.after hostOps1 V (Proc.devRef .tc main_v194)
    = Spec.txcat (Spec.cat2 (V (Proc.devRef .tc main_arg0)) (mulf (V (Proc.devRef .tc main_arg2)) (Spec.halfHi (V (Proc.devRef .tc main_v131)))))
        (V (Proc.devRef .tc main_v30)) (V (Proc.devRef .tc main_v39)) (V (Proc.devRef .tc main_v1)) (V (Proc.devRef .tc main_v3)) := by
  after_results_simp5; rfl

theorem h1_v208 : StableHlo.after hostOps1 V (Proc.devRef .tc main_v208) = Spec.wcat (V (Proc.devRef .tc main_arg7)) := by
  after_results_simp5; rfl

theorem h1_v209 : StableHlo.after hostOps1 V (Proc.devRef .tc main_v209) = Spec.brow64 (V (Proc.devRef .tc main_arg8)) := by
  after_results_simp5; rfl

theorem h1_arg2 : StableHlo.after hostOps1 V (Proc.devRef .tc main_arg2) = V (Proc.devRef .tc main_arg2) := by
  after_results_simp5

/-! # The closing host lines: entries that are not equal to themselves are replaced by the mean of the others -/

/-- The mean over the entries equal to themselves: their sum (the others counted as zero) over their number. -/
def nanmean (y : Spec.Cn F S50000x64 .f32) : Spec.Cn F S_ .f32 :=
  Host.divf
    (Host.reduceAdd (select (cmpf .une y y) (broadcastInDim S50000x64 ![] bcast_S_S50000x64 (constant S_ .f32 0x00000000#32)) y)
      (constant S_ .f32 0x00000000#32) reducesTo_S50000x64_S_d0_1 h_S_)
    (Host.reduceAdd (sitofp .f32 (extui 32 (noti (cmpf .une y y)) natLt_1_32))
      (constant S_ .f32 0x00000000#32) reducesTo_S50000x64_S_d0_1 h_S_)

/-- Every entry not equal to itself replaced by that mean. -/
def nanfill (y : Spec.Cn F S50000x64 .f32) : Spec.Cn F S50000x64 .f32 :=
  select (cmpf .une y y) (broadcastInDim S50000x64 ![] bcast_S_S50000x64 (nanmean y)) y

theorem h2_v213 : StableHlo.after hostOps2_2 (StableHlo.after hostOps2_1 (StableHlo.after hostOps2 V)) (Proc.devRef .tc main_v213)
    = nanfill (V (Proc.devRef .tc main_v210)) := by
  after_results_simp5; rfl

/-- Over the extended reals every entry equals itself. -/
theorem cmpf_une_self {s : Shape} (y : FVec Ideal s .f32) (i : s.Idx) : cmpf (F := Ideal) .une y y i = 0#1 := by
  show Ideal.cmp .une (y i) (y i) = 0#1
  simp [Ideal.cmp]

/-- So over the extended reals nothing is replaced. -/
theorem nanfill_ideal (y : Spec.Cn Ideal S50000x64 .f32) : nanfill (F := Ideal) y = y := by
  funext i
  show Scalar.select (cmpf (F := Ideal) .une y y i) _ (y i) = y i
  rw [cmpf_une_self]
  rfl

end Cert.KernelIdeal.HandValue

end
-- ==== Proof.IdealValueA.lean ====
/-
  The host lines before the gate region, read at the small buffers as a function of the launch arrays: the two rows of the
  edge list, the two edge norms (inverse degree counted over the rows' ends, over the cols' ends), the gate region's
  rows (the five diffusion terms of (x | h) side by side), its stacked weights and its bias row; the arguments stay.
-/
import proofs.«157260_j76725295776119_1_alg».proof.Proof.Gen.KernelIdeal.Launch
import proofs.«157260_j76725295776119_1_alg».proof.Proof.Spec
import proofs.«157260_j76725295776119_1_alg».proof.Proof.LibNary5
import Idealize.ShloMosaic.Lib.StableHlo.Run
import Idealize.ShloMosaic.PureOps.Ideal.Laws
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe
open Cert.Nary5 Idealize.ShloMosaic.StableHlo

variable {F : FTy → Type} [FloatOps F] (V : Valuation τ sig (Elt F))

attribute [local irreducible] Host.gather Host.scatterAdd

/-! # The host lines before the gate region -/

theorem h0_v1 : StableHlo.after hostOps0 V (Proc.devRef .tc main_v1) = Spec.rowOf (V (Proc.devRef .tc main_arg1)) := by
  after_results_simp5; rfl

theorem h0_v3 : StableHlo.after hostOps0 V (Proc.devRef .tc main_v3) = Spec.colOf (V (Proc.devRef .tc main_arg1)) := by
  after_results_simp5; rfl

theorem h0_v30 : StableHlo.after hostOps0 V (Proc.devRef .tc main_v30)
    = Spec.normOf (Spec.rowOf (V (Proc.devRef .tc main_arg1))) (Spec.rowOf (V (Proc.devRef .tc main_arg1))) := by
  after_results_simp5; rfl

theorem h0_v39 : StableHlo.after hostOps0 V (Proc.devRef .tc main_v39)
    = Spec.normOf (Spec.colOf (V (Proc.devRef .tc main_arg1))) (Spec.rowOf (V (Proc.devRef .tc main_arg1))) := by
  after_results_simp5; rfl

theorem h0_v130 : StableHlo.after hostOps0 V (Proc.devRef .tc main_v130)
    = Spec.brow128 (V (Proc.devRef .tc main_arg4)) (V (Proc.devRef .tc main_arg6)) := by
  after_results_simp5; rfl

theorem h0_arg0 : StableHlo.after hostOps0 V (Proc.devRef .tc main_arg0) = V (Proc.devRef .tc main_arg0) := by
  after_results_simp5
theorem h0_arg2 : StableHlo.after hostOps0 V (Proc.devRef .tc main_arg2) = V (Proc.devRef .tc main_arg2) := by
  after_results_simp5
theorem h0_arg7 : StableHlo.after hostOps0 V (Proc.devRef .tc main_arg7) = V (Proc.devRef .tc main_arg7) := by
  after_results_simp5
theorem h0_arg8 : StableHlo.after hostOps0 V (Proc.devRef .tc main_arg8) = V (Proc.devRef .tc main_arg8) := by
  after_results_simp5

end Cert.KernelIdeal.HandValue

end
-- ==== Proof.IdealValueA99.lean ====
/-
  The host lines before the gate region, read at the gate region's rows as a function of the launch arrays: the two rows of the
  edge list, the two edge norms (inverse degree counted over the rows' ends, over the cols' ends), the gate region's
  rows (the five diffusion terms of (x | h) side by side), its stacked weights and its bias row; the arguments stay.
-/
import proofs.«157260_j76725295776119_1_alg».proof.Proof.Gen.KernelIdeal.Launch
import proofs.«157260_j76725295776119_1_alg».proof.Proof.Spec
import proofs.«157260_j76725295776119_1_alg».proof.Proof.LibNary5
import Idealize.ShloMosaic.Lib.StableHlo.Run
import Idealize.ShloMosaic.PureOps.Ideal.Laws
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe
open Cert.Nary5 Idealize.ShloMosaic.StableHlo

variable {F : FTy → Type} [FloatOps F] (V : Valuation τ sig (Elt F))

attribute [local irreducible] Host.gather Host.scatterAdd

set_option maxHeartbeats 8000000 in
theorem h0_v99 : StableHlo.after hostOps0 V (Proc.devRef .tc main_v99)
    = Spec.txcat (Spec.cat2 (V (Proc.devRef .tc main_arg0)) (V (Proc.devRef .tc main_arg2)))
        (Spec.normOf (Spec.rowOf (V (Proc.devRef .tc main_arg1))) (Spec.rowOf (V (Proc.devRef .tc main_arg1))))
        (Spec.normOf (Spec.colOf (V (Proc.devRef .tc main_arg1))) (Spec.rowOf (V (Proc.devRef .tc main_arg1))))
        (Spec.rowOf (V (Proc.devRef .tc main_arg1))) (Spec.colOf (V (Proc.devRef .tc main_arg1))) := by
  after_results_simp5; rfl

end Cert.KernelIdeal.HandValue

end
-- ==== Proof.IdealValueA128.lean ====
/-
  The host lines before the gate region, read at the gate region's stacked weights: the five blocks of the update
  gate's weight array stacked, beside the five blocks of the reset gate's.
-/
import proofs.«157260_j76725295776119_1_alg».proof.Proof.Gen.KernelIdeal.Launch
import proofs.«157260_j76725295776119_1_alg».proof.Proof.Spec
import proofs.«157260_j76725295776119_1_alg».proof.Proof.LibNary5
import Idealize.ShloMosaic.Lib.StableHlo.Run
import Idealize.ShloMosaic.PureOps.Ideal.Laws
import Idealize.ShloMosaic.Lib.ValueIdx

set_option maxRecDepth 16384

noncomputable section

namespace Cert.KernelIdeal.HandValue

open Cert.KernelIdeal Cert.KernelIdeal.Gen
open Idealize.ShloMosaic Idealize.ShloMosaic.TcCoe
open Cert.Nary5 Idealize.ShloMosaic.StableHlo

variable {F : FTy → Type} [FloatOps F] (V : Valuation τ sig (Elt F))

attribute [local irreducible] Host.gather Host.scatterAdd

set_option maxHeartbeats 8000000 in
theorem h0_v128 : StableHlo.after hostOps0 V (Proc.devRef .tc main_v128)
    = Spec.wpair (Spec.wcat (V (Proc.devRef .tc main_arg3))) (Spec.wcat (V (Proc.devRef .tc main_arg5))) := by
  after_results_simp5; rfl

end Cert.KernelIdeal.HandValue

end
-- ==== Proof.IdealValue.lean ====
/-
  The program's result array after its last host line, as ONE term of the nine launch arrays, over the extended reals:
  the host lines before the gate region make the diffusion terms of (x | h), the stacked gate weights and the bias row;
  the gate region leaves logistic (rows times weights plus bias) = (z | r); the host lines between the regions make the
  diffusion terms of (x | r * h) and the candidate's stacked weights and bias row; the update region leaves
  z * h + (1 - z) * tanh (rows times weights plus bias); the closing host lines replace entries not equal to
  themselves by the mean of the others. Composed through the named buffer contents between the pieces.
-/
import proofs.«157260_j76725295776119_1_alg».proof.Proof.IdealRun
import proofs.«157260_j76725295776119_1_alg».proof.Proof.IdealRegionValue
import proofs.«157260_j76725295776119_1_alg».proof.Proof.IdealValueBC
import proofs.«157260_j76725295776119_1_alg».proof.Proof.IdealValueA
import proofs.«157260_j76725295776119_1_alg».proof.Proof.IdealValueA99
import proofs.«157260_j76725295776119_1_alg».proof.Proof.IdealValueA128

set_option maxRecDepth 16384

noncomputable section

namespace Cert.KernelIdeal.HandValue

open Cert.KernelIdeal Cert.KernelIdeal.Gen
open Idealize.ShloMosaic Idealize.ShloMosaic.TcCoe

/-! # The program's result as one term of the launch arrays -/

open Cert.KernelIdeal.Hand

/-- The gate array z | r as a function of the launch arrays. -/
def gateVal (X : Spec.Cn Ideal S50000x64 .f32) (ei : Spec.Cn Ideal S2x500000 .i32) (H : Spec.Cn Ideal S50000x64 .f32)
    (Wz : Spec.Cn Ideal S2x3x128x64 .f32) (bz : Spec.Cn Ideal S64 .f32) (Wr : Spec.Cn Ideal S2x3x128x64 .f32) (br : Spec.Cn Ideal S64 .f32) :
    Spec.Cn Ideal S50000x128 .f32 :=
  G0 (Spec.txcat (Spec.cat2 X H)
        (Spec.normOf (Spec.rowOf ei) (Spec.rowOf ei)) (Spec.normOf (Spec.colOf ei) (Spec.rowOf ei)) (Spec.rowOf ei) (Spec.colOf ei))
    (Spec.wpair (Spec.wcat Wz) (Spec.wcat Wr)) (Spec.brow128 bz br)

/-- The program's result as a function of the nine launch arrays. -/
def kernelResult (X : Spec.Cn Ideal S50000x64 .f32) (ei : Spec.Cn Ideal S2x500000 .i32) (H : Spec.Cn Ideal S50000x64 .f32)
    (Wz : Spec.Cn Ideal S2x3x128x64 .f32) (bz : Spec.Cn Ideal S64 .f32) (Wr : Spec.Cn Ideal S2x3x128x64 .f32) (br : Spec.Cn Ideal S64 .f32)
    (Wh : Spec.Cn Ideal S2x3x128x64 .f32) (bh : Spec.Cn Ideal S64 .f32) : Spec.Cn Ideal S50000x64 .f32 :=
  nanfill (G1 (Spec.txcat (Spec.cat2 X (mulf H (Spec.halfHi (gateVal X ei H Wz bz Wr br))))
        (Spec.normOf (Spec.rowOf ei) (Spec.rowOf ei)) (Spec.normOf (Spec.colOf ei) (Spec.rowOf ei)) (Spec.rowOf ei) (Spec.colOf ei))
    (Spec.wcat Wh) (Spec.brow64 bh) (Spec.halfLo (gateVal X ei H Wz bz Wr br)) H)

variable (m : (ℓ : Loc nD τ sig) → Buf (Elt Ideal) ℓ) (ρ : Dev nD → PrngReg)

/-! ## Before the gate region -/

theorem w1_v1 (c : Dev nD) : W1 m ρ c (Proc.devRef .tc main_v1) = Spec.rowOf (m ((c.tc : Thread nD τ).loc main_arg1)) :=
  h0_v1 (W0 m ρ c)
theorem w1_v3 (c : Dev nD) : W1 m ρ c (Proc.devRef .tc main_v3) = Spec.colOf (m ((c.tc : Thread nD τ).loc main_arg1)) :=
  h0_v3 (W0 m ρ c)
theorem w1_v30 (c : Dev nD) : W1 m ρ c (Proc.devRef .tc main_v30)
    = Spec.normOf (Spec.rowOf (m ((c.tc : Thread nD τ).loc main_arg1))) (Spec.rowOf (m ((c.tc : Thread nD τ).loc main_arg1))) :=
  h0_v30 (W0 m ρ c)
theorem w1_v39 (c : Dev nD) : W1 m ρ c (Proc.devRef .tc main_v39)
    = Spec.normOf (Spec.colOf (m ((c.tc : Thread nD τ).loc main_arg1))) (Spec.rowOf (m ((c.tc : Thread nD τ).loc main_arg1))) :=
  h0_v39 (W0 m ρ c)
theorem w1_arg0 (c : Dev nD) : W1 m ρ c (Proc.devRef .tc main_arg0) = m ((c.tc : Thread nD τ).loc main_arg0) := h0_arg0 (W0 m ρ c)
theorem w1_arg2 (c : Dev nD) : W1 m ρ c (Proc.devRef .tc main_arg2) = m ((c.tc : Thread nD τ).loc main_arg2) := h0_arg2 (W0 m ρ c)
theorem w1_arg7 (c : Dev nD) : W1 m ρ c (Proc.devRef .tc main_arg7) = m ((c.tc : Thread nD τ).loc main_arg7) := h0_arg7 (W0 m ρ c)
theorem w1_arg8 (c : Dev nD) : W1 m ρ c (Proc.devRef .tc main_arg8) = m ((c.tc : Thread nD τ).loc main_arg8) := h0_arg8 (W0 m ρ c)

theorem v1_v99 (c : Dev nD) : V1 m ρ c main_v99
    = Spec.txcat (Spec.cat2 (m ((c.tc : Thread nD τ).loc main_arg0)) (m ((c.tc : Thread nD τ).loc main_arg2)))
        (Spec.normOf (Spec.rowOf (m ((c.tc : Thread nD τ).loc main_arg1))) (Spec.rowOf (m ((c.tc : Thread nD τ).loc main_arg1))))
        (Spec.normOf (Spec.colOf (m ((c.tc : Thread nD τ).loc main_arg1))) (Spec.rowOf (m ((c.tc : Thread nD τ).loc main_arg1))))
        (Spec.rowOf (m ((c.tc : Thread nD τ).loc main_arg1))) (Spec.colOf (m ((c.tc : Thread nD τ).loc main_arg1))) :=
  h0_v99 (W0 m ρ c)
theorem v1_v128 (c : Dev nD) : V1 m ρ c main_v128
    = Spec.wpair (Spec.wcat (m ((c.tc : Thread nD τ).loc main_arg3))) (Spec.wcat (m ((c.tc : Thread nD τ).loc main_arg5))) :=
  h0_v128 (W0 m ρ c)
theorem v1_v130 (c : Dev nD) : V1 m ρ c main_v130
    = Spec.brow128 (m ((c.tc : Thread nD τ).loc main_arg4)) (m ((c.tc : Thread nD τ).loc main_arg6)) :=
  h0_v130 (W0 m ρ c)

/-! ## After the gate region -/

/-- The gate array after the gate region. -/
theorem w2_v131 (c : Dev nD) : W2 m ρ c (Proc.devRef .tc main_v131)
    = gateVal (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (W2_arr m ρ c 3).trans ?_
  refine (arr0 (V1 m ρ) c).trans ?_
  rw [v1_v99, v1_v128, v1_v130]
  rfl

theorem w2_v1 (c : Dev nD) : W2 m ρ c (Proc.devRef .tc main_v1) = Spec.rowOf (m ((c.tc : Thread nD τ).loc main_arg1)) :=
  (W2_of_ne m ρ c main_v1 (by decide)).trans (w1_v1 m ρ c)
theorem w2_v3 (c : Dev nD) : W2 m ρ c (Proc.devRef .tc main_v3) = Spec.colOf (m ((c.tc : Thread nD τ).loc main_arg1)) :=
  (W2_of_ne m ρ c main_v3 (by decide)).trans (w1_v3 m ρ c)
theorem w2_v30 (c : Dev nD) : W2 m ρ c (Proc.devRef .tc main_v30)
    = Spec.normOf (Spec.rowOf (m ((c.tc : Thread nD τ).loc main_arg1))) (Spec.rowOf (m ((c.tc : Thread nD τ).loc main_arg1))) :=
  (W2_of_ne m ρ c main_v30 (by decide)).trans (w1_v30 m ρ c)
theorem w2_v39 (c : Dev nD) : W2 m ρ c (Proc.devRef .tc main_v39)
    = Spec.normOf (Spec.colOf (m ((c.tc : Thread nD τ).loc main_arg1))) (Spec.rowOf (m ((c.tc : Thread nD τ).loc main_arg1))) :=
  (W2_of_ne m ρ c main_v39 (by decide)).trans (w1_v39 m ρ c)
theorem w2_arg0 (c : Dev nD) : W2 m ρ c (Proc.devRef .tc main_arg0) = m ((c.tc : Thread nD τ).loc main_arg0) :=
  (W2_of_ne m ρ c main_arg0 (by decide)).trans (w1_arg0 m ρ c)
theorem w2_arg2 (c : Dev nD) : W2 m ρ c (Proc.devRef .tc main_arg2) = m ((c.tc : Thread nD τ).loc main_arg2) :=
  (W2_of_ne m ρ c main_arg2 (by decide)).trans (w1_arg2 m ρ c)
theorem w2_arg7 (c : Dev nD) : W2 m ρ c (Proc.devRef .tc main_arg7) = m ((c.tc : Thread nD τ).loc main_arg7) :=
  (W2_of_ne m ρ c main_arg7 (by decide)).trans (w1_arg7 m ρ c)
theorem w2_arg8 (c : Dev nD) : W2 m ρ c (Proc.devRef .tc main_arg8) = m ((c.tc : Thread nD τ).loc main_arg8) :=
  (W2_of_ne m ρ c main_arg8 (by decide)).trans (w1_arg8 m ρ c)

/-! ## Before the update region -/

theorem v3_v132 (c : Dev nD) : V3 m ρ c main_v132
    = Spec.halfLo (gateVal (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) := by
  refine (h1_v132 (W2 m ρ c)).trans ?_
  rw [w2_v131]

theorem v3_v194 (c : Dev nD) : V3 m ρ c main_v194
    = Spec.txcat (Spec.cat2 (m ((c.tc : Thread nD τ).loc main_arg0)) (mulf (m ((c.tc : Thread nD τ).loc main_arg2))
          (Spec.halfHi (gateVal (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))))))
        (Spec.normOf (Spec.rowOf (m ((c.tc : Thread nD τ).loc main_arg1))) (Spec.rowOf (m ((c.tc : Thread nD τ).loc main_arg1))))
        (Spec.normOf (Spec.colOf (m ((c.tc : Thread nD τ).loc main_arg1))) (Spec.rowOf (m ((c.tc : Thread nD τ).loc main_arg1))))
        (Spec.rowOf (m ((c.tc : Thread nD τ).loc main_arg1))) (Spec.colOf (m ((c.tc : Thread nD τ).loc main_arg1))) := by
  refine (h1_v194 (W2 m ρ c)).trans ?_
  rw [w2_v131, w2_arg0, w2_arg2, w2_v30, w2_v39, w2_v1, w2_v3]

theorem v3_v208 (c : Dev nD) : V3 m ρ c main_v208 = Spec.wcat (m ((c.tc : Thread nD τ).loc main_arg7)) := by
  refine (h1_v208 (W2 m ρ c)).trans ?_
  rw [w2_arg7]
theorem v3_v209 (c : Dev nD) : V3 m ρ c main_v209 = Spec.brow64 (m ((c.tc : Thread nD τ).loc main_arg8)) := by
  refine (h1_v209 (W2 m ρ c)).trans ?_
  rw [w2_arg8]
theorem v3_arg2 (c : Dev nD) : V3 m ρ c main_arg2 = m ((c.tc : Thread nD τ).loc main_arg2) :=
  (h1_arg2 (W2 m ρ c)).trans (w2_arg2 m ρ c)

/-! ## The result -/

/-- THE PROGRAM'S RESULT ARRAY after the last host line, as a function of the launch arrays. -/
theorem kernel_value (c : Dev nD) : W7 (F := Ideal) m ρ c (Proc.devRef .tc main_v213)
    = kernelResult (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (h2_v213 (W4 m ρ c)).trans ?_
  refine congrArg nanfill ?_
  refine (W4_arr m ρ c 5).trans ?_
  refine (arr1 (V3 m ρ) c).trans ?_
  rw [v3_v194, v3_v208, v3_v209, v3_v132, v3_arg2]

end Cert.KernelIdeal.HandValue

end
-- ==== Proof.RefSpec.lean ====
/-
  The reference's layer spelled as functions of arrays: one matrix product of a diffusion term with a weight block,
  the bias repeated down the rows, the five products added left to right plus the bias, the sigmoid written out as
  1 / (1 + exp (-p)), the convex combination z * h + (1 - z) * tanh p, and the whole pre-activation of one
  convolution from a start array.
-/
import proofs.«157260_j76725295776119_1_alg».proof.Proof.Gen.ReferenceIdeal
import proofs.«157260_j76725295776119_1_alg».proof.Proof.Spec

noncomputable section

namespace Cert.ReferenceIdeal.HandValue

open Cert.ReferenceIdeal Cert.ReferenceIdeal.Facts₀ Cert.ReferenceIdeal.Facts
open Idealize.ShloMosaic
open Cert.KernelIdeal.Spec (Cn rowOf colOf normOf prop cheb2 cat2 wsum w01 w11 w02 w12)

variable {F : FTy → Type} [FloatOps F]

/-- One matrix product of a [50000,128] term with a [128,64] weight block. -/
def rdot (T : Cn F S50000x128 .f32) (A : Cn F S128x64 .f32) : Cn F S50000x64 .f32 :=
  Host.dotGeneral dot_S50000x128_S128x64_S50000x64_1_0_0_1_n_n none T A
/-- A bias vector repeated down the rows. -/
def rbias (b : Cn F S64 .f32) : Cn F S50000x64 .f32 :=
  broadcastInDim S50000x64 ![0, 1] bcast_S1x64_S50000x64_0_1 (broadcastInDim S1x64 ![1] bcast_S64_S1x64_1 b)
/-- The five products added left to right, plus the bias. -/
def rpre (T0 T1 T2 T3 T4 : Cn F S50000x128 .f32) (A0 A1 A2 A3 A4 : Cn F S128x64 .f32) (b : Cn F S64 .f32) : Cn F S50000x64 .f32 :=
  addf (addf (addf (addf (addf (rdot T0 A0) (rdot T1 A1)) (rdot T2 A2)) (rdot T3 A3)) (rdot T4 A4)) (rbias b)
/-- The sigmoid spelled out: 1 / (1 + exp (-p)). -/
def rgate (p : Cn F S50000x64 .f32) : Cn F S50000x64 .f32 :=
  Host.divf (broadcastInDim S50000x64 ![] bcast_S_S50000x64 (constant S_ .f32 0x3F800000#32))
    (addf (broadcastInDim S50000x64 ![] bcast_S_S50000x64 (constant S_ .f32 0x3F800000#32)) (Host.exp (Host.negf p)))
/-- z * h + (1 - z) * tanh p. -/
def rupdate (z h p : Cn F S50000x64 .f32) : Cn F S50000x64 .f32 :=
  addf (mulf z h) (mulf (subf (broadcastInDim S50000x64 ![] bcast_S_S50000x64 (constant S_ .f32 0x3F800000#32)) z) (Host.tanh p))
/-- The whole pre-activation of one convolution of the start array x with the weights W and bias b. -/
def rconv (x : Cn F S50000x128 .f32) (nO nI : Cn F S500000 .f32) (row col : Cn F S500000 .i32) (W : Cn F S2x3x128x64 .f32) (b : Cn F S64 .f32) : Cn F S50000x64 .f32 :=
  rpre x (prop x nO row col) (prop x nI row col) (cheb2 (prop (prop x nO row col) nO row col) x) (cheb2 (prop (prop x nI row col) nI row col) x)
    (wsum W) (w01 W) (w11 W) (w02 W) (w12 W) b

end Cert.ReferenceIdeal.HandValue

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.RefValue.lean ====
/-
  What the reference program computes, read stage by stage as functions of arrays: the two sigmoid gates
  (a five-term sum of matrix products of the diffusion terms with the weight blocks, plus the bias, through
  1 / (1 + exp (-x))), the candidate state (the same sum over the diffusion terms of [X, H * R], through tanh),
  the convex combination Z * H + (1 - Z) * candidate, and the closing replacement of entries that are not numbers.
-/
import proofs.«157260_j76725295776119_1_alg».proof.Proof.RefOps
import proofs.«157260_j76725295776119_1_alg».proof.Proof.RefSpec
import proofs.«157260_j76725295776119_1_alg».proof.Proof.LibAfter

set_option maxRecDepth 16384

noncomputable section

namespace Cert.ReferenceIdeal.HandValue

open Cert.ReferenceIdeal Cert.ReferenceIdeal.Facts₀ Cert.ReferenceIdeal.Facts Cert.ReferenceIdeal.Hand
open Idealize.ShloMosaic Idealize.ShloMosaic.TcCoe Idealize.ShloMosaic.StableHlo
open Cert.KernelIdeal.Spec (Cn rowOf colOf normOf prop cheb2 cat2 wsum w01 w11 w02 w12)

variable {F : FTy → Type} [FloatOps F]

attribute [local irreducible] Host.gather Host.scatterAdd

/-! ## The first stage: the edge data, [X, H], and the update gate -/

abbrev stage1 : List (HloOp τ sig (Elt F)) := opsA ++ opsB ++ opsC ++ opsD ++ opsE ++ opsF

theorem s1_v1 (V : Valuation τ sig (Elt F)) : StableHlo.after stage1 V (Proc.devRef .tc main_v1) = rowOf (V (Proc.devRef .tc main_arg1)) := by
  simp only [Cert.After.after_append]; after_results_simp; rfl
theorem s1_v3 (V : Valuation τ sig (Elt F)) : StableHlo.after stage1 V (Proc.devRef .tc main_v3) = colOf (V (Proc.devRef .tc main_arg1)) := by
  simp only [Cert.After.after_append]; after_results_simp; rfl
theorem s1_v30 (V : Valuation τ sig (Elt F)) : StableHlo.after stage1 V (Proc.devRef .tc main_v30)
    = normOf (rowOf (V (Proc.devRef .tc main_arg1))) (rowOf (V (Proc.devRef .tc main_arg1))) := by
  simp only [Cert.After.after_append]; after_results_simp; rfl
theorem s1_v39 (V : Valuation τ sig (Elt F)) : StableHlo.after stage1 V (Proc.devRef .tc main_v39)
    = normOf (colOf (V (Proc.devRef .tc main_arg1))) (rowOf (V (Proc.devRef .tc main_arg1))) := by
  simp only [Cert.After.after_append]; after_results_simp; rfl
theorem s1_v40 (V : Valuation τ sig (Elt F)) : StableHlo.after stage1 V (Proc.devRef .tc main_v40)
    = cat2 (V (Proc.devRef .tc main_arg0)) (V (Proc.devRef .tc main_arg2)) := by
  simp only [Cert.After.after_append]; after_results_simp; rfl

set_option maxHeartbeats 8000000 in
/-- The update gate Z. -/
theorem s1_v129 (V : Valuation τ sig (Elt F)) : StableHlo.after stage1 V (Proc.devRef .tc main_v129)
    = rgate (rconv (cat2 (V (Proc.devRef .tc main_arg0)) (V (Proc.devRef .tc main_arg2)))
        (normOf (rowOf (V (Proc.devRef .tc main_arg1))) (rowOf (V (Proc.devRef .tc main_arg1)))) (normOf (colOf (V (Proc.devRef .tc main_arg1))) (rowOf (V (Proc.devRef .tc main_arg1))))
        (rowOf (V (Proc.devRef .tc main_arg1))) (colOf (V (Proc.devRef .tc main_arg1))) (V (Proc.devRef .tc main_arg3)) (V (Proc.devRef .tc main_arg4))) := by
  simp only [Cert.After.after_append]; after_results_simp; rfl
theorem s1_keep_arg0 (V : Valuation τ sig (Elt F)) : StableHlo.after stage1 V (Proc.devRef .tc main_arg0) = V (Proc.devRef .tc main_arg0) := by
  simp only [Cert.After.after_append]; after_results_simp
theorem s1_keep_arg1 (V : Valuation τ sig (Elt F)) : StableHlo.after stage1 V (Proc.devRef .tc main_arg1) = V (Proc.devRef .tc main_arg1) := by
  simp only [Cert.After.after_append]; after_results_simp
theorem s1_keep_arg2 (V : Valuation τ sig (Elt F)) : StableHlo.after stage1 V (Proc.devRef .tc main_arg2) = V (Proc.devRef .tc main_arg2) := by
  simp only [Cert.After.after_append]; after_results_simp
theorem s1_keep_arg5 (V : Valuation τ sig (Elt F)) : StableHlo.after stage1 V (Proc.devRef .tc main_arg5) = V (Proc.devRef .tc main_arg5) := by
  simp only [Cert.After.after_append]; after_results_simp
theorem s1_keep_arg6 (V : Valuation τ sig (Elt F)) : StableHlo.after stage1 V (Proc.devRef .tc main_arg6) = V (Proc.devRef .tc main_arg6) := by
  simp only [Cert.After.after_append]; after_results_simp
theorem s1_keep_arg7 (V : Valuation τ sig (Elt F)) : StableHlo.after stage1 V (Proc.devRef .tc main_arg7) = V (Proc.devRef .tc main_arg7) := by
  simp only [Cert.After.after_append]; after_results_simp
theorem s1_keep_arg8 (V : Valuation τ sig (Elt F)) : StableHlo.after stage1 V (Proc.devRef .tc main_arg8) = V (Proc.devRef .tc main_arg8) := by
  simp only [Cert.After.after_append]; after_results_simp

/-! ## The second stage: the reset gate -/

abbrev stage2 : List (HloOp τ sig (Elt F)) := opsG ++ opsH ++ opsI ++ opsJ

set_option maxHeartbeats 8000000 in
/-- The reset gate R, from the first stage's edge data and [X, H]. -/
theorem s2_v218 (V : Valuation τ sig (Elt F)) : StableHlo.after stage2 V (Proc.devRef .tc main_v218)
    = rgate (rconv (V (Proc.devRef .tc main_v40)) (V (Proc.devRef .tc main_v30)) (V (Proc.devRef .tc main_v39)) (V (Proc.devRef .tc main_v1)) (V (Proc.devRef .tc main_v3)) (V (Proc.devRef .tc main_arg5)) (V (Proc.devRef .tc main_arg6))) := by
  simp only [Cert.After.after_append]; after_results_simp; rfl
theorem s2_keep_arg0 (V : Valuation τ sig (Elt F)) : StableHlo.after stage2 V (Proc.devRef .tc main_arg0) = V (Proc.devRef .tc main_arg0) := by
  simp only [Cert.After.after_append]; after_results_simp
theorem s2_keep_arg2 (V : Valuation τ sig (Elt F)) : StableHlo.after stage2 V (Proc.devRef .tc main_arg2) = V (Proc.devRef .tc main_arg2) := by
  simp only [Cert.After.after_append]; after_results_simp
theorem s2_keep_arg7 (V : Valuation τ sig (Elt F)) : StableHlo.after stage2 V (Proc.devRef .tc main_arg7) = V (Proc.devRef .tc main_arg7) := by
  simp only [Cert.After.after_append]; after_results_simp
theorem s2_keep_arg8 (V : Valuation τ sig (Elt F)) : StableHlo.after stage2 V (Proc.devRef .tc main_arg8) = V (Proc.devRef .tc main_arg8) := by
  simp only [Cert.After.after_append]; after_results_simp
theorem s2_keep_v1 (V : Valuation τ sig (Elt F)) : StableHlo.after stage2 V (Proc.devRef .tc main_v1) = V (Proc.devRef .tc main_v1) := by
  simp only [Cert.After.after_append]; after_results_simp
theorem s2_keep_v3 (V : Valuation τ sig (Elt F)) : StableHlo.after stage2 V (Proc.devRef .tc main_v3) = V (Proc.devRef .tc main_v3) := by
  simp only [Cert.After.after_append]; after_results_simp
theorem s2_keep_v30 (V : Valuation τ sig (Elt F)) : StableHlo.after stage2 V (Proc.devRef .tc main_v30) = V (Proc.devRef .tc main_v30) := by
  simp only [Cert.After.after_append]; after_results_simp
theorem s2_keep_v39 (V : Valuation τ sig (Elt F)) : StableHlo.after stage2 V (Proc.devRef .tc main_v39) = V (Proc.devRef .tc main_v39) := by
  simp only [Cert.After.after_append]; after_results_simp
theorem s2_keep_v129 (V : Valuation τ sig (Elt F)) : StableHlo.after stage2 V (Proc.devRef .tc main_v129) = V (Proc.devRef .tc main_v129) := by
  simp only [Cert.After.after_append]; after_results_simp

/-! ## The third stage: the candidate state -/

abbrev stage3 : List (HloOp τ sig (Elt F)) := opsK ++ opsL ++ opsM ++ opsN

set_option maxHeartbeats 8000000 in
/-- The candidate state, from [X, H * R]. -/
theorem s3_v304 (V : Valuation τ sig (Elt F)) : StableHlo.after stage3 V (Proc.devRef .tc main_v304)
    = Host.tanh (rconv (cat2 (V (Proc.devRef .tc main_arg0)) (mulf (V (Proc.devRef .tc main_arg2)) (V (Proc.devRef .tc main_v218)))) (V (Proc.devRef .tc main_v30)) (V (Proc.devRef .tc main_v39)) (V (Proc.devRef .tc main_v1)) (V (Proc.devRef .tc main_v3)) (V (Proc.devRef .tc main_arg7)) (V (Proc.devRef .tc main_arg8))) := by
  simp only [Cert.After.after_append]; after_results_simp; rfl
theorem s3_keep_arg2 (V : Valuation τ sig (Elt F)) : StableHlo.after stage3 V (Proc.devRef .tc main_arg2) = V (Proc.devRef .tc main_arg2) := by
  simp only [Cert.After.after_append]; after_results_simp
theorem s3_keep_v129 (V : Valuation τ sig (Elt F)) : StableHlo.after stage3 V (Proc.devRef .tc main_v129) = V (Proc.devRef .tc main_v129) := by
  simp only [Cert.After.after_append]; after_results_simp

end Cert.ReferenceIdeal.HandValue

end
-- ==== Proof.RefTail.lean ====
/- The closing stage of the reference: the convex combination of the old state and the candidate, and the
   replacement of the entries that are not numbers by the mean of those that are. Over the extended reals no
   entry differs from itself, so the replacement changes nothing. -/
import proofs.«157260_j76725295776119_1_alg».proof.Proof.RefOps
import Idealize.ShloMosaic.Lib.StableHlo.Run
import Idealize.ShloMosaic.Lib.Pipeline.Frame
import Idealize.ShloMosaic.PureOps.Ideal

set_option synthInstance.maxSize 4096

noncomputable section

namespace Cert.ReferenceIdeal.HandValue2

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The mean of the entries of `y` that are numbers: their sum (the others replaced by zero) over their count
    (the complement of the mask `y ≠ y`, as 32-bit integers, as floats, summed). -/
def rnanmean (y : (⟨S50000x64, .f32⟩ : BufTy).Contents (Elt F)) : (⟨S_, .f32⟩ : BufTy).Contents (Elt F) :=
  Host.divf
    (Host.reduceAdd
      (select (cmpf .une y y) (broadcastInDim S50000x64 ![] bcast_S_S50000x64 (constant S_ .f32 0x00000000#32)) y)
      (constant S_ .f32 0x00000000#32) reducesTo_S50000x64_S_d0_1 h_S_)
    (Host.reduceAdd (sitofp .f32 (extui 32 (noti (cmpf .une y y)) natLt_1_32))
      (constant S_ .f32 0x00000000#32) reducesTo_S50000x64_S_d0_1 h_S_)

/-- `y` with the mean of its entries that are numbers in place of those that are not. -/
def rnanfill (y : (⟨S50000x64, .f32⟩ : BufTy).Contents (Elt F)) : (⟨S50000x64, .f32⟩ : BufTy).Contents (Elt F) :=
  select (cmpf .une y y) (broadcastInDim S50000x64 ![] bcast_S_S50000x64 (rnanmean y)) y

set_option maxRecDepth 8192 in
/-- The fifteen operations of the two inlined functions, read at the result: the selection, under the mask held
    at %310, between the broadcast mean of %309's numbers and %309. -/
theorem tailPQ_eq (V : Valuation τ sig (Elt F)) :
    after (opsP ++ opsQ) V (Proc.devRef .tc main_v312)
      = select (V (Proc.devRef .tc main_v310))
          (broadcastInDim S50000x64 ![] bcast_S_S50000x64 (rnanmean (V (Proc.devRef .tc main_v309))))
          (V (Proc.devRef .tc main_v309)) := by
  simp only [StableHlo.after_append]
  after_results_simp
  rfl

set_option maxRecDepth 8192 in
/-- The closing stage read at the result: the replacement applied to Z ⊙ H + (1 − Z) ⊙ candidate. -/
theorem tail_eq (V : Valuation τ sig (Elt F)) :
    after (opsO ++ opsP ++ opsQ) V (Proc.devRef .tc main_v312)
      = rnanfill (addf (mulf (V (Proc.devRef .tc main_v129)) (V (Proc.devRef .tc main_arg2)))
          (mulf (subf (broadcastInDim S50000x64 ![] bcast_S_S50000x64 (constant S_ .f32 0x3F800000#32))
            (V (Proc.devRef .tc main_v129))) (V (Proc.devRef .tc main_v304)))) := by
  simp only [StableHlo.after_append]
  after_results_simp
  rfl

/-- Over the extended reals every entry equals itself: the mask `y ≠ y` is nowhere set. -/
theorem cmpf_une_self {s : Shape} (y : FVec Ideal s .f32) (i : s.Idx) : cmpf (F := Ideal) .une y y i = 0#1 := by
  show Ideal.cmp .une (y i) (y i) = 0#1
  simp [Ideal.cmp]

/-- Over the extended reals the replacement changes nothing. -/
theorem rnanfill_ideal (y : (⟨S50000x64, .f32⟩ : BufTy).Contents (Elt Ideal)) : rnanfill (F := Ideal) y = y := by
  funext i
  show Scalar.select (cmpf (F := Ideal) .une y y i) _ (y i) = y i
  rw [cmpf_une_self]
  rfl

end Cert.ReferenceIdeal.HandValue2

end
-- ==== Proof.RefCompose.lean ====
/- The reference's result as a function of its nine arguments: the three stages and the closing stage of the
   line composed. Each stage is read at the buffers the next ones consume; a buffer a stage does not write is
   carried through it unchanged. -/
import proofs.«157260_j76725295776119_1_alg».proof.Proof.RefValue
import proofs.«157260_j76725295776119_1_alg».proof.Proof.RefTail
import proofs.«157260_j76725295776119_1_alg».proof.Proof.RefFrame

noncomputable section

namespace Cert.ReferenceIdeal.HandValue

open Cert.ReferenceIdeal Cert.ReferenceIdeal.Facts₀ Cert.ReferenceIdeal.Facts Cert.ReferenceIdeal.Hand Cert.ReferenceIdeal.HandValue2
open Idealize.ShloMosaic Idealize.ShloMosaic.TcCoe Idealize.ShloMosaic.StableHlo
open Cert.KernelIdeal.Spec (Cn rowOf colOf normOf prop cheb2 cat2 wsum w01 w11 w02 w12)

variable {F : FTy → Type} [FloatOps F]

/-! ## The stages in a row -/

/-- The line is its three stages and the closing stage, in a row. -/
theorem ops_stages : (ops : List (HloOp τ sig (Elt F))) = stage1 ++ stage2 ++ stage3 ++ (opsO ++ opsP ++ opsQ) := by
  simp only [ops, stage1, stage2, stage3, List.append_assoc]

/-- A reference the first stage does not write keeps its contents through it. -/
theorem stage1_keep (V : Valuation τ sig (Elt F)) {r : Ref sig .tc}
    (hr : r ∉ opsA_W ++ opsB_W ++ opsC_W ++ opsD_W ++ opsE_W ++ opsF_W) :
    after stage1 V (Proc.devRef .tc r) = V (Proc.devRef .tc r) := by
  have hr' : r ∉ opsA_W ∧ r ∉ opsB_W ∧ r ∉ opsC_W ∧ r ∉ opsD_W ∧ r ∉ opsE_W ∧ r ∉ opsF_W := by
    simpa only [List.mem_append, not_or, and_assoc] using hr
  obtain ⟨hA, hB, hC, hD, hE, hF⟩ := hr'
  simp only [stage1, StableHlo.after_append]
  rw [opsF_keep _ hF, opsE_keep _ hE, opsD_keep _ hD, opsC_keep _ hC, opsB_keep _ hB, opsA_keep _ hA]

/-- A reference the second stage does not write keeps its contents through it. -/
theorem stage2_keep (V : Valuation τ sig (Elt F)) {r : Ref sig .tc}
    (hr : r ∉ opsG_W ++ opsH_W ++ opsI_W ++ opsJ_W) :
    after stage2 V (Proc.devRef .tc r) = V (Proc.devRef .tc r) := by
  have hr' : r ∉ opsG_W ∧ r ∉ opsH_W ∧ r ∉ opsI_W ∧ r ∉ opsJ_W := by
    simpa only [List.mem_append, not_or, and_assoc] using hr
  obtain ⟨hG, hH, hI, hJ⟩ := hr'
  simp only [stage2, StableHlo.after_append]
  rw [opsJ_keep _ hJ, opsI_keep _ hI, opsH_keep _ hH, opsG_keep _ hG]

/-- A reference the third stage does not write keeps its contents through it. -/
theorem stage3_keep (V : Valuation τ sig (Elt F)) {r : Ref sig .tc}
    (hr : r ∉ opsK_W ++ opsL_W ++ opsM_W ++ opsN_W) :
    after stage3 V (Proc.devRef .tc r) = V (Proc.devRef .tc r) := by
  have hr' : r ∉ opsK_W ∧ r ∉ opsL_W ∧ r ∉ opsM_W ∧ r ∉ opsN_W := by
    simpa only [List.mem_append, not_or, and_assoc] using hr
  obtain ⟨hK, hL, hM, hN⟩ := hr'
  simp only [stage3, StableHlo.after_append]
  rw [opsN_keep _ hN, opsM_keep _ hM, opsL_keep _ hL, opsK_keep _ hK]

/-! ## The gates and the candidate, closed in the arguments -/

/-- The reset gate after the first two stages, as a function of the arguments: the second stage reads the edge
    data and [X | H] the first stage left, and its own weights and bias, which the first stage does not write. -/
theorem c2_v218 (V : Valuation τ sig (Elt F)) :
    after stage2 (after stage1 V) (Proc.devRef .tc main_v218) = rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg5)) (V (Proc.devRef .tc main_arg6))) := by
  rw [s2_v218, s1_v40, s1_v30, s1_v39, s1_v1, s1_v3,
    stage1_keep (r := main_arg5) V (by decide), stage1_keep (r := main_arg6) V (by decide)]

/-- The candidate after the three stages, as a function of the arguments. -/
theorem c3_v304 (V : Valuation τ sig (Elt F)) :
    after stage3 (after stage2 (after stage1 V)) (Proc.devRef .tc main_v304) = Host.tanh (rconv (cat2 (V (Proc.devRef .tc main_arg0)) (mulf (V (Proc.devRef .tc main_arg2)) (rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg5)) (V (Proc.devRef .tc main_arg6)))))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg7)) (V (Proc.devRef .tc main_arg8))) := by
  rw [s3_v304, c2_v218,
    stage2_keep (r := main_arg0) _ (by decide), stage1_keep (r := main_arg0) _ (by decide),
    stage2_keep (r := main_arg2) _ (by decide), stage1_keep (r := main_arg2) _ (by decide),
    stage2_keep (r := main_arg7) _ (by decide), stage1_keep (r := main_arg7) _ (by decide),
    stage2_keep (r := main_arg8) _ (by decide), stage1_keep (r := main_arg8) _ (by decide),
    stage2_keep (r := main_v30) _ (by decide), s1_v30, stage2_keep (r := main_v39) _ (by decide), s1_v39,
    stage2_keep (r := main_v1) _ (by decide), s1_v1, stage2_keep (r := main_v3) _ (by decide), s1_v3]

/-- The update gate after the three stages: the first stage's, which the other two do not write. -/
theorem c3_v129 (V : Valuation τ sig (Elt F)) :
    after stage3 (after stage2 (after stage1 V)) (Proc.devRef .tc main_v129) = rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg3)) (V (Proc.devRef .tc main_arg4))) := by
  rw [stage3_keep (r := main_v129) _ (by decide), stage2_keep (r := main_v129) _ (by decide), s1_v129]

/-- The old state after the three stages: as launched. -/
theorem c3_arg2 (V : Valuation τ sig (Elt F)) :
    after stage3 (after stage2 (after stage1 V)) (Proc.devRef .tc main_arg2) = V (Proc.devRef .tc main_arg2) := by
  rw [stage3_keep (r := main_arg2) _ (by decide), stage2_keep (r := main_arg2) _ (by decide),
    stage1_keep (r := main_arg2) _ (by decide)]

/-! ## The result -/

/-- What the reference leaves in its result buffer, as a function of its nine arguments: the replacement of the
    entries that are not numbers, applied to Z ⊙ H + (1 − Z) ⊙ tanh (candidate pre-activation), with Z and the
    reset gate R the logistic function of their convolutions of [X | H], and the candidate's convolution that of
    [X | H ⊙ R]. -/
theorem ref_value (V : Valuation τ sig (Elt F)) :
    after ops V (Proc.devRef .tc main_v312)
      = rnanfill (rupdate (rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg3)) (V (Proc.devRef .tc main_arg4)))) (V (Proc.devRef .tc main_arg2))
          (rconv (cat2 (V (Proc.devRef .tc main_arg0)) (mulf (V (Proc.devRef .tc main_arg2)) (rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg5)) (V (Proc.devRef .tc main_arg6)))))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg7)) (V (Proc.devRef .tc main_arg8)))) := by
  rw [ops_stages, StableHlo.after_append (stage1 ++ stage2 ++ stage3) (opsO ++ opsP ++ opsQ),
    StableHlo.after_append (stage1 ++ stage2) stage3, StableHlo.after_append stage1 stage2, tail_eq,
    c3_v304, c3_v129, c3_arg2]
  rfl

/-- At the extended reals the replacement changes nothing: the result is the convex combination itself. -/
theorem ref_value_ideal (V : Valuation τ sig (Elt Ideal)) :
    after ops V (Proc.devRef .tc main_v312)
      = rupdate (rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg3)) (V (Proc.devRef .tc main_arg4)))) (V (Proc.devRef .tc main_arg2))
          (rconv (cat2 (V (Proc.devRef .tc main_arg0)) (mulf (V (Proc.devRef .tc main_arg2)) (rgate (rconv (cat2 (V (Proc.devRef .tc main_arg0)) (V (Proc.devRef .tc main_arg2))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg5)) (V (Proc.devRef .tc main_arg6)))))) (normOf (rowOf (V (Proc.devRef .tc main_arg1))) (rowOf (V (Proc.devRef .tc main_arg1)))) (normOf (colOf (V (Proc.devRef .tc main_arg1))) (rowOf (V (Proc.devRef .tc main_arg1)))) (rowOf (V (Proc.devRef .tc main_arg1))) (colOf (V (Proc.devRef .tc main_arg1))) (V (Proc.devRef .tc main_arg7)) (V (Proc.devRef .tc main_arg8))) := by
  rw [ref_value, rnanfill_ideal]

end Cert.ReferenceIdeal.HandValue

end
-- ==== Proof.LibSumSplit.lean ====
/-
  A finite sum over `Fin n`, where `n` is a sum of five extents, taken extent by extent: the terms at positions
  `0 ≤ d < n0`, then `n0 ≤ · < n0 + n1`, and so on, added left to right. This is what contracting over an axis made by
  laying five pieces end to end amounts to. It holds in any additive commutative monoid (only associativity of the sum
  is used), so on the extended reals it asks nothing of the terms: infinities are allowed.
-/
import Mathlib.Algebra.BigOperators.Fin

open scoped BigOperators

namespace Cert.SumSplit

variable {M : Type*} [AddCommMonoid M]

/-- Two extents: the sum over `Fin n`, `n = a + b`, is the sum of the first `a` terms plus the sum of the last `b`. -/
theorem sum_two {n : ℕ} (a b : ℕ) (h : a + b = n) (g : Fin n → M) :
    ∑ d, g d = (∑ d : Fin a, g ⟨d.val, by have := d.isLt; omega⟩) + ∑ d : Fin b, g ⟨a + d.val, by have := d.isLt; omega⟩ := by
  subst h
  rw [Fin.sum_univ_add]
  rfl

/-- Five extents, the partial sums added left to right. -/
theorem sum_five {n : ℕ} (n0 n1 n2 n3 n4 : ℕ) (h : n0 + n1 + n2 + n3 + n4 = n) (g : Fin n → M) :
    ∑ d, g d =
      (∑ d : Fin n0, g ⟨d.val, by have := d.isLt; omega⟩)
      + (∑ d : Fin n1, g ⟨n0 + d.val, by have := d.isLt; omega⟩)
      + (∑ d : Fin n2, g ⟨n0 + n1 + d.val, by have := d.isLt; omega⟩)
      + (∑ d : Fin n3, g ⟨n0 + n1 + n2 + d.val, by have := d.isLt; omega⟩)
      + (∑ d : Fin n4, g ⟨n0 + n1 + n2 + n3 + d.val, by have := d.isLt; omega⟩) := by
  rw [sum_two (n0 + n1 + n2 + n3) n4 h g,
    sum_two (n0 + n1 + n2) n3 rfl (fun d : Fin (n0 + n1 + n2 + n3) => g ⟨d.val, by have := d.isLt; omega⟩),
    sum_two (n0 + n1) n2 rfl (fun d : Fin (n0 + n1 + n2) => g ⟨d.val, by have := d.isLt; omega⟩),
    sum_two n0 n1 rfl (fun d : Fin (n0 + n1) => g ⟨d.val, by have := d.isLt; omega⟩)]

end Cert.SumSplit
-- ==== Proof.IdealStacked.lean ====
/-
  A matrix product against stacked operands is a sum of smaller products.

  The gate layer multiplies X, five [50000,128] arrays laid side by side (a [50000,640] array), by W, two [640,64] arrays
  side by side, each of them five [128,64] arrays stacked along the rows, and adds a bias row made of two [64] vectors end
  to end. Entry (n, c) of the result is a sum over 640 positions. Position 128 p + r of row n of X is entry (n, r) of
  piece p, and row 128 p + r of a stack is row r of its piece p, so the sum is the five sums over 128 positions of the
  pieces' products; column c of W lies in the first stack for c below 64 and in the second from 64 on, and the bias row
  likewise. The update layer is the same with one stack and one bias vector.

  The entries are extended reals, where addition is associative and commutative with no side condition, so the sum
  regroups whatever the entries are: infinities are allowed.

  Contents: the operands read at an entry (x_piece0 … x_piece4, w_piece0 … w_piece4, ww_left, ww_right, bb_left,
  bb_right, b_row); the row-against-column sum cut in five (row_dot); the three layers (stacked_z, stacked_r,
  stacked_h, and stacked_z_at, stacked_r_at for a column given with its equation); the two halves of a [50000,128]
  array (slice_lo, slice_hi).
-/
import proofs.«157260_j76725295776119_1_alg».proof.KernelIdeal
import proofs.«157260_j76725295776119_1_alg».proof.Proof.LibSumSplit
import Idealize.ShloMosaic.Lib.ValueIdx
import Idealize.ShloMosaic.Lib.Pipeline.Value
import Idealize.ShloMosaic.Lib.ValueLayout
import Idealize.ShloMosaic.PureOps.Ideal

noncomputable section

namespace Cert.KernelIdeal.HandStacked

open Idealize.ShloMosaic Idealize.ShloMosaic.ValueIdx
open Cert.KernelIdeal
open scoped BigOperators

variable [Facts₀]
open Facts₀
/-! ## The stacked operands

Scoped notations, each unfolding to the operation spelled out in full; a statement below mentions no notation once
elaborated. -/

set_option quotPrecheck false

/-- Five [50000,128] arrays laid side by side along the columns: a [50000,640] array. -/
scoped notation "𝐗⟦" T0 ", " T1 ", " T2 ", " T3 ", " T4 "⟧" =>
  concatenate S50000x640 1 [⟨S50000x128, T0⟩, ⟨S50000x128, T1⟩, ⟨S50000x128, T2⟩, ⟨S50000x128, T3⟩, ⟨S50000x128, T4⟩]
    concatenates_S50000x128_S50000x128_S50000x128_S50000x128_S50000x128_S50000x640_d1

/-- Five [128,64] arrays stacked along the rows: a [640,64] array. -/
scoped notation "𝐖⟦" A0 ", " A1 ", " A2 ", " A3 ", " A4 "⟧" =>
  concatenate S640x64 0 [⟨S128x64, A0⟩, ⟨S128x64, A1⟩, ⟨S128x64, A2⟩, ⟨S128x64, A3⟩, ⟨S128x64, A4⟩]
    concatenates_S128x64_S128x64_S128x64_S128x64_S128x64_S640x64_d0

/-- Two [640,64] arrays side by side along the columns: a [640,128] array. -/
scoped notation "𝐖𝐖⟦" a ", " b "⟧" =>
  concatenate S640x128 1 [⟨S640x64, a⟩, ⟨S640x64, b⟩] concatenates_S640x64_S640x64_S640x128_d1

/-- Two [64] vectors end to end, as one row [1,128]. -/
scoped notation "𝐛𝐛⟦" a ", " b "⟧" =>
  shapeCast S1x128 (concatenate S128 0 [⟨S64, a⟩, ⟨S64, b⟩] concatenates_S64_S64_S128_d0) shapeCasts_S128_S1x128

/-- A [64] vector as one row [1,64]. -/
scoped notation "𝐛⟦" a "⟧" => shapeCast S1x64 a shapeCasts_S64_S1x64

/-! ## Each stacked operand read at an entry -/

/-- Column r of the side-by-side array is column r of the first piece. -/
theorem x_piece0 (T0 T1 T2 T3 T4 : FVec Ideal S50000x128 .f32) (n : Fin 50000) (r : Fin 128) :
    𝐗⟦T0, T1, T2, T3, T4⟧ (ix2 n ⟨r.val, by have := r.isLt; omega⟩) = T0 (ix2 n r) :=
  concatenate_apply_piece (t := S50000x640) 1 [⟨S50000x128, T0⟩, ⟨S50000x128, T1⟩, ⟨S50000x128, T2⟩, ⟨S50000x128, T3⟩, ⟨S50000x128, T4⟩]
    _ _ 0 (by simp) S50000x128 T0 rfl rfl 0 rfl (ix2 n r)
    (fun b hb => by match b with | ⟨0, _⟩ => rfl | ⟨1, _⟩ => exact absurd rfl hb) (by show 0 + r.val = r.val; omega)

/-- Column 128 + r of the side-by-side array is column r of the second piece. -/
theorem x_piece1 (T0 T1 T2 T3 T4 : FVec Ideal S50000x128 .f32) (n : Fin 50000) (r : Fin 128) :
    𝐗⟦T0, T1, T2, T3, T4⟧ (ix2 n ⟨128 + r.val, by have := r.isLt; omega⟩) = T1 (ix2 n r) :=
  concatenate_apply_piece (t := S50000x640) 1 [⟨S50000x128, T0⟩, ⟨S50000x128, T1⟩, ⟨S50000x128, T2⟩, ⟨S50000x128, T3⟩, ⟨S50000x128, T4⟩]
    _ _ 1 (by simp) S50000x128 T1 rfl rfl 128 rfl (ix2 n r)
    (fun b hb => by match b with | ⟨0, _⟩ => rfl | ⟨1, _⟩ => exact absurd rfl hb) (by show 128 + r.val = 128 + r.val; rfl)

/-- Column 128 + 128 + r of the side-by-side array is column r of the third piece. -/
theorem x_piece2 (T0 T1 T2 T3 T4 : FVec Ideal S50000x128 .f32) (n : Fin 50000) (r : Fin 128) :
    𝐗⟦T0, T1, T2, T3, T4⟧ (ix2 n ⟨128 + 128 + r.val, by have := r.isLt; omega⟩) = T2 (ix2 n r) :=
  concatenate_apply_piece (t := S50000x640) 1 [⟨S50000x128, T0⟩, ⟨S50000x128, T1⟩, ⟨S50000x128, T2⟩, ⟨S50000x128, T3⟩, ⟨S50000x128, T4⟩]
    _ _ 2 (by simp) S50000x128 T2 rfl rfl 256 rfl (ix2 n r)
    (fun b hb => by match b with | ⟨0, _⟩ => rfl | ⟨1, _⟩ => exact absurd rfl hb) (by show 256 + r.val = 128 + 128 + r.val; omega)

/-- Column 128 + 128 + 128 + r of the side-by-side array is column r of the fourth piece. -/
theorem x_piece3 (T0 T1 T2 T3 T4 : FVec Ideal S50000x128 .f32) (n : Fin 50000) (r : Fin 128) :
    𝐗⟦T0, T1, T2, T3, T4⟧ (ix2 n ⟨128 + 128 + 128 + r.val, by have := r.isLt; omega⟩) = T3 (ix2 n r) :=
  concatenate_apply_piece (t := S50000x640) 1 [⟨S50000x128, T0⟩, ⟨S50000x128, T1⟩, ⟨S50000x128, T2⟩, ⟨S50000x128, T3⟩, ⟨S50000x128, T4⟩]
    _ _ 3 (by simp) S50000x128 T3 rfl rfl 384 rfl (ix2 n r)
    (fun b hb => by match b with | ⟨0, _⟩ => rfl | ⟨1, _⟩ => exact absurd rfl hb) (by show 384 + r.val = 128 + 128 + 128 + r.val; omega)

/-- Column 128 + 128 + 128 + 128 + r of the side-by-side array is column r of the fifth piece. -/
theorem x_piece4 (T0 T1 T2 T3 T4 : FVec Ideal S50000x128 .f32) (n : Fin 50000) (r : Fin 128) :
    𝐗⟦T0, T1, T2, T3, T4⟧ (ix2 n ⟨128 + 128 + 128 + 128 + r.val, by have := r.isLt; omega⟩) = T4 (ix2 n r) :=
  concatenate_apply_piece (t := S50000x640) 1 [⟨S50000x128, T0⟩, ⟨S50000x128, T1⟩, ⟨S50000x128, T2⟩, ⟨S50000x128, T3⟩, ⟨S50000x128, T4⟩]
    _ _ 4 (by simp) S50000x128 T4 rfl rfl 512 rfl (ix2 n r)
    (fun b hb => by match b with | ⟨0, _⟩ => rfl | ⟨1, _⟩ => exact absurd rfl hb) (by show 512 + r.val = 128 + 128 + 128 + 128 + r.val; omega)

/-- Row r of the stacked array is row r of the first piece. -/
theorem w_piece0 (A0 A1 A2 A3 A4 : FVec Ideal S128x64 .f32) (r : Fin 128) (j : Fin 64) :
    𝐖⟦A0, A1, A2, A3, A4⟧ (ix2 ⟨r.val, by have := r.isLt; omega⟩ j) = A0 (ix2 r j) :=
  concatenate_apply_piece (t := S640x64) 0 [⟨S128x64, A0⟩, ⟨S128x64, A1⟩, ⟨S128x64, A2⟩, ⟨S128x64, A3⟩, ⟨S128x64, A4⟩]
    _ _ 0 (by simp) S128x64 A0 rfl rfl 0 rfl (ix2 r j)
    (fun b hb => by match b with | ⟨0, _⟩ => exact absurd rfl hb | ⟨1, _⟩ => rfl) (by show 0 + r.val = r.val; omega)

/-- Row 128 + r of the stacked array is row r of the second piece. -/
theorem w_piece1 (A0 A1 A2 A3 A4 : FVec Ideal S128x64 .f32) (r : Fin 128) (j : Fin 64) :
    𝐖⟦A0, A1, A2, A3, A4⟧ (ix2 ⟨128 + r.val, by have := r.isLt; omega⟩ j) = A1 (ix2 r j) :=
  concatenate_apply_piece (t := S640x64) 0 [⟨S128x64, A0⟩, ⟨S128x64, A1⟩, ⟨S128x64, A2⟩, ⟨S128x64, A3⟩, ⟨S128x64, A4⟩]
    _ _ 1 (by simp) S128x64 A1 rfl rfl 128 rfl (ix2 r j)
    (fun b hb => by match b with | ⟨0, _⟩ => exact absurd rfl hb | ⟨1, _⟩ => rfl) (by show 128 + r.val = 128 + r.val; rfl)

/-- Row 128 + 128 + r of the stacked array is row r of the third piece. -/
theorem w_piece2 (A0 A1 A2 A3 A4 : FVec Ideal S128x64 .f32) (r : Fin 128) (j : Fin 64) :
    𝐖⟦A0, A1, A2, A3, A4⟧ (ix2 ⟨128 + 128 + r.val, by have := r.isLt; omega⟩ j) = A2 (ix2 r j) :=
  concatenate_apply_piece (t := S640x64) 0 [⟨S128x64, A0⟩, ⟨S128x64, A1⟩, ⟨S128x64, A2⟩, ⟨S128x64, A3⟩, ⟨S128x64, A4⟩]
    _ _ 2 (by simp) S128x64 A2 rfl rfl 256 rfl (ix2 r j)
    (fun b hb => by match b with | ⟨0, _⟩ => exact absurd rfl hb | ⟨1, _⟩ => rfl) (by show 256 + r.val = 128 + 128 + r.val; omega)

/-- Row 128 + 128 + 128 + r of the stacked array is row r of the fourth piece. -/
theorem w_piece3 (A0 A1 A2 A3 A4 : FVec Ideal S128x64 .f32) (r : Fin 128) (j : Fin 64) :
    𝐖⟦A0, A1, A2, A3, A4⟧ (ix2 ⟨128 + 128 + 128 + r.val, by have := r.isLt; omega⟩ j) = A3 (ix2 r j) :=
  concatenate_apply_piece (t := S640x64) 0 [⟨S128x64, A0⟩, ⟨S128x64, A1⟩, ⟨S128x64, A2⟩, ⟨S128x64, A3⟩, ⟨S128x64, A4⟩]
    _ _ 3 (by simp) S128x64 A3 rfl rfl 384 rfl (ix2 r j)
    (fun b hb => by match b with | ⟨0, _⟩ => exact absurd rfl hb | ⟨1, _⟩ => rfl) (by show 384 + r.val = 128 + 128 + 128 + r.val; omega)

/-- Row 128 + 128 + 128 + 128 + r of the stacked array is row r of the fifth piece. -/
theorem w_piece4 (A0 A1 A2 A3 A4 : FVec Ideal S128x64 .f32) (r : Fin 128) (j : Fin 64) :
    𝐖⟦A0, A1, A2, A3, A4⟧ (ix2 ⟨128 + 128 + 128 + 128 + r.val, by have := r.isLt; omega⟩ j) = A4 (ix2 r j) :=
  concatenate_apply_piece (t := S640x64) 0 [⟨S128x64, A0⟩, ⟨S128x64, A1⟩, ⟨S128x64, A2⟩, ⟨S128x64, A3⟩, ⟨S128x64, A4⟩]
    _ _ 4 (by simp) S128x64 A4 rfl rfl 512 rfl (ix2 r j)
    (fun b hb => by match b with | ⟨0, _⟩ => exact absurd rfl hb | ⟨1, _⟩ => rfl) (by show 512 + r.val = 128 + 128 + 128 + 128 + r.val; omega)

/-- Column j of two [640,64] arrays side by side is column j of the first. -/
theorem ww_left (wz wr : FVec Ideal S640x64 .f32) (k : Fin 640) (j : Fin 64) :
    𝐖𝐖⟦wz, wr⟧ (ix2 k ⟨j.val, by have := j.isLt; omega⟩) = wz (ix2 k j) :=
  concatenate_pair_apply_left (t := S640x128) 1 wz wr _ _ rfl (ix2 k j)
    (fun b => by match b with | ⟨0, _⟩ => rfl | ⟨1, _⟩ => rfl)

/-- Column 64 + j of the two side by side is column j of the second. -/
theorem ww_right (wz wr : FVec Ideal S640x64 .f32) (k : Fin 640) (j : Fin 64) :
    𝐖𝐖⟦wz, wr⟧ (ix2 k ⟨64 + j.val, by have := j.isLt; omega⟩) = wr (ix2 k j) :=
  concatenate_apply_piece (t := S640x128) 1 [⟨S640x64, wz⟩, ⟨S640x64, wr⟩]
    _ _ 1 (by simp) S640x64 wr rfl rfl 64 rfl (ix2 k j)
    (fun b hb => by match b with | ⟨0, _⟩ => rfl | ⟨1, _⟩ => exact absurd rfl hb) (by show 64 + j.val = 64 + j.val; rfl)

/-- Entry j of two [64] vectors end to end, as a row, is entry j of the first. -/
theorem bb_left (bz br : FVec Ideal S64 .f32) (j : Fin 64) :
    𝐛𝐛⟦bz, br⟧ (ix2 (0 : Fin 1) ⟨j.val, by have := j.isLt; omega⟩) = bz (ix1 j) :=
  (shapeCast_a_1a_apply _ _ 0 _).trans
    (concatenate_apply_piece (t := S128) 0 [⟨S64, bz⟩, ⟨S64, br⟩]
      _ _ 0 (by simp) S64 bz rfl rfl 0 rfl (ix1 j)
      (fun b hb => by match b with | ⟨0, _⟩ => exact absurd rfl hb) (by show 0 + j.val = j.val; omega))

/-- Entry 64 + j of the two end to end, as a row, is entry j of the second. -/
theorem bb_right (bz br : FVec Ideal S64 .f32) (j : Fin 64) :
    𝐛𝐛⟦bz, br⟧ (ix2 (0 : Fin 1) ⟨64 + j.val, by have := j.isLt; omega⟩) = br (ix1 j) :=
  (shapeCast_a_1a_apply _ _ 0 _).trans
    (concatenate_apply_piece (t := S128) 0 [⟨S64, bz⟩, ⟨S64, br⟩]
      _ _ 1 (by simp) S64 br rfl rfl 64 rfl (ix1 j)
      (fun b hb => by match b with | ⟨0, _⟩ => exact absurd rfl hb) (by show 64 + j.val = 64 + j.val; rfl))

/-- Entry j of a [64] vector as a row is its entry j. -/
theorem b_row (bh : FVec Ideal S64 .f32) (j : Fin 64) : 𝐛⟦bh⟧ (ix2 (0 : Fin 1) j) = bh (ix1 j) :=
  shapeCast_a_1a_apply _ _ 0 _

/-! ## A row of the side-by-side array against a column read piece by piece

The contraction runs over 640 positions, 128 per piece. Cutting the sum into the five runs of 128 and reading each factor
in its piece gives the five smaller products, added left to right. -/

/-- Row n of the five pieces side by side, times a column v of 640 entries whose run p reads a_p: the five partial
    products, added left to right. -/
theorem row_dot (T0 T1 T2 T3 T4 : FVec Ideal S50000x128 .f32) (n : Fin 50000) (v : Fin 640 → Ideal .f32)
    (a0 a1 a2 a3 a4 : Fin 128 → Ideal .f32)
    (h0 : ∀ r : Fin 128, v ⟨r.val, by have := r.isLt; omega⟩ = a0 r)
    (h1 : ∀ r : Fin 128, v ⟨128 + r.val, by have := r.isLt; omega⟩ = a1 r)
    (h2 : ∀ r : Fin 128, v ⟨128 + 128 + r.val, by have := r.isLt; omega⟩ = a2 r)
    (h3 : ∀ r : Fin 128, v ⟨128 + 128 + 128 + r.val, by have := r.isLt; omega⟩ = a3 r)
    (h4 : ∀ r : Fin 128, v ⟨128 + 128 + 128 + 128 + r.val, by have := r.isLt; omega⟩ = a4 r) :
    ∑ k : Fin 640, 𝐗⟦T0, T1, T2, T3, T4⟧ (ix2 n k) * v k
      = ((((∑ r : Fin 128, T0 (ix2 n r) * a0 r) + ∑ r : Fin 128, T1 (ix2 n r) * a1 r) + ∑ r : Fin 128, T2 (ix2 n r) * a2 r)
          + ∑ r : Fin 128, T3 (ix2 n r) * a3 r) + ∑ r : Fin 128, T4 (ix2 n r) * a4 r := by
  rw [Cert.SumSplit.sum_five 128 128 128 128 128 rfl]
  refine congrArg₂ (· + ·) (congrArg₂ (· + ·) (congrArg₂ (· + ·) (congrArg₂ (· + ·) ?_ ?_) ?_) ?_) ?_ <;>
    refine Finset.sum_congr rfl (fun r _ => ?_)
  · exact congrArg₂ (· * ·) (x_piece0 T0 T1 T2 T3 T4 n r) (h0 r)
  · exact congrArg₂ (· * ·) (x_piece1 T0 T1 T2 T3 T4 n r) (h1 r)
  · exact congrArg₂ (· * ·) (x_piece2 T0 T1 T2 T3 T4 n r) (h2 r)
  · exact congrArg₂ (· * ·) (x_piece3 T0 T1 T2 T3 T4 n r) (h3 r)
  · exact congrArg₂ (· * ·) (x_piece4 T0 T1 T2 T3 T4 n r) (h4 r)

/-! ## The three stacked layers -/

/-- Column j of the first half of the stacked product, bias added: the five products against the first stack, plus the
    first bias vector's entry j. -/
theorem stacked_z (T0 T1 T2 T3 T4 : FVec Ideal S50000x128 .f32) (A0 A1 A2 A3 A4 B0 B1 B2 B3 B4 : FVec Ideal S128x64 .f32)
    (bz br : FVec Ideal S64 .f32) (n : Fin 50000) (j : Fin 64) :
    (∑ k : Fin 640, 𝐗⟦T0, T1, T2, T3, T4⟧ (ix2 n k) * 𝐖𝐖⟦𝐖⟦A0, A1, A2, A3, A4⟧, 𝐖⟦B0, B1, B2, B3, B4⟧⟧ (ix2 k ⟨j.val, by have := j.isLt; omega⟩))
      + 𝐛𝐛⟦bz, br⟧ (ix2 (0 : Fin 1) ⟨j.val, by have := j.isLt; omega⟩)
    = (((((∑ r : Fin 128, T0 (ix2 n r) * A0 (ix2 r j)) + ∑ r : Fin 128, T1 (ix2 n r) * A1 (ix2 r j))
          + ∑ r : Fin 128, T2 (ix2 n r) * A2 (ix2 r j)) + ∑ r : Fin 128, T3 (ix2 n r) * A3 (ix2 r j))
          + ∑ r : Fin 128, T4 (ix2 n r) * A4 (ix2 r j)) + bz (ix1 j) :=
  congrArg₂ (· + ·)
    (row_dot T0 T1 T2 T3 T4 n (fun k => 𝐖𝐖⟦𝐖⟦A0, A1, A2, A3, A4⟧, 𝐖⟦B0, B1, B2, B3, B4⟧⟧ (ix2 k ⟨j.val, by have := j.isLt; omega⟩))
      (fun r => A0 (ix2 r j)) (fun r => A1 (ix2 r j)) (fun r => A2 (ix2 r j)) (fun r => A3 (ix2 r j)) (fun r => A4 (ix2 r j))
      (fun r => (ww_left _ _ _ j).trans (w_piece0 A0 A1 A2 A3 A4 r j))
      (fun r => (ww_left _ _ _ j).trans (w_piece1 A0 A1 A2 A3 A4 r j))
      (fun r => (ww_left _ _ _ j).trans (w_piece2 A0 A1 A2 A3 A4 r j))
      (fun r => (ww_left _ _ _ j).trans (w_piece3 A0 A1 A2 A3 A4 r j))
      (fun r => (ww_left _ _ _ j).trans (w_piece4 A0 A1 A2 A3 A4 r j)))
    (bb_left bz br j)

/-- Column 64 + j, in the second half: the five products against the second stack, plus the second bias vector's
    entry j. -/
theorem stacked_r (T0 T1 T2 T3 T4 : FVec Ideal S50000x128 .f32) (A0 A1 A2 A3 A4 B0 B1 B2 B3 B4 : FVec Ideal S128x64 .f32)
    (bz br : FVec Ideal S64 .f32) (n : Fin 50000) (j : Fin 64) :
    (∑ k : Fin 640, 𝐗⟦T0, T1, T2, T3, T4⟧ (ix2 n k) * 𝐖𝐖⟦𝐖⟦A0, A1, A2, A3, A4⟧, 𝐖⟦B0, B1, B2, B3, B4⟧⟧ (ix2 k ⟨64 + j.val, by have := j.isLt; omega⟩))
      + 𝐛𝐛⟦bz, br⟧ (ix2 (0 : Fin 1) ⟨64 + j.val, by have := j.isLt; omega⟩)
    = (((((∑ r : Fin 128, T0 (ix2 n r) * B0 (ix2 r j)) + ∑ r : Fin 128, T1 (ix2 n r) * B1 (ix2 r j))
          + ∑ r : Fin 128, T2 (ix2 n r) * B2 (ix2 r j)) + ∑ r : Fin 128, T3 (ix2 n r) * B3 (ix2 r j))
          + ∑ r : Fin 128, T4 (ix2 n r) * B4 (ix2 r j)) + br (ix1 j) :=
  congrArg₂ (· + ·)
    (row_dot T0 T1 T2 T3 T4 n (fun k => 𝐖𝐖⟦𝐖⟦A0, A1, A2, A3, A4⟧, 𝐖⟦B0, B1, B2, B3, B4⟧⟧ (ix2 k ⟨64 + j.val, by have := j.isLt; omega⟩))
      (fun r => B0 (ix2 r j)) (fun r => B1 (ix2 r j)) (fun r => B2 (ix2 r j)) (fun r => B3 (ix2 r j)) (fun r => B4 (ix2 r j))
      (fun r => (ww_right _ _ _ j).trans (w_piece0 B0 B1 B2 B3 B4 r j))
      (fun r => (ww_right _ _ _ j).trans (w_piece1 B0 B1 B2 B3 B4 r j))
      (fun r => (ww_right _ _ _ j).trans (w_piece2 B0 B1 B2 B3 B4 r j))
      (fun r => (ww_right _ _ _ j).trans (w_piece3 B0 B1 B2 B3 B4 r j))
      (fun r => (ww_right _ _ _ j).trans (w_piece4 B0 B1 B2 B3 B4 r j)))
    (bb_right bz br j)

/-- The first half at a column c of the [640,128] operand given with its equation c = j. -/
theorem stacked_z_at (T0 T1 T2 T3 T4 : FVec Ideal S50000x128 .f32) (A0 A1 A2 A3 A4 B0 B1 B2 B3 B4 : FVec Ideal S128x64 .f32)
    (bz br : FVec Ideal S64 .f32) (n : Fin 50000) (c : Fin 128) (j : Fin 64) (hc : c.val = j.val) :
    (∑ k : Fin 640, 𝐗⟦T0, T1, T2, T3, T4⟧ (ix2 n k) * 𝐖𝐖⟦𝐖⟦A0, A1, A2, A3, A4⟧, 𝐖⟦B0, B1, B2, B3, B4⟧⟧ (ix2 k c)) + 𝐛𝐛⟦bz, br⟧ (ix2 (0 : Fin 1) c)
    = (((((∑ r : Fin 128, T0 (ix2 n r) * A0 (ix2 r j)) + ∑ r : Fin 128, T1 (ix2 n r) * A1 (ix2 r j))
          + ∑ r : Fin 128, T2 (ix2 n r) * A2 (ix2 r j)) + ∑ r : Fin 128, T3 (ix2 n r) * A3 (ix2 r j))
          + ∑ r : Fin 128, T4 (ix2 n r) * A4 (ix2 r j)) + bz (ix1 j) := by
  obtain rfl : c = ⟨j.val, Nat.lt_of_lt_of_le j.isLt (by decide)⟩ := Fin.ext hc
  exact stacked_z T0 T1 T2 T3 T4 A0 A1 A2 A3 A4 B0 B1 B2 B3 B4 bz br n j

/-- The second half at a column c given with its equation c = 64 + j. -/
theorem stacked_r_at (T0 T1 T2 T3 T4 : FVec Ideal S50000x128 .f32) (A0 A1 A2 A3 A4 B0 B1 B2 B3 B4 : FVec Ideal S128x64 .f32)
    (bz br : FVec Ideal S64 .f32) (n : Fin 50000) (c : Fin 128) (j : Fin 64) (hc : c.val = 64 + j.val) :
    (∑ k : Fin 640, 𝐗⟦T0, T1, T2, T3, T4⟧ (ix2 n k) * 𝐖𝐖⟦𝐖⟦A0, A1, A2, A3, A4⟧, 𝐖⟦B0, B1, B2, B3, B4⟧⟧ (ix2 k c)) + 𝐛𝐛⟦bz, br⟧ (ix2 (0 : Fin 1) c)
    = (((((∑ r : Fin 128, T0 (ix2 n r) * B0 (ix2 r j)) + ∑ r : Fin 128, T1 (ix2 n r) * B1 (ix2 r j))
          + ∑ r : Fin 128, T2 (ix2 n r) * B2 (ix2 r j)) + ∑ r : Fin 128, T3 (ix2 n r) * B3 (ix2 r j))
          + ∑ r : Fin 128, T4 (ix2 n r) * B4 (ix2 r j)) + br (ix1 j) := by
  obtain rfl : c = ⟨64 + j.val, Nat.add_lt_add_left j.isLt 64⟩ := Fin.ext hc
  exact stacked_r T0 T1 T2 T3 T4 A0 A1 A2 A3 A4 B0 B1 B2 B3 B4 bz br n j

/-- The update layer: one stack of five, one bias vector as a row. -/
theorem stacked_h (T0 T1 T2 T3 T4 : FVec Ideal S50000x128 .f32) (A0 A1 A2 A3 A4 : FVec Ideal S128x64 .f32)
    (bh : FVec Ideal S64 .f32) (n : Fin 50000) (j : Fin 64) :
    (∑ k : Fin 640, 𝐗⟦T0, T1, T2, T3, T4⟧ (ix2 n k) * 𝐖⟦A0, A1, A2, A3, A4⟧ (ix2 k j)) + 𝐛⟦bh⟧ (ix2 (0 : Fin 1) j)
    = (((((∑ r : Fin 128, T0 (ix2 n r) * A0 (ix2 r j)) + ∑ r : Fin 128, T1 (ix2 n r) * A1 (ix2 r j))
          + ∑ r : Fin 128, T2 (ix2 n r) * A2 (ix2 r j)) + ∑ r : Fin 128, T3 (ix2 n r) * A3 (ix2 r j))
          + ∑ r : Fin 128, T4 (ix2 n r) * A4 (ix2 r j)) + bh (ix1 j) :=
  congrArg₂ (· + ·)
    (row_dot T0 T1 T2 T3 T4 n (fun k => 𝐖⟦A0, A1, A2, A3, A4⟧ (ix2 k j))
      (fun r => A0 (ix2 r j)) (fun r => A1 (ix2 r j)) (fun r => A2 (ix2 r j)) (fun r => A3 (ix2 r j)) (fun r => A4 (ix2 r j))
      (fun r => w_piece0 A0 A1 A2 A3 A4 r j) (fun r => w_piece1 A0 A1 A2 A3 A4 r j) (fun r => w_piece2 A0 A1 A2 A3 A4 r j)
      (fun r => w_piece3 A0 A1 A2 A3 A4 r j) (fun r => w_piece4 A0 A1 A2 A3 A4 r j))
    (b_row bh j)

/-! ## The two halves of the gate layer's result -/

/-- The first 64 columns of a [50000,128] array, at (n, j): the array at (n, j). -/
theorem slice_lo (y : FVec Ideal S50000x128 .f32) (n : Fin 50000) (j : Fin 64) :
    extractStridedSlice S50000x64 ![0, 0] y slices_S50000x128_S50000x64_0_0 (ix2 n j)
      = y (ix2 n ⟨j.val, by have := j.isLt; omega⟩) :=
  slice2_axis1_apply 0 y _ n j _ (Nat.zero_add _).symm

/-- The last 64 columns, at (n, j): the array at (n, 64 + j). -/
theorem slice_hi (y : FVec Ideal S50000x128 .f32) (n : Fin 50000) (j : Fin 64) :
    extractStridedSlice S50000x64 ![0, 64] y slices_S50000x128_S50000x64_0_64 (ix2 n j)
      = y (ix2 n ⟨64 + j.val, by have := j.isLt; omega⟩) :=
  slice2_axis1_apply 64 y _ n j _ rfl

end Cert.KernelIdeal.HandStacked
-- ==== Proof.RefRead.lean ====
/-
  The reference's gate and update expressions read at an entry, over the extended reals.

  A gate's argument is five [50000,128] x [128,64] products added left to right, plus a bias vector of 64 entries
  broadcast first to one row and then down the 50000 rows: entry (n, j) is the five sums over 128 positions plus
  entry j of the bias. The gate itself is one over (one plus the exponential of the negated argument), entry by
  entry, which over the extended reals is by definition the logistic function. The update is
  z * h + (1 - z) * tanh (argument), entry by entry.
-/
import proofs.«157260_j76725295776119_1_alg».proof.Proof.Gen.ReferenceIdeal
import proofs.«157260_j76725295776119_1_alg».proof.Proof.LibMatProd
import Idealize.ShloMosaic.Lib.ValueIdx
import Idealize.ShloMosaic.Lib.IdealHost
import Idealize.ShloMosaic.Lib.Pipeline.Value
import Idealize.ShloMosaic.PureOps.Ideal

noncomputable section

namespace Cert.ReferenceIdeal.HandRead

open Cert.ReferenceIdeal Cert.ReferenceIdeal.Facts₀ Cert.ReferenceIdeal.Facts
open Idealize.ShloMosaic Idealize.ShloMosaic.ValueIdx
open scoped BigOperators

variable [Facts₀]

/-! ## One product, and the bias, at an entry -/

/-- The contraction the five products share is the plain one: the left operand's columns against the right operand's
    rows. -/
theorem dot_eq_plain : dot_S50000x128_S128x64_S50000x64_1_0_0_1_n_n = DotDims.plain 50000 128 64 := rfl

/-- One [50000,128] x [128,64] product at (n, j): the sum over the 128 positions. -/
theorem ref_dot (T : FVec Ideal S50000x128 .f32) (A : FVec Ideal S128x64 .f32) (n : Fin 50000) (j : Fin 64) :
    Host.dotGeneral (F := Ideal) dot_S50000x128_S128x64_S50000x64_1_0_0_1_n_n none T A (ix2 n j) = ∑ r : Fin 128, T (ix2 n r) * A (ix2 r j) :=
  Cert.MatProd.dotGeneral_plain_apply none .single T A n j

/-- A [64] vector broadcast to one row, then down the rows, at (n, j): its entry j. -/
theorem ref_bias (b : FVec Ideal S64 .f32) (n : Fin 50000) (j : Fin 64) :
    broadcastInDim S50000x64 ![0, 1] bcast_S1x64_S50000x64_0_1 (broadcastInDim S1x64 ![1] bcast_S64_S1x64_1 b) (ix2 n j)
      = b (ix1 j) :=
  (broadcastInDim_apply _ _ _ (ix2 n j) (ix2 (0 : Fin 1) j)
      (fun a => by match a with | ⟨0, _⟩ => rfl | ⟨1, _⟩ => rfl)).trans
    (broadcastInDim_apply _ _ _ (ix2 (0 : Fin 1) j) (ix1 j) (fun a => by match a with | ⟨0, _⟩ => rfl))

/-- The constant one broadcast to [50000,64], at any entry: the literal read as an extended real. -/
theorem ref_one (i : S50000x64.Idx) :
    (broadcastInDim S50000x64 ![] bcast_S_S50000x64 (constant (F := Ideal) S_ .f32 0x3F800000#32)) i = Ideal.ofBits .f32 0x3F800000#32 :=
  (broadcastInDim_scalar_apply _ _ i).trans (constant_apply _ _)

/-! ## The three expressions -/

/-- A gate's argument at (n, j): the five products added left to right, plus the bias. -/
theorem ref_pre (T0 T1 T2 T3 T4 : FVec Ideal S50000x128 .f32) (A0 A1 A2 A3 A4 : FVec Ideal S128x64 .f32)
    (b : FVec Ideal S64 .f32) (n : Fin 50000) (j : Fin 64) :
    addf (addf (addf (addf (addf (Host.dotGeneral (F := Ideal) dot_S50000x128_S128x64_S50000x64_1_0_0_1_n_n none T0 A0) (Host.dotGeneral (F := Ideal) dot_S50000x128_S128x64_S50000x64_1_0_0_1_n_n none T1 A1))
        (Host.dotGeneral (F := Ideal) dot_S50000x128_S128x64_S50000x64_1_0_0_1_n_n none T2 A2)) (Host.dotGeneral (F := Ideal) dot_S50000x128_S128x64_S50000x64_1_0_0_1_n_n none T3 A3)) (Host.dotGeneral (F := Ideal) dot_S50000x128_S128x64_S50000x64_1_0_0_1_n_n none T4 A4))
      (broadcastInDim S50000x64 ![0, 1] bcast_S1x64_S50000x64_0_1 (broadcastInDim S1x64 ![1] bcast_S64_S1x64_1 b)) (ix2 n j)
    = (((((∑ r : Fin 128, T0 (ix2 n r) * A0 (ix2 r j)) + ∑ r : Fin 128, T1 (ix2 n r) * A1 (ix2 r j))
          + ∑ r : Fin 128, T2 (ix2 n r) * A2 (ix2 r j)) + ∑ r : Fin 128, T3 (ix2 n r) * A3 (ix2 r j))
          + ∑ r : Fin 128, T4 (ix2 n r) * A4 (ix2 r j)) + b (ix1 j) := by
  show (((((Host.dotGeneral (F := Ideal) dot_S50000x128_S128x64_S50000x64_1_0_0_1_n_n none T0 A0) (ix2 n j) + (Host.dotGeneral (F := Ideal) dot_S50000x128_S128x64_S50000x64_1_0_0_1_n_n none T1 A1) (ix2 n j)) + (Host.dotGeneral (F := Ideal) dot_S50000x128_S128x64_S50000x64_1_0_0_1_n_n none T2 A2) (ix2 n j))
      + (Host.dotGeneral (F := Ideal) dot_S50000x128_S128x64_S50000x64_1_0_0_1_n_n none T3 A3) (ix2 n j)) + (Host.dotGeneral (F := Ideal) dot_S50000x128_S128x64_S50000x64_1_0_0_1_n_n none T4 A4) (ix2 n j))
      + broadcastInDim S50000x64 ![0, 1] bcast_S1x64_S50000x64_0_1 (broadcastInDim S1x64 ![1] bcast_S64_S1x64_1 b) (ix2 n j) = _
  rw [ref_dot, ref_dot, ref_dot, ref_dot, ref_dot, ref_bias]

/-- The gate at any entry: one over (one plus the exponential of the negated argument) is the logistic function of the
    argument. -/
theorem ref_gate_at (PRE : FVec Ideal S50000x64 .f32) (i : S50000x64.Idx) :
    Host.divf (F := Ideal) (broadcastInDim S50000x64 ![] bcast_S_S50000x64 (constant (F := Ideal) S_ .f32 0x3F800000#32)) (addf (broadcastInDim S50000x64 ![] bcast_S_S50000x64 (constant (F := Ideal) S_ .f32 0x3F800000#32)) (Host.exp (F := Ideal) (Host.negf (F := Ideal) PRE))) i
      = Ideal.logistic (PRE i) := by
  show Ideal.div ((broadcastInDim S50000x64 ![] bcast_S_S50000x64 (constant (F := Ideal) S_ .f32 0x3F800000#32)) i) ((broadcastInDim S50000x64 ![] bcast_S_S50000x64 (constant (F := Ideal) S_ .f32 0x3F800000#32)) i + Ideal.exp (-(PRE i))) = Ideal.div 1 (1 + Ideal.exp (-(PRE i)))
  rw [ref_one, Ideal.ofBits_one_f32]

/-- The gate at (n, j). -/
theorem ref_gate (PRE : FVec Ideal S50000x64 .f32) (n : Fin 50000) (j : Fin 64) :
    Host.divf (F := Ideal) (broadcastInDim S50000x64 ![] bcast_S_S50000x64 (constant (F := Ideal) S_ .f32 0x3F800000#32)) (addf (broadcastInDim S50000x64 ![] bcast_S_S50000x64 (constant (F := Ideal) S_ .f32 0x3F800000#32)) (Host.exp (F := Ideal) (Host.negf (F := Ideal) PRE))) (ix2 n j)
      = Ideal.logistic (PRE (ix2 n j)) :=
  ref_gate_at PRE (ix2 n j)

/-- The update at any entry: z * h + (1 - z) * tanh (argument), the one kept as its literal. -/
theorem ref_update_at (Z H PRE : FVec Ideal S50000x64 .f32) (i : S50000x64.Idx) :
    addf (mulf Z H) (mulf (subf (broadcastInDim S50000x64 ![] bcast_S_S50000x64 (constant (F := Ideal) S_ .f32 0x3F800000#32)) Z) (Host.tanh (F := Ideal) PRE)) i
      = Z i * H i + (Ideal.ofBits .f32 0x3F800000#32 - Z i) * Ideal.tanh (PRE i) := by
  show Z i * H i + ((broadcastInDim S50000x64 ![] bcast_S_S50000x64 (constant (F := Ideal) S_ .f32 0x3F800000#32)) i - Z i) * Ideal.tanh (PRE i) = _
  rw [ref_one]

/-- The update at (n, j). -/
theorem ref_update (Z H PRE : FVec Ideal S50000x64 .f32) (n : Fin 50000) (j : Fin 64) :
    addf (mulf Z H) (mulf (subf (broadcastInDim S50000x64 ![] bcast_S_S50000x64 (constant (F := Ideal) S_ .f32 0x3F800000#32)) Z) (Host.tanh (F := Ideal) PRE)) (ix2 n j)
      = Z (ix2 n j) * H (ix2 n j) + (Ideal.ofBits .f32 0x3F800000#32 - Z (ix2 n j)) * Ideal.tanh (PRE (ix2 n j)) :=
  ref_update_at Z H PRE (ix2 n j)

end Cert.ReferenceIdeal.HandRead
-- ==== Proof.BridgeLayers.lean ====
/-
  The kernel's two layers and the reference's, as equal arrays.

  The kernel's gate layer is the logistic function of (the five terms side by side, times the two stacks of five weight
  blocks side by side, plus the two bias vectors end to end), a [50000,128] array whose left half is the first gate and
  whose right half the second. The reference computes each gate as the logistic function, written out as
  1 / (1 + exp (-p)), of p = five separate products added left to right plus the bias down the rows. Entry by entry the
  two arguments are the same extended real: a sum over 640 positions is the five sums over 128 positions, and the
  column of the stacked weights and the bias entry are read in their pieces. The update layer is the same with one stack:
  z * h + (1 - z) * tanh p on both sides. Sums of extended reals regroup with no side condition.
-/
import proofs.«157260_j76725295776119_1_alg».proof.Proof.IdealPayload
import proofs.«157260_j76725295776119_1_alg».proof.Proof.Spec
import proofs.«157260_j76725295776119_1_alg».proof.Proof.RefSpec
import proofs.«157260_j76725295776119_1_alg».proof.Proof.IdealStacked
import proofs.«157260_j76725295776119_1_alg».proof.Proof.RefRead

noncomputable section

namespace Cert.Bridge

open Idealize.ShloMosaic Idealize.ShloMosaic.ValueIdx
open Cert.KernelIdeal (S50000x128 S128x64 S64 S50000x64)
open Cert.KernelIdeal.Spec (Cn halfLo halfHi cat5 stack5 wpair brow128 brow64)
open Cert.KernelIdeal.HandValue (G0 G1)
open Cert.KernelIdeal.HandStacked (stacked_z stacked_r stacked_h slice_lo slice_hi)
open Cert.ReferenceIdeal.HandValue (rgate rpre rupdate)
open Cert.ReferenceIdeal.HandRead (ref_pre ref_gate ref_update)
open scoped BigOperators

/-- The left half of the kernel's gate layer is the reference's first gate. -/
theorem gate_z_eq (T0 T1 T2 T3 T4 : Cn Ideal S50000x128 .f32) (Az0 Az1 Az2 Az3 Az4 Ar0 Ar1 Ar2 Ar3 Ar4 : Cn Ideal S128x64 .f32)
    (bz br : Cn Ideal S64 .f32) :
    halfLo (G0 (cat5 T0 T1 T2 T3 T4) (wpair (stack5 Az0 Az1 Az2 Az3 Az4) (stack5 Ar0 Ar1 Ar2 Ar3 Ar4))
        (brow128 bz br))
      = rgate (rpre T0 T1 T2 T3 T4 Az0 Az1 Az2 Az3 Az4 bz) := by
  funext i
  obtain ⟨n, j, rfl⟩ : ∃ (n : Fin 50000) (j : Fin 64), i = ix2 n j := ⟨i 0, i 1, eq_ix2 i⟩
  exact (slice_lo _ n j).trans
    ((congrArg Ideal.logistic
        ((stacked_z T0 T1 T2 T3 T4 Az0 Az1 Az2 Az3 Az4 Ar0 Ar1 Ar2 Ar3 Ar4 bz br n j).trans
          (ref_pre T0 T1 T2 T3 T4 Az0 Az1 Az2 Az3 Az4 bz n j).symm)).trans
      (ref_gate _ n j).symm)

/-- The right half of the kernel's gate layer is the reference's second gate. -/
theorem gate_r_eq (T0 T1 T2 T3 T4 : Cn Ideal S50000x128 .f32) (Az0 Az1 Az2 Az3 Az4 Ar0 Ar1 Ar2 Ar3 Ar4 : Cn Ideal S128x64 .f32)
    (bz br : Cn Ideal S64 .f32) :
    halfHi (G0 (cat5 T0 T1 T2 T3 T4) (wpair (stack5 Az0 Az1 Az2 Az3 Az4) (stack5 Ar0 Ar1 Ar2 Ar3 Ar4))
        (brow128 bz br))
      = rgate (rpre T0 T1 T2 T3 T4 Ar0 Ar1 Ar2 Ar3 Ar4 br) := by
  funext i
  obtain ⟨n, j, rfl⟩ : ∃ (n : Fin 50000) (j : Fin 64), i = ix2 n j := ⟨i 0, i 1, eq_ix2 i⟩
  exact (slice_hi _ n j).trans
    ((congrArg Ideal.logistic
        ((stacked_r T0 T1 T2 T3 T4 Az0 Az1 Az2 Az3 Az4 Ar0 Ar1 Ar2 Ar3 Ar4 bz br n j).trans
          (ref_pre T0 T1 T2 T3 T4 Ar0 Ar1 Ar2 Ar3 Ar4 br n j).symm)).trans
      (ref_gate _ n j).symm)

/-- The kernel's update layer is the reference's update. -/
theorem update_eq (T0 T1 T2 T3 T4 : Cn Ideal S50000x128 .f32) (A0 A1 A2 A3 A4 : Cn Ideal S128x64 .f32)
    (bh : Cn Ideal S64 .f32) (Z H : Cn Ideal S50000x64 .f32) :
    G1 (cat5 T0 T1 T2 T3 T4) (stack5 A0 A1 A2 A3 A4) (brow64 bh) Z H
      = rupdate Z H (rpre T0 T1 T2 T3 T4 A0 A1 A2 A3 A4 bh) := by
  funext i
  obtain ⟨n, j, rfl⟩ : ∃ (n : Fin 50000) (j : Fin 64), i = ix2 n j := ⟨i 0, i 1, eq_ix2 i⟩
  exact (congrArg (fun s => Z (ix2 n j) * H (ix2 n j) + (Ideal.ofBits .f32 0x3F800000#32 - Z (ix2 n j)) * Ideal.tanh s)
      ((stacked_h T0 T1 T2 T3 T4 A0 A1 A2 A3 A4 bh n j).trans (ref_pre T0 T1 T2 T3 T4 A0 A1 A2 A3 A4 bh n j).symm)).trans
    (ref_update Z H _ n j).symm

end Cert.Bridge
-- ==== Proof.Bridge.lean ====
/-
  The two idealized programs end with the same array. The kernel's result is the update layer applied to the
  diffusion terms of [X, H * R], with Z and R the two halves of the gate layer's output; the reference's is the same
  combination with each layer written as five products added in turn. Layer by layer the two are one array (a
  product against stacked blocks is the sum of the blocks' products), and the closing replacement of entries that
  are not numbers changes nothing on the extended reals, where every entry is a number.
-/
import proofs.«157260_j76725295776119_1_alg».proof.Proof.IdealValue
import proofs.«157260_j76725295776119_1_alg».proof.Proof.RefCompose
import proofs.«157260_j76725295776119_1_alg».proof.Proof.BridgeLayers

set_option maxRecDepth 16384

noncomputable section

namespace Cert.Bridge

open Idealize.ShloMosaic Idealize.ShloMosaic.TcCoe Idealize.SL.Sem
open Cert.KernelIdeal.Spec Cert.KernelIdeal.HandValue Cert.ReferenceIdeal.HandValue Cert.ReferenceIdeal.HandValue2

attribute [local irreducible] Host.gather Host.scatterAdd

/-- From memories that agree on the nine arguments, the kernel program's result buffer after its run is the
    reference's. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Hand.W7 (F := Ideal) m ρ c (Proc.devRef .tc Cert.KernelIdeal.main_v213)
      = StableHlo.after (Cert.ReferenceIdeal.Hand.ops (F := Ideal)) (StableHlo.launchContents m' c) (Proc.devRef .tc Cert.ReferenceIdeal.main_v312) := by
  obtain ⟨h0, h1, h2, h3, h4, h5, h6, h7, h8⟩ := h
  have e0 : StableHlo.launchContents m' c (Proc.devRef .tc Cert.ReferenceIdeal.main_arg0) = (m ((c.tc : Thread Cert.KernelIdeal.nD Cert.KernelIdeal.τ).loc Cert.KernelIdeal.main_arg0)) := h0
  have e1 : StableHlo.launchContents m' c (Proc.devRef .tc Cert.ReferenceIdeal.main_arg1) = (m ((c.tc : Thread Cert.KernelIdeal.nD Cert.KernelIdeal.τ).loc Cert.KernelIdeal.main_arg1)) := h1
  have e2 : StableHlo.launchContents m' c (Proc.devRef .tc Cert.ReferenceIdeal.main_arg2) = (m ((c.tc : Thread Cert.KernelIdeal.nD Cert.KernelIdeal.τ).loc Cert.KernelIdeal.main_arg2)) := h2
  have e3 : StableHlo.launchContents m' c (Proc.devRef .tc Cert.ReferenceIdeal.main_arg3) = (m ((c.tc : Thread Cert.KernelIdeal.nD Cert.KernelIdeal.τ).loc Cert.KernelIdeal.main_arg3)) := h3
  have e4 : StableHlo.launchContents m' c (Proc.devRef .tc Cert.ReferenceIdeal.main_arg4) = (m ((c.tc : Thread Cert.KernelIdeal.nD Cert.KernelIdeal.τ).loc Cert.KernelIdeal.main_arg4)) := h4
  have e5 : StableHlo.launchContents m' c (Proc.devRef .tc Cert.ReferenceIdeal.main_arg5) = (m ((c.tc : Thread Cert.KernelIdeal.nD Cert.KernelIdeal.τ).loc Cert.KernelIdeal.main_arg5)) := h5
  have e6 : StableHlo.launchContents m' c (Proc.devRef .tc Cert.ReferenceIdeal.main_arg6) = (m ((c.tc : Thread Cert.KernelIdeal.nD Cert.KernelIdeal.τ).loc Cert.KernelIdeal.main_arg6)) := h6
  have e7 : StableHlo.launchContents m' c (Proc.devRef .tc Cert.ReferenceIdeal.main_arg7) = (m ((c.tc : Thread Cert.KernelIdeal.nD Cert.KernelIdeal.τ).loc Cert.KernelIdeal.main_arg7)) := h7
  have e8 : StableHlo.launchContents m' c (Proc.devRef .tc Cert.ReferenceIdeal.main_arg8) = (m ((c.tc : Thread Cert.KernelIdeal.nD Cert.KernelIdeal.τ).loc Cert.KernelIdeal.main_arg8)) := h8
  rw [kernel_value]
  unfold kernelResult gateVal
  rw [nanfill_ideal, ref_value_ideal, e0, e1, e2, e3, e4, e5, e6, e7, e8]
  unfold Cert.KernelIdeal.Spec.txcat Cert.KernelIdeal.Spec.wcat Cert.ReferenceIdeal.HandValue.rconv
  rw [update_eq, gate_z_eq, gate_r_eq]

end Cert.Bridge

end
-- ==== Proof.lean ====
/-
  The certificate of the diffusion-convolution GRU cell: the kernel program (two pipelined regions among host lines)
  and its idealization run to the end leaving their arguments unchanged; the reference does too; the idealization
  rewrote nothing; and at the extended reals the two results are one array, because a matrix product against five
  stacked weight blocks is the sum of the five products, whatever the entries (only re-grouping of finite sums is used).
-/
import proofs.«157260_j76725295776119_1_alg».proof.Defs
import proofs.«157260_j76725295776119_1_alg».proof.Proof.BitsRun
import proofs.«157260_j76725295776119_1_alg».proof.Proof.IdealRun
import proofs.«157260_j76725295776119_1_alg».proof.Proof.RefFrame
import proofs.«157260_j76725295776119_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_k : @Cert.frame_Kernel Cert.Kernel.Gen.facts Cert.Pre_finite_inputs.Gen.facts :=
  fun m ρ _ => Cert.Kernel.Hand.frame m ρ
/-- Its idealization runs and keeps its arguments. -/
theorem frame_ki : @Cert.frame_KernelIdeal Cert.KernelIdeal.Gen.facts Cert.Pre_finite_inputs.Gen.facts :=
  fun m ρ _ => Cert.KernelIdeal.Hand.frame m ρ

/-- From memories agreeing on the arguments the two idealized programs end with the same result array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W7 (F := Ideal) m ρ c (Proc.devRef .tc Cert.KernelIdeal.main_v213), ?_, ?_⟩
  · exact Cert.KernelIdeal.Hand.run_all m ρ (fun s h c =>
      ⟨h c _ (Cert.KernelIdeal.Hand.mem_uc Cert.KernelIdeal.main_v213 (by decide)),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c),
       (h c _ (Cert.KernelIdeal.Hand.mem_uc Cert.KernelIdeal.main_arg5 (by decide))).trans (Cert.KernelIdeal.Hand.W7_main_arg5 m ρ c),
       (h c _ (Cert.KernelIdeal.Hand.mem_uc Cert.KernelIdeal.main_arg6 (by decide))).trans (Cert.KernelIdeal.Hand.W7_main_arg6 m ρ c),
       (h c _ (Cert.KernelIdeal.Hand.mem_uc Cert.KernelIdeal.main_arg7 (by decide))).trans (Cert.KernelIdeal.Hand.W7_main_arg7 m ρ c),
       (h c _ (Cert.KernelIdeal.Hand.mem_uc Cert.KernelIdeal.main_arg8 (by decide))).trans (Cert.KernelIdeal.Hand.W7_main_arg8 m ρ c)⟩)
  · refine (θ_run Cert.ReferenceIdeal.defs _ _).mono (fun r h c =>
      ⟨(h c Cert.ReferenceIdeal.main_v312).trans (Cert.Bridge.value_eq m ρ m' c (hagree c)).symm,
       (h c Cert.ReferenceIdeal.main_arg0).trans (Cert.ReferenceIdeal.Hand.kept_arg0 _),
       (h c Cert.ReferenceIdeal.main_arg1).trans (Cert.ReferenceIdeal.Hand.kept_arg1 _),
       (h c Cert.ReferenceIdeal.main_arg2).trans (Cert.ReferenceIdeal.Hand.kept_arg2 _),
       (h c Cert.ReferenceIdeal.main_arg3).trans (Cert.ReferenceIdeal.Hand.kept_arg3 _),
       (h c Cert.ReferenceIdeal.main_arg4).trans (Cert.ReferenceIdeal.Hand.kept_arg4 _),
       (h c Cert.ReferenceIdeal.main_arg5).trans (Cert.ReferenceIdeal.Hand.kept_arg5 _),
       (h c Cert.ReferenceIdeal.main_arg6).trans (Cert.ReferenceIdeal.Hand.kept_arg6 _),
       (h c Cert.ReferenceIdeal.main_arg7).trans (Cert.ReferenceIdeal.Hand.kept_arg7 _),
       (h c Cert.ReferenceIdeal.main_arg8).trans (Cert.ReferenceIdeal.Hand.kept_arg8 _)⟩)
      (Cert.ReferenceIdeal.Hand.run_all (F := Ideal) m' ρ')

theorem claim : Cert.Claim := ⟨Cert.Kernel.Gen.facts, Cert.KernelIdeal.Gen.facts, Cert.ReferenceIdeal.Gen.facts, Cert.Pre_finite_inputs.Gen.facts,
  frame_k, frame_ki, Cert.Proof.Hand.frame_ri, trivial, algebraic⟩

end Cert.Proof

end
